-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4 : Shape := ⟨2, ![64, 4]⟩
abbrev S64x4x256 : Shape := ⟨3, ![64, 4, 256]⟩
abbrev S64x1x256 : Shape := ⟨3, ![64, 1, 256]⟩
abbrev S4x8192x4x256 : Shape := ⟨4, ![4, 8192, 4, 256]⟩
abbrev S64 : Shape := ⟨1, ![64]⟩
abbrev S_ : Shape := ⟨0, ![]⟩

class Facts : Prop where
  bcast_S_S64x4 : S_.BroadcastsInDim S64x4 (![] : Fin 0 → Fin S64x4.rank)
  reducesTo_S64x4_S_d0_1 : S64x4.ReducesTo [0, 1] S_
  h_S_ : 0 < S_.numel
  bcast_S_S64x4x256 : S_.BroadcastsInDim S64x4x256 (![] : Fin 0 → Fin S64x4x256.rank)
  reducesTo_S64x4x256_S_d0_1_2 : S64x4x256.ReducesTo [0, 1, 2] S_
  bcast_S_S64x1x256 : S_.BroadcastsInDim S64x1x256 (![] : Fin 0 → Fin S64x1x256.rank)
  reducesTo_S64x1x256_S_d0_1_2 : S64x1x256.ReducesTo [0, 1, 2] S_
  bcast_S_S4x8192x4x256 : S_.BroadcastsInDim S4x8192x4x256 (![] : Fin 0 → Fin S4x8192x4x256.rank)
  reducesTo_S4x8192x4x256_S_d0_1_2_3 : S4x8192x4x256.ReducesTo [0, 1, 2, 3] S_

variable [Facts]

def fn_part1 {F : FTy → Type} [FloatOps F] (main_arg4 : FVec F S64x1x256 .f32) (main_arg5 : FVec F S4x8192x4x256 .f32) (main_v13 : IVec S_ 1) (main_v16 : IVec S64x1x256 1) : IVec S_ 1 :=
  let main_c_5 : IVec S_ 1 := constantI S_ 1 1#1
  let main_v17 : IVec S_ 1 := (fun x v => Host.reduce IntOp.andi x v reducesTo_S64x1x256_S_d0_1_2 h_S_) main_v16 main_c_5
  let main_v18 : IVec S_ 1 := andi main_v13 main_v17
  let main_v19 : FVec F S64x1x256 .f32 := Host.absf main_arg4
  let main_cst_6 : FVec F S_ .f32 := constant S_ .f32 0x7F800000#32
  let main_v20 : FVec F S64x1x256 .f32 := broadcastInDim S64x1x256 ![] bcast_S_S64x1x256 main_cst_6
  let main_v21 : IVec S64x1x256 1 := cmpf .olt main_v19 main_v20
  let main_c_7 : IVec S_ 1 := constantI S_ 1 1#1
  let main_v22 : IVec S_ 1 := (fun x v => Host.reduce IntOp.andi x v reducesTo_S64x1x256_S_d0_1_2 h_S_) main_v21 main_c_7
  let main_v23 : IVec S_ 1 := andi main_v18 main_v22
  let main_v24 : FVec F S4x8192x4x256 .f32 := Host.absf main_arg5
  let main_cst_8 : FVec F S_ .f32 := constant S_ .f32 0x7F800000#32
  let main_v25 : FVec F S4x8192x4x256 .f32 := broadcastInDim S4x8192x4x256 ![] bcast_S_S4x8192x4x256 main_cst_8
  let main_v26 : IVec S4x8192x4x256 1 := cmpf .olt main_v24 main_v25
  let main_c_9 : IVec S_ 1 := constantI S_ 1 1#1
  let main_v27 : IVec S_ 1 := (fun x v => Host.reduce IntOp.andi x v reducesTo_S4x8192x4x256_S_d0_1_2_3 h_S_) main_v26 main_c_9
  let main_v28 : IVec S_ 1 := andi main_v23 main_v27
  main_v28

def fn {F : FTy → Type} [FloatOps F] (main_arg0 : FVec F S64x4 .f32) (main_arg1 : FVec F S64x4 .f32) (main_arg2 : FVec F S64x4x256 .f32) (main_arg3 : FVec F S64x1x256 .f32) (main_arg4 : FVec F S64x1x256 .f32) (main_arg5 : FVec F S4x8192x4x256 .f32) (main_arg6 : IVec S64 32) (main_arg7 : IVec S64 32) : IVec S_ 1 :=
  let main_v0 : FVec F S64x4 .f32 := Host.absf main_arg0
  let main_cst : FVec F S_ .f32 := constant S_ .f32 0x7F800000#32
  let main_v1 : FVec F S64x4 .f32 := broadcastInDim S64x4 ![] bcast_S_S64x4 main_cst
  let main_v2 : IVec S64x4 1 := cmpf .olt main_v0 main_v1
  let main_c : IVec S_ 1 := constantI S_ 1 1#1
  let main_v3 : IVec S_ 1 := (fun x v => Host.reduce IntOp.andi x v reducesTo_S64x4_S_d0_1 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64x4x256 .f32 := Host.absf main_arg2
  let main_cst_2 : FVec F S_ .f32 := constant S_ .f32 0x7F800000#32
  let main_v10 : FVec F S64x4x256 .f32 := broadcastInDim S64x4x256 ![] bcast_S_S64x4x256 main_cst_2
  let main_v11 : IVec S64x4x256 1 := cmpf .olt main_v9 main_v10
  let main_c_3 : IVec S_ 1 := constantI S_ 1 1#1
  let main_v12 : IVec S_ 1 := (fun x v => Host.reduce IntOp.andi x v reducesTo_S64x4x256_S_d0_1_2 h_S_) main_v11 main_c_3
  let main_v13 : IVec S_ 1 := andi main_v8 main_v12
  let main_v14 : FVec F S64x1x256 .f32 := Host.absf main_arg3
  let main_cst_4 : FVec F S_ .f32 := constant S_ .f32 0x7F800000#32
  let main_v15 : FVec F S64x1x256 .f32 := broadcastInDim S64x1x256 ![] bcast_S_S64x1x256 main_cst_4
  let main_v16 : IVec S64x1x256 1 := cmpf .olt main_v14 main_v15
  fn_part1 (F := F) main_arg4 main_arg5 main_v13 main_v16
-- ==== Kernel.lean ====
abbrev S64x4 : Shape := ⟨2, ![64, 4]⟩
abbrev S64x4x256 : Shape := ⟨3, ![64, 4, 256]⟩
abbrev S64x1x256 : Shape := ⟨3, ![64, 1, 256]⟩
abbrev S4x8192x4x256 : Shape := ⟨4, ![4, 8192, 4, 256]⟩
abbrev S64 : Shape := ⟨1, ![64]⟩
abbrev S4x2 : Shape := ⟨2, ![4, 2]⟩
abbrev S64x1 : Shape := ⟨2, ![64, 1]⟩
abbrev S_ : Shape := ⟨0, ![]⟩
abbrev S64x5 : Shape := ⟨2, ![64, 5]⟩
abbrev S64x1x1 : Shape := ⟨3, ![64, 1, 1]⟩
abbrev S1 : Shape := ⟨1, ![1]⟩
abbrev S1x1x1 : Shape := ⟨3, ![1, 1, 1]⟩
abbrev S64x4x1 : Shape := ⟨3, ![64, 4, 1]⟩
abbrev S64x2x256 : Shape := ⟨3, ![64, 2, 256]⟩
abbrev S64x2 : Shape := ⟨2, ![64, 2]⟩
abbrev S64x2x1 : Shape := ⟨3, ![64, 2, 1]⟩
abbrev S64x4x2 : Shape := ⟨3, ![64, 4, 2]⟩
abbrev S1x4x2 : Shape := ⟨3, ![1, 4, 2]⟩
abbrev S64x256 : Shape := ⟨2, ![64, 256]⟩
abbrev S4 : Shape := ⟨1, ![4]⟩
abbrev S1x4 : Shape := ⟨2, ![1, 4]⟩
abbrev S1x1 : Shape := ⟨2, ![1, 1]⟩
abbrev S4x256x4x256 : Shape := ⟨4, ![4, 256, 4, 256]⟩
abbrev S4x256x256 : Shape := ⟨3, ![4, 256, 256]⟩
abbrev S4x256 : Shape := ⟨2, ![4, 256]⟩
abbrev S4x256x1 : Shape := ⟨3, ![4, 256, 1]⟩
abbrev S1x256x256 : Shape := ⟨3, ![1, 256, 256]⟩
abbrev S256x256 : Shape := ⟨2, ![256, 256]⟩

abbrev nBuf : Space → Nat
  | .hbm => 203
  | .vmem => 6
  | .smem => 0
  | _ => 0

abbrev hbmTy0_0 (i : Nat) : BufTy := match i % 128 with
  | 0 => ⟨S64x4, .f32⟩
  | 1 => ⟨S64x4, .f32⟩
  | 2 => ⟨S64x4x256, .f32⟩
  | 3 => ⟨S64x1x256, .f32⟩
  | 4 => ⟨S64x1x256, .f32⟩
  | 5 => ⟨S4x8192x4x256, .f32⟩
  | 6 => ⟨S64, .i32⟩
  | 7 => ⟨S64, .i32⟩
  | 8 => ⟨S4x2, .f32⟩
  | 9 => ⟨S64, .f32⟩
  | 10 => ⟨S64x1, .f32⟩
  | 11 => ⟨S64x1, .i32⟩
  | 12 => ⟨S_, .f32⟩
  | 13 => ⟨S64x1, .f32⟩
  | 14 => ⟨S64x5, .f32⟩
  | 15 => ⟨S_, .i32⟩
  | 16 => ⟨S64x1, .i32⟩
  | 17 => ⟨S64x1, .i1⟩
  | 18 => ⟨S_, .i32⟩
  | 19 => ⟨S64x1, .i32⟩
  | 20 => ⟨S64x1, .i32⟩
  | 21 => ⟨S64x1, .i32⟩
  | 22 => ⟨S64x1x1, .i32⟩
  | 23 => ⟨S1, .i32⟩
  | 24 => ⟨S_, .i32⟩
  | 25 => ⟨S64x1x1, .i32⟩
  | 26 => ⟨S64x1x1, .i1⟩
  | 27 => ⟨S1x1x1, .i32⟩
  | 28 => ⟨S64x1x1, .i32⟩
  | 29 => ⟨S64x1x1, .i1⟩
  | 30 => ⟨S64x1x1, .i1⟩
  | 31 => ⟨S_, .i1⟩
  | 32 => ⟨S64x1, .i1⟩
  | 33 => ⟨S64x1, .f32⟩
  | 34 => ⟨S_, .f32⟩
  | 35 => ⟨S64x1, .f32⟩
  | 36 => ⟨S64x1, .f32⟩
  | 37 => ⟨S_, .i32⟩
  | 38 => ⟨S64x1, .i32⟩
  | 39 => ⟨S64x1, .i1⟩
  | 40 => ⟨S_, .i32⟩
  | 41 => ⟨S64x1, .i32⟩
  | 42 => ⟨S64x1, .i32⟩
  | 43 => ⟨S64x1, .i32⟩
  | 44 => ⟨S64x1x1, .i32⟩
  | 45 => ⟨S1, .i32⟩
  | 46 => ⟨S_, .i32⟩
  | 47 => ⟨S64x1x1, .i32⟩
  | 48 => ⟨S64x1x1, .i1⟩
  | 49 => ⟨S1x1x1, .i32⟩
  | 50 => ⟨S64x1x1, .i32⟩
  | 51 => ⟨S64x1x1, .i1⟩
  | 52 => ⟨S64x1x1, .i1⟩
  | 53 => ⟨S_, .i1⟩
  | 54 => ⟨S64x1, .i1⟩
  | 55 => ⟨S64x1, .f32⟩
  | 56 => ⟨S_, .f32⟩
  | 57 => ⟨S64x1, .f32⟩
  | 58 => ⟨S64x1, .f32⟩
  | 59 => ⟨S_, .i32⟩
  | 60 => ⟨S64x1, .i32⟩
  | 61 => ⟨S64x1, .i32⟩
  | 62 => ⟨S_, .i32⟩
  | 63 => ⟨S64x1, .i32⟩
  | 64 => ⟨S64x1, .i1⟩
  | 65 => ⟨S_, .i32⟩
  | 66 => ⟨S64x1, .i32⟩
  | 67 => ⟨S64x1, .i32⟩
  | 68 => ⟨S64x1, .i32⟩
  | 69 => ⟨S64x1x1, .i32⟩
  | 70 => ⟨S1, .i32⟩
  | 71 => ⟨S_, .i32⟩
  | 72 => ⟨S64x1x1, .i32⟩
  | 73 => ⟨S64x1x1, .i1⟩
  | 74 => ⟨S1x1x1, .i32⟩
  | 75 => ⟨S64x1x1, .i32⟩
  | 76 => ⟨S64x1x1, .i1⟩
  | 77 => ⟨S64x1x1, .i1⟩
  | 78 => ⟨S_, .i1⟩
  | 79 => ⟨S64x1, .i1⟩
  | 80 => ⟨S64x1, .f32⟩
  | 81 => ⟨S_, .f32⟩
  | 82 => ⟨S64x1, .f32⟩
  | 83 => ⟨S64x1, .f32⟩
  | 84 => ⟨S_, .f32⟩
  | 85 => ⟨S64x1, .f32⟩
  | 86 => ⟨S64x1, .f32⟩
  | 87 => ⟨S64x1, .f32⟩
  | 88 => ⟨S_, .f32⟩
  | 89 => ⟨S64x1, .f32⟩
  | 90 => ⟨S64x1, .f32⟩
  | 91 => ⟨S64x1, .f32⟩
  | 92 => ⟨S_, .f32⟩
  | 93 => ⟨S64x1, .f32⟩
  | 94 => ⟨S64x1, .f32⟩
  | 95 => ⟨S64x1, .f32⟩
  | 96 => ⟨S64x1, .f32⟩
  | 97 => ⟨S64x1, .f32⟩
  | 98 => ⟨S64x1, .f32⟩
  | 99 => ⟨S_, .f32⟩
  | 100 => ⟨S64x1, .f32⟩
  | 101 => ⟨S64x1, .f32⟩
  | 102 => ⟨S64x1, .f32⟩
  | 103 => ⟨S64x1, .f32⟩
  | 104 => ⟨S64x1, .f32⟩
  | 105 => ⟨S_, .f32⟩
  | 106 => ⟨S64x1, .f32⟩
  | 107 => ⟨S64x1, .f32⟩
  | 108 => ⟨S_, .f32⟩
  | 109 => ⟨S64x1, .f32⟩
  | 110 => ⟨S64x1, .f32⟩
  | 111 => ⟨S64x1, .f32⟩
  | 112 => ⟨S_, .f32⟩
  | 113 => ⟨S_, .f32⟩
  | 114 => ⟨S_, .f32⟩
  | 115 => ⟨S_, .f32⟩
  | 116 => ⟨S64x4x256, .f32⟩
  | 117 => ⟨S_, .f32⟩
  | 118 => ⟨S64x4, .f32⟩
  | 119 => ⟨S64x4x1, .f32⟩
  | 120 => ⟨S64x4x1, .f32⟩
  | 121 => ⟨S_, .f32⟩
  | 122 => ⟨S64x4x1, .f32⟩
  | 123 => ⟨S64x4x1, .f32⟩
  | 124 => ⟨S64x4x256, .f32⟩
  | 125 => ⟨S64x4x256, .f32⟩
  | 126 => ⟨S64x2x256, .f32⟩
  | 127 => ⟨S64x2x256, .f32⟩
  | _ => ⟨S64x4, .f32⟩

abbrev hbmTy0_1 (i : Nat) : BufTy := match i % 128 with
  | 0 => ⟨S_, .f32⟩
  | 1 => ⟨S64x2, .f32⟩
  | 2 => ⟨S64x2x1, .f32⟩
  | 3 => ⟨S64x2x1, .f32⟩
  | 4 => ⟨S_, .f32⟩
  | 5 => ⟨S64x2x1, .f32⟩
  | 6 => ⟨S64x2x1, .f32⟩
  | 7 => ⟨S64x2x256, .f32⟩
  | 8 => ⟨S64x2x256, .f32⟩
  | 9 => ⟨S64x4x2, .f32⟩
  | 10 => ⟨S64x4x2, .f32⟩
  | 11 => ⟨S_, .f32⟩
  | 12 => ⟨S4x2, .f32⟩
  | 13 => ⟨S4x2, .f32⟩
  | 14 => ⟨S1x4x2, .f32⟩
  | 15 => ⟨S64x4x2, .f32⟩
  | 16 => ⟨S64x4x2, .f32⟩
  | 17 => ⟨S1x4x2, .f32⟩
  | 18 => ⟨S64x4x2, .f32⟩
  | 19 => ⟨S64x4x2, .f32⟩
  | 20 => ⟨S64x4x2, .f32⟩
  | 21 => ⟨S_, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S_, .f32⟩
  | 31 => ⟨S_, .f32⟩
  | 32 => ⟨S_, .f32⟩
  | 33 => ⟨S_, .f32⟩
  | 34 => ⟨S64x256, .f32⟩
  | 35 => ⟨S_, .f32⟩
  | 36 => ⟨S64x256, .f32⟩
  | 37 => ⟨S64x256, .f32⟩
  | 38 => ⟨S64x256, .f32⟩
  | 39 => ⟨S_, .f32⟩
  | 40 => ⟨S64, .f32⟩
  | 41 => ⟨S64x1, .f32⟩
  | 42 => ⟨S64x1, .f32⟩
  | 43 => ⟨S_, .f32⟩
  | 44 => ⟨S64x1, .f32⟩
  | 45 => ⟨S64x1, .f32⟩
  | 46 => ⟨S64x256, .f32⟩
  | 47 => ⟨S64x256, .f32⟩
  | 48 => ⟨S64x1, .i32⟩
  | 49 => ⟨S4, .i32⟩
  | 50 => ⟨S1x4, .i32⟩
  | 51 => ⟨S64x4, .i32⟩
  | 52 => ⟨S64x4, .i32⟩
  | 53 => ⟨S64x4, .i1⟩
  | 54 => ⟨S64x4, .f32⟩
  | 55 => ⟨S1x1, .f32⟩
  | 56 => ⟨S1x1, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S64x4, .f32⟩

abbrev hbmTy (i : Nat) : BufTy := match i / 128 with
  | 0 => hbmTy0_0 i
  | 1 => hbmTy0_1 i
  | _ => ⟨S64x4, .f32⟩

abbrev bufTy : (tb : Table) → Fin (tcTables nBuf tb) → BufTy
  | .hbm, ⟨i, _⟩ => hbmTy i
  | .local _ .vmem, ⟨0, _⟩ => ⟨S4x256x4x256, .f32⟩
  | .local _ .vmem, ⟨1, _⟩ => ⟨S4x256x4x256, .f32⟩
  | .local _ .vmem, ⟨2, _⟩ => ⟨S64x256, .f32⟩
  | .local _ .vmem, ⟨3, _⟩ => ⟨S64x4, .f32⟩
  | .local _ .vmem, ⟨4, _⟩ => ⟨S1x1, .f32⟩
  | .local _ .vmem, ⟨5, _⟩ => ⟨S1x1, .f32⟩
  | _, _ => ⟨S64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v5 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v6 : Ref sig .tc := ⟨.hbm, 58, rfl⟩
abbrev main_c : Ref sig .tc := ⟨.hbm, 59, rfl⟩
abbrev main_v7 : Ref sig .tc := ⟨.hbm, 60, rfl⟩
abbrev main_v8 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v9 : Ref sig .tc := ⟨.hbm, 83, rfl⟩
abbrev main_cst_1 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_cst_2 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_cst_3 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_cst_4 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_cst_5 : Ref sig .tc := ⟨.hbm, 105, rfl⟩
abbrev main_v27 : Ref sig .tc := ⟨.hbm, 106, rfl⟩
abbrev main_v28 : Ref sig .tc := ⟨.hbm, 107, rfl⟩
abbrev main_cst_6 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_7 : Ref sig .tc := ⟨.hbm, 112, rfl⟩
abbrev main_v32 : Ref sig .tc := ⟨.hbm, 113, rfl⟩
abbrev main_cst_8 : Ref sig .tc := ⟨.hbm, 114, rfl⟩
abbrev main_v33 : Ref sig .tc := ⟨.hbm, 115, rfl⟩
abbrev main_v34 : Ref sig .tc := ⟨.hbm, 116, rfl⟩
abbrev main_cst_9 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_cst_10 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_cst_11 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_cst_12 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_cst_13 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_cst_14 : Ref sig .tc := ⟨.hbm, 149, rfl⟩
abbrev main_v62 : Ref sig .tc := ⟨.hbm, 150, rfl⟩
abbrev main_cst_15 : Ref sig .tc := ⟨.hbm, 151, rfl⟩
abbrev main_v63 : Ref sig .tc := ⟨.hbm, 152, rfl⟩
abbrev main_v64 : Ref sig .tc := ⟨.hbm, 153, rfl⟩
abbrev main_cst_16 : Ref sig .tc := ⟨.hbm, 154, rfl⟩
abbrev main_v65 : Ref sig .tc := ⟨.hbm, 155, rfl⟩
abbrev main_v66 : Ref sig .tc := ⟨.hbm, 156, rfl⟩
abbrev main_cst_17 : Ref sig .tc := ⟨.hbm, 157, rfl⟩
abbrev main_v67 : Ref sig .tc := ⟨.hbm, 158, rfl⟩
abbrev main_cst_18 : Ref sig .tc := ⟨.hbm, 159, rfl⟩
abbrev main_v68 : Ref sig .tc := ⟨.hbm, 160, rfl⟩
abbrev main_cst_19 : Ref sig .tc := ⟨.hbm, 161, rfl⟩
abbrev main_v69 : Ref sig .tc := ⟨.hbm, 162, rfl⟩
abbrev main_cst_20 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_cst_21 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_cst_22 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87_0 : Ref sig .tc := ⟨.hbm, 183, rfl⟩
abbrev main_v87_1 : Ref sig .tc := ⟨.hbm, 184, rfl⟩
abbrev main_v88 : Ref sig .tc := ⟨.hbm, 185, rfl⟩
abbrev main_cst_23 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_cst_24 : Ref sig .tc := ⟨.hbm, 191, rfl⟩
abbrev main_v93 : Ref sig .tc := ⟨.hbm, 192, rfl⟩
abbrev main_cst_25 : Ref sig .tc := ⟨.hbm, 193, rfl⟩
abbrev main_v94 : Ref sig .tc := ⟨.hbm, 194, rfl⟩
abbrev main_v95 : Ref sig .tc := ⟨.hbm, 195, rfl⟩
abbrev main_cst_26 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  concatenates_S64x1_S64x4_S64x5_d1 : Shape.Concatenates [S64x1, S64x4] S64x5 1
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  h_S_ : 0 < S_.numel
  reducesTo_S64x1_S_d0_1 : S64x1.ReducesTo [0, 1] S_
  reducesTo_S64x4x256_S64x4_d2 : S64x4x256.ReducesTo [2] S64x4
  bcast_S64x4_S64x4x1_0_1 : S64x4.BroadcastsInDim S64x4x1 (![0, 1] : Fin 2 → Fin S64x4x1.rank)
  bcast_S_S64x4x1 : S_.BroadcastsInDim S64x4x1 (![] : Fin 0 → Fin S64x4x1.rank)
  bcast_S64x4x1_S64x4x256_0_1_2 : S64x4x1.BroadcastsInDim S64x4x256 (![0, 1, 2] : Fin 3 → Fin S64x4x256.rank)
  concatenates_S64x1x256_S64x1x256_S64x2x256_d1 : Shape.Concatenates [S64x1x256, S64x1x256] S64x2x256 1
  reducesTo_S64x2x256_S64x2_d2 : S64x2x256.ReducesTo [2] S64x2
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S64x2x1_S64x2x256_0_1_2 : S64x2x1.BroadcastsInDim S64x2x256 (![0, 1, 2] : Fin 3 → Fin S64x2x256.rank)
  bcast_S_S4x2 : S_.BroadcastsInDim S4x2 (![] : Fin 0 → Fin S4x2.rank)
  bcast_S4x2_S1x4x2_1_2 : S4x2.BroadcastsInDim S1x4x2 (![1, 2] : Fin 2 → Fin S1x4x2.rank)
  bcast_S1x4x2_S64x4x2_0_1_2 : S1x4x2.BroadcastsInDim S64x4x2 (![0, 1, 2] : Fin 3 → Fin S64x4x2.rank)
  reducesTo_S64x4x2_S64_d1_2 : S64x4x2.ReducesTo [1, 2] S64
  bcast_S_S64 : S_.BroadcastsInDim S64 (![] : Fin 0 → Fin S64.rank)
  reducesTo_S64_S_d0 : S64.ReducesTo [0] S_
  reducesTo_S64x4x256_S64x256_d1 : S64x4x256.ReducesTo [1] S64x256
  bcast_S_S64x256 : S_.BroadcastsInDim S64x256 (![] : Fin 0 → Fin S64x256.rank)
  reducesTo_S64x256_S64_d1 : S64x256.ReducesTo [1] S64
  bcast_S64x1_S64x256_0_1 : S64x1.BroadcastsInDim S64x256 (![0, 1] : Fin 2 → Fin S64x256.rank)
  bcast_S4_S1x4_1 : S4.BroadcastsInDim S1x4 (![1] : Fin 1 → Fin S1x4.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  inb_S1x1_S1x1_0_0 : ∀ a, (![0, 0] : Fin 2 → Nat) a + S1x1.size a ≤ S1x1.size a
  h_S1x1 : 0 < S1x1.numel
  inb_S4x256x4x256_S4x256x4x256_0_0_0_0 : ∀ a, (![0, 0, 0, 0] : Fin 4 → Nat) a + S4x256x4x256.size a ≤ S4x256x4x256.size a
  h_S4x256x4x256 : 0 < S4x256x4x256.numel
  reduces_S4x256x4x256_S4x256x256 : S4x256x4x256.Reduces [2] S4x256x256
  reduces_S4x256x256_S4x256 : S4x256x256.Reduces [2] S4x256
  shapeCasts_S4x256_S4x256x1 : S4x256.ShapeCasts S4x256x1
  broadcasts_S4x256x1_S4x256x256 : S4x256x1.Broadcasts S4x256x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  shapeCasts_S64x4_S64x4 : S64x4.ShapeCasts S64x4
  slices_S4x256x256_o0_0_0_S1x256x256 : S4x256x256.Slices ![0, 0, 0] S1x256x256
  shapeCasts_S1x256x256_S256x256 : S1x256x256.ShapeCasts S256x256
  reduces_S64x256_S64 : S64x256.Reduces [1] S64
  shapeCasts_S64_S64x1 : S64.ShapeCasts S64x1
  reduces_S64x1_S1 : S64x1.Reduces [0] S1
  shapeCasts_S1_S1x1 : S1.ShapeCasts S1x1
  slices_S64x4_o0_0_S64x1 : S64x4.Slices ![0, 0] S64x1
  slices_S4x256x256_o1_0_0_S1x256x256 : S4x256x256.Slices ![1, 0, 0] S1x256x256
  slices_S64x4_o0_1_S64x1 : S64x4.Slices ![0, 1] S64x1
  slices_S4x256x256_o2_0_0_S1x256x256 : S4x256x256.Slices ![2, 0, 0] S1x256x256
  slices_S64x4_o0_2_S64x1 : S64x4.Slices ![0, 2] S64x1
  slices_S4x256x256_o3_0_0_S1x256x256 : S4x256x256.Slices ![3, 0, 0] S1x256x256
  slices_S64x4_o0_3_S64x1 : S64x4.Slices ![0, 3] S64x1
  shapeCasts_S1x1_S1x1 : S1x1.ShapeCasts S1x1
  shapeCasts_S1x1_S_ : S1x1.ShapeCasts S_
  gather_S64x5_S64x1x1_S64x1_n_1_0_0_1_2_11_wf : GatherDims.WF S64x5 S64x1x1 S64x1 [] [1] [0] [1] [0] 2 ![1, 1]
  gather_S64x4_S64x1x1_S64x1_n_1_0_0_1_2_11_wf : GatherDims.WF S64x4 S64x1x1 S64x1 [] [1] [0] [1] [0] 2 ![1, 1]
  dot_S64x4x256_S64x2x256_S64x4x2_2_2_1_1_0_0_wf : DotDims.WF S64x4x256 S64x2x256 S64x4x2 [2] [2] [1] [1] [0] [0]
  dot_S64x256_S256x256_S64x256_1_1_0_0_n_n_wf : DotDims.WF S64x256 S256x256 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x4x256.size a ≤ S4x8192x4x256.size a
  hwx0_0 : ∀ i : grid0.Coords, EltTy.bits .f32 = 32 ∨ (Rect.block (s := S4x8192x4x256) S4x256x4x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S64x4.size a
  hwx0_2 : ∀ i : grid0.Coords, EltTy.bits .f32 = 32 ∨ (Rect.block (s := S64x4) S64x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S64x5_S64x1x1_S64x1_n_1_0_0_1_2_11 : GatherDims S64x5 S64x1x1 S64x1 where
  offsetDims := []
  collapsedSliceDims := [1]
  operandBatchingDims := [0]
  startIndicesBatchingDims := [0]
  startIndexMap := [1]
  indexVectorDim := 2
  sliceSizes := ![1, 1]
  wf := gather_S64x5_S64x1x1_S64x1_n_1_0_0_1_2_11_wf
def gather_S64x4_S64x1x1_S64x1_n_1_0_0_1_2_11 : GatherDims S64x4 S64x1x1 S64x1 where
  offsetDims := []
  collapsedSliceDims := [1]
  operandBatchingDims := [0]
  startIndicesBatchingDims := [0]
  startIndexMap := [1]
  indexVectorDim := 2
  sliceSizes := ![1, 1]
  wf := gather_S64x4_S64x1x1_S64x1_n_1_0_0_1_2_11_wf
def dot_S64x4x256_S64x2x256_S64x4x2_2_2_1_1_0_0 : DotDims S64x4x256 S64x2x256 S64x4x2 where
  lhsContracting := [2]
  rhsContracting := [2]
  lhsNonContracting := [1]
  rhsNonContracting := [1]
  lhsBatch := [0]
  rhsBatch := [0]
  wf := dot_S64x4x256_S64x2x256_S64x4x2_2_2_1_1_0_0_wf
def dot_S64x256_S256x256_S64x256_1_1_0_0_n_n : DotDims S64x256 S256x256 S64x256 where
  lhsContracting := [1]
  rhsContracting := [1]
  lhsNonContracting := [0]
  rhsNonContracting := [0]
  lhsBatch := []
  rhsBatch := []
  wf := dot_S64x256_S256x256_S64x256_1_1_0_0_n_n_wf

abbrev win0_0 : Pipeline.Window sig grid0 :=
  Pipeline.Window.ofSpec (Memref.whole main_arg5) S4x256x4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v86) S64x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v87_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v87_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4 : Shape := ⟨2, ![64, 4]⟩
abbrev S64x4x256 : Shape := ⟨3, ![64, 4, 256]⟩
abbrev S64x1x256 : Shape := ⟨3, ![64, 1, 256]⟩
abbrev S4x8192x4x256 : Shape := ⟨4, ![4, 8192, 4, 256]⟩
abbrev S64 : Shape := ⟨1, ![64]⟩
abbrev S4x2 : Shape := ⟨2, ![4, 2]⟩
abbrev S64x1 : Shape := ⟨2, ![64, 1]⟩
abbrev S_ : Shape := ⟨0, ![]⟩
abbrev S64x5 : Shape := ⟨2, ![64, 5]⟩
abbrev S64x1x1 : Shape := ⟨3, ![64, 1, 1]⟩
abbrev S1 : Shape := ⟨1, ![1]⟩
abbrev S1x1x1 : Shape := ⟨3, ![1, 1, 1]⟩
abbrev S64x4x1 : Shape := ⟨3, ![64, 4, 1]⟩
abbrev S64x2x256 : Shape := ⟨3, ![64, 2, 256]⟩
abbrev S64x2 : Shape := ⟨2, ![64, 2]⟩
abbrev S64x2x1 : Shape := ⟨3, ![64, 2, 1]⟩
abbrev S64x4x2 : Shape := ⟨3, ![64, 4, 2]⟩
abbrev S1x4x2 : Shape := ⟨3, ![1, 4, 2]⟩
abbrev S64x256 : Shape := ⟨2, ![64, 256]⟩
abbrev S4x8192x256 : Shape := ⟨3, ![4, 8192, 256]⟩
abbrev S4x8192 : Shape := ⟨2, ![4, 8192]⟩
abbrev S4x8192x1 : Shape := ⟨3, ![4, 8192, 1]⟩
abbrev S64x4x8192 : Shape := ⟨3, ![64, 4, 8192]⟩
abbrev S4 : Shape := ⟨1, ![4]⟩
abbrev S1x4 : Shape := ⟨2, ![1, 4]⟩

abbrev nBuf : Space → Nat
  | .hbm => 229
  | .vmem => 0
  | .smem => 0
  | _ => 0

abbrev hbmTy0_0 (i : Nat) : BufTy := match i % 128 with
  | 0 => ⟨S64x4, .f32⟩
  | 1 => ⟨S64x4, .f32⟩
  | 2 => ⟨S64x4x256, .f32⟩
  | 3 => ⟨S64x1x256, .f32⟩
  | 4 => ⟨S64x1x256, .f32⟩
  | 5 => ⟨S4x8192x4x256, .f32⟩
  | 6 => ⟨S64, .i32⟩
  | 7 => ⟨S64, .i32⟩
  | 8 => ⟨S4x2, .f32⟩
  | 9 => ⟨S64, .f32⟩
  | 10 => ⟨S64x1, .f32⟩
  | 11 => ⟨S64x1, .i32⟩
  | 12 => ⟨S_, .f32⟩
  | 13 => ⟨S64x1, .f32⟩
  | 14 => ⟨S64x5, .f32⟩
  | 15 => ⟨S_, .i32⟩
  | 16 => ⟨S64x1, .i32⟩
  | 17 => ⟨S64x1, .i1⟩
  | 18 => ⟨S_, .i32⟩
  | 19 => ⟨S64x1, .i32⟩
  | 20 => ⟨S64x1, .i32⟩
  | 21 => ⟨S64x1, .i32⟩
  | 22 => ⟨S64x1x1, .i32⟩
  | 23 => ⟨S1, .i32⟩
  | 24 => ⟨S_, .i32⟩
  | 25 => ⟨S64x1x1, .i32⟩
  | 26 => ⟨S64x1x1, .i1⟩
  | 27 => ⟨S1x1x1, .i32⟩
  | 28 => ⟨S64x1x1, .i32⟩
  | 29 => ⟨S64x1x1, .i1⟩
  | 30 => ⟨S64x1x1, .i1⟩
  | 31 => ⟨S_, .i1⟩
  | 32 => ⟨S64x1, .i1⟩
  | 33 => ⟨S64x1, .f32⟩
  | 34 => ⟨S_, .f32⟩
  | 35 => ⟨S64x1, .f32⟩
  | 36 => ⟨S64x1, .f32⟩
  | 37 => ⟨S_, .i32⟩
  | 38 => ⟨S64x1, .i32⟩
  | 39 => ⟨S64x1, .i1⟩
  | 40 => ⟨S_, .i32⟩
  | 41 => ⟨S64x1, .i32⟩
  | 42 => ⟨S64x1, .i32⟩
  | 43 => ⟨S64x1, .i32⟩
  | 44 => ⟨S64x1x1, .i32⟩
  | 45 => ⟨S1, .i32⟩
  | 46 => ⟨S_, .i32⟩
  | 47 => ⟨S64x1x1, .i32⟩
  | 48 => ⟨S64x1x1, .i1⟩
  | 49 => ⟨S1x1x1, .i32⟩
  | 50 => ⟨S64x1x1, .i32⟩
  | 51 => ⟨S64x1x1, .i1⟩
  | 52 => ⟨S64x1x1, .i1⟩
  | 53 => ⟨S_, .i1⟩
  | 54 => ⟨S64x1, .i1⟩
  | 55 => ⟨S64x1, .f32⟩
  | 56 => ⟨S_, .f32⟩
  | 57 => ⟨S64x1, .f32⟩
  | 58 => ⟨S64x1, .f32⟩
  | 59 => ⟨S_, .i32⟩
  | 60 => ⟨S64x1, .i32⟩
  | 61 => ⟨S64x1, .i32⟩
  | 62 => ⟨S_, .i32⟩
  | 63 => ⟨S64x1, .i32⟩
  | 64 => ⟨S64x1, .i1⟩
  | 65 => ⟨S_, .i32⟩
  | 66 => ⟨S64x1, .i32⟩
  | 67 => ⟨S64x1, .i32⟩
  | 68 => ⟨S64x1, .i32⟩
  | 69 => ⟨S64x1x1, .i32⟩
  | 70 => ⟨S1, .i32⟩
  | 71 => ⟨S_, .i32⟩
  | 72 => ⟨S64x1x1, .i32⟩
  | 73 => ⟨S64x1x1, .i1⟩
  | 74 => ⟨S1x1x1, .i32⟩
  | 75 => ⟨S64x1x1, .i32⟩
  | 76 => ⟨S64x1x1, .i1⟩
  | 77 => ⟨S64x1x1, .i1⟩
  | 78 => ⟨S_, .i1⟩
  | 79 => ⟨S64x1, .i1⟩
  | 80 => ⟨S64x1, .f32⟩
  | 81 => ⟨S_, .f32⟩
  | 82 => ⟨S64x1, .f32⟩
  | 83 => ⟨S64x1, .f32⟩
  | 84 => ⟨S_, .f32⟩
  | 85 => ⟨S64x1, .f32⟩
  | 86 => ⟨S64x1, .f32⟩
  | 87 => ⟨S64x1, .f32⟩
  | 88 => ⟨S_, .f32⟩
  | 89 => ⟨S64x1, .f32⟩
  | 90 => ⟨S64x1, .f32⟩
  | 91 => ⟨S64x1, .f32⟩
  | 92 => ⟨S_, .f32⟩
  | 93 => ⟨S64x1, .f32⟩
  | 94 => ⟨S64x1, .f32⟩
  | 95 => ⟨S64x1, .f32⟩
  | 96 => ⟨S64x1, .f32⟩
  | 97 => ⟨S64x1, .f32⟩
  | 98 => ⟨S64x1, .f32⟩
  | 99 => ⟨S_, .f32⟩
  | 100 => ⟨S64x1, .f32⟩
  | 101 => ⟨S64x1, .f32⟩
  | 102 => ⟨S64x1, .f32⟩
  | 103 => ⟨S64x1, .f32⟩
  | 104 => ⟨S64x1, .f32⟩
  | 105 => ⟨S_, .f32⟩
  | 106 => ⟨S64x1, .f32⟩
  | 107 => ⟨S64x1, .f32⟩
  | 108 => ⟨S_, .f32⟩
  | 109 => ⟨S64x1, .f32⟩
  | 110 => ⟨S64x1, .f32⟩
  | 111 => ⟨S64x1, .f32⟩
  | 112 => ⟨S_, .f32⟩
  | 113 => ⟨S_, .f32⟩
  | 114 => ⟨S_, .f32⟩
  | 115 => ⟨S_, .f32⟩
  | 116 => ⟨S64x4x256, .f32⟩
  | 117 => ⟨S_, .f32⟩
  | 118 => ⟨S64x4, .f32⟩
  | 119 => ⟨S64x4x1, .f32⟩
  | 120 => ⟨S64x4x1, .f32⟩
  | 121 => ⟨S_, .f32⟩
  | 122 => ⟨S64x4x1, .f32⟩
  | 123 => ⟨S64x4x1, .f32⟩
  | 124 => ⟨S64x4x256, .f32⟩
  | 125 => ⟨S64x4x256, .f32⟩
  | 126 => ⟨S64x2x256, .f32⟩
  | 127 => ⟨S64x2x256, .f32⟩
  | _ => ⟨S64x4, .f32⟩

abbrev hbmTy0_1 (i : Nat) : BufTy := match i % 128 with
  | 0 => ⟨S_, .f32⟩
  | 1 => ⟨S64x2, .f32⟩
  | 2 => ⟨S64x2x1, .f32⟩
  | 3 => ⟨S64x2x1, .f32⟩
  | 4 => ⟨S_, .f32⟩
  | 5 => ⟨S64x2x1, .f32⟩
  | 6 => ⟨S64x2x1, .f32⟩
  | 7 => ⟨S64x2x256, .f32⟩
  | 8 => ⟨S64x2x256, .f32⟩
  | 9 => ⟨S64x4x2, .f32⟩
  | 10 => ⟨S64x4x2, .f32⟩
  | 11 => ⟨S_, .f32⟩
  | 12 => ⟨S4x2, .f32⟩
  | 13 => ⟨S4x2, .f32⟩
  | 14 => ⟨S1x4x2, .f32⟩
  | 15 => ⟨S64x4x2, .f32⟩
  | 16 => ⟨S64x4x2, .f32⟩
  | 17 => ⟨S1x4x2, .f32⟩
  | 18 => ⟨S64x4x2, .f32⟩
  | 19 => ⟨S64x4x2, .f32⟩
  | 20 => ⟨S64x4x2, .f32⟩
  | 21 => ⟨S_, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S_, .f32⟩
  | 31 => ⟨S_, .f32⟩
  | 32 => ⟨S_, .f32⟩
  | 33 => ⟨S_, .f32⟩
  | 34 => ⟨S64x256, .f32⟩
  | 35 => ⟨S_, .f32⟩
  | 36 => ⟨S64x256, .f32⟩
  | 37 => ⟨S64x256, .f32⟩
  | 38 => ⟨S64x256, .f32⟩
  | 39 => ⟨S_, .f32⟩
  | 40 => ⟨S64, .f32⟩
  | 41 => ⟨S64x1, .f32⟩
  | 42 => ⟨S64x1, .f32⟩
  | 43 => ⟨S_, .f32⟩
  | 44 => ⟨S64x1, .f32⟩
  | 45 => ⟨S64x1, .f32⟩
  | 46 => ⟨S64x256, .f32⟩
  | 47 => ⟨S64x256, .f32⟩
  | 48 => ⟨S_, .f32⟩
  | 49 => ⟨S4x8192x256, .f32⟩
  | 50 => ⟨S_, .f32⟩
  | 51 => ⟨S4x8192x256, .f32⟩
  | 52 => ⟨S4x8192x256, .f32⟩
  | 53 => ⟨S4x8192x256, .f32⟩
  | 54 => ⟨S_, .f32⟩
  | 55 => ⟨S4x8192, .f32⟩
  | 56 => ⟨S4x8192x1, .f32⟩
  | 57 => ⟨S4x8192x1, .f32⟩
  | 58 => ⟨S_, .f32⟩
  | 59 => ⟨S4x8192x1, .f32⟩
  | 60 => ⟨S4x8192x1, .f32⟩
  | 61 => ⟨S4x8192x256, .f32⟩
  | 62 => ⟨S4x8192x256, .f32⟩
  | 63 => ⟨S64x4x8192, .f32⟩
  | 64 => ⟨S_, .f32⟩
  | 65 => ⟨S64x4x8192, .f32⟩
  | 66 => ⟨S64x4x8192, .f32⟩
  | 67 => ⟨S64x4x8192, .f32⟩
  | 68 => ⟨S64x1, .i32⟩
  | 69 => ⟨S4, .i32⟩
  | 70 => ⟨S1x4, .i32⟩
  | 71 => ⟨S64x4, .i32⟩
  | 72 => ⟨S64x4, .i32⟩
  | 73 => ⟨S64x4, .i1⟩
  | 74 => ⟨S64x4, .f32⟩
  | 75 => ⟨S64x4x1, .f32⟩
  | 76 => ⟨S64x4x8192, .f32⟩
  | 77 => ⟨S64x4x8192, .f32⟩
  | 78 => ⟨S_, .f32⟩
  | 79 => ⟨S_, .f32⟩
  | 80 => ⟨S_, .f32⟩
  | 81 => ⟨S_, .f32⟩
  | 82 => ⟨S_, .f32⟩
  | 83 => ⟨S64x4x1, .f32⟩
  | 84 => ⟨S64x4x1, .f32⟩
  | 85 => ⟨S64x4x8192, .f32⟩
  | 86 => ⟨S64x4x8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | _ => ⟨S64x4, .f32⟩

abbrev hbmTy (i : Nat) : BufTy := match i / 128 with
  | 0 => hbmTy0_0 i
  | 1 => hbmTy0_1 i
  | _ => ⟨S64x4, .f32⟩

abbrev bufTy : (tb : Table) → Fin (tcTables nBuf tb) → BufTy
  | .hbm, ⟨i, _⟩ => hbmTy i
  | _, _ => ⟨S64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v5 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v6 : Ref sig .tc := ⟨.hbm, 58, rfl⟩
abbrev main_c : Ref sig .tc := ⟨.hbm, 59, rfl⟩
abbrev main_v7 : Ref sig .tc := ⟨.hbm, 60, rfl⟩
abbrev main_v8 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_cst : Ref sig .tc := ⟨.hbm, 81, rfl⟩
abbrev main_call2_v14 : Ref sig .tc := ⟨.hbm, 82, rfl⟩
abbrev main_v9 : Ref sig .tc := ⟨.hbm, 83, rfl⟩
abbrev main_cst_1 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_cst_2 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_cst_3 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_cst_4 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_cst_5 : Ref sig .tc := ⟨.hbm, 105, rfl⟩
abbrev main_v27 : Ref sig .tc := ⟨.hbm, 106, rfl⟩
abbrev main_v28 : Ref sig .tc := ⟨.hbm, 107, rfl⟩
abbrev main_cst_6 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_7 : Ref sig .tc := ⟨.hbm, 112, rfl⟩
abbrev main_v32 : Ref sig .tc := ⟨.hbm, 113, rfl⟩
abbrev main_cst_8 : Ref sig .tc := ⟨.hbm, 114, rfl⟩
abbrev main_v33 : Ref sig .tc := ⟨.hbm, 115, rfl⟩
abbrev main_v34 : Ref sig .tc := ⟨.hbm, 116, rfl⟩
abbrev main_cst_9 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_cst_10 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_cst_11 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_cst_12 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_cst_13 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_cst_14 : Ref sig .tc := ⟨.hbm, 149, rfl⟩
abbrev main_v62 : Ref sig .tc := ⟨.hbm, 150, rfl⟩
abbrev main_cst_15 : Ref sig .tc := ⟨.hbm, 151, rfl⟩
abbrev main_v63 : Ref sig .tc := ⟨.hbm, 152, rfl⟩
abbrev main_v64 : Ref sig .tc := ⟨.hbm, 153, rfl⟩
abbrev main_cst_16 : Ref sig .tc := ⟨.hbm, 154, rfl⟩
abbrev main_v65 : Ref sig .tc := ⟨.hbm, 155, rfl⟩
abbrev main_v66 : Ref sig .tc := ⟨.hbm, 156, rfl⟩
abbrev main_cst_17 : Ref sig .tc := ⟨.hbm, 157, rfl⟩
abbrev main_v67 : Ref sig .tc := ⟨.hbm, 158, rfl⟩
abbrev main_cst_18 : Ref sig .tc := ⟨.hbm, 159, rfl⟩
abbrev main_v68 : Ref sig .tc := ⟨.hbm, 160, rfl⟩
abbrev main_cst_19 : Ref sig .tc := ⟨.hbm, 161, rfl⟩
abbrev main_v69 : Ref sig .tc := ⟨.hbm, 162, rfl⟩
abbrev main_cst_20 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_cst_21 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_cst_22 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_cst_23 : Ref sig .tc := ⟨.hbm, 176, rfl⟩
abbrev main_v80 : Ref sig .tc := ⟨.hbm, 177, rfl⟩
abbrev main_cst_24 : Ref sig .tc := ⟨.hbm, 178, rfl⟩
abbrev main_v81 : Ref sig .tc := ⟨.hbm, 179, rfl⟩
abbrev main_v82 : Ref sig .tc := ⟨.hbm, 180, rfl⟩
abbrev main_v83 : Ref sig .tc := ⟨.hbm, 181, rfl⟩
abbrev main_cst_25 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_cst_26 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_v90 : Ref sig .tc := ⟨.hbm, 190, rfl⟩
abbrev main_v91 : Ref sig .tc := ⟨.hbm, 191, rfl⟩
abbrev main_cst_27 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_cst_28 : Ref sig .tc := ⟨.hbm, 206, rfl⟩
abbrev main_v105 : Ref sig .tc := ⟨.hbm, 207, rfl⟩
abbrev main_cst_29 : Ref sig .tc := ⟨.hbm, 208, rfl⟩
abbrev main_v106 : Ref sig .tc := ⟨.hbm, 209, rfl⟩
abbrev main_cst_30 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_cst_31 : Ref sig .tc := ⟨.hbm, 215, rfl⟩
abbrev main_v111 : Ref sig .tc := ⟨.hbm, 216, rfl⟩
abbrev main_cst_32 : Ref sig .tc := ⟨.hbm, 217, rfl⟩
abbrev main_v112 : Ref sig .tc := ⟨.hbm, 218, rfl⟩
abbrev main_cst_33 : Ref sig .tc := ⟨.hbm, 219, rfl⟩
abbrev main_v113 : Ref sig .tc := ⟨.hbm, 220, rfl⟩
abbrev main_v114 : Ref sig .tc := ⟨.hbm, 221, rfl⟩
abbrev main_cst_34 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_v119 : Ref sig .tc := ⟨.hbm, 227, rfl⟩
abbrev main_v120 : Ref sig .tc := ⟨.hbm, 228, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  bcast_S_S64x1 : S_.BroadcastsInDim S64x1 (![] : Fin 0 → Fin S64x1.rank)
  concatenates_S64x1_S64x4_S64x5_d1 : Shape.Concatenates [S64x1, S64x4] S64x5 1
  shapeCasts_S64x1_S64x1x1 : S64x1.ShapeCasts S64x1x1
  bcast_S_S64x1x1 : S_.BroadcastsInDim S64x1x1 (![] : Fin 0 → Fin S64x1x1.rank)
  bcast_S1_S1x1x1_2 : S1.BroadcastsInDim S1x1x1 (![2] : Fin 1 → Fin S1x1x1.rank)
  bcast_S1x1x1_S64x1x1_0_1_2 : S1x1x1.BroadcastsInDim S64x1x1 (![0, 1, 2] : Fin 3 → Fin S64x1x1.rank)
  reducesTo_S64x1x1_S64x1_d2 : S64x1x1.ReducesTo [2] S64x1
  h_S_ : 0 < S_.numel
  reducesTo_S64x1_S_d0_1 : S64x1.ReducesTo [0, 1] S_
  reducesTo_S64x4x256_S64x4_d2 : S64x4x256.ReducesTo [2] S64x4
  bcast_S64x4_S64x4x1_0_1 : S64x4.BroadcastsInDim S64x4x1 (![0, 1] : Fin 2 → Fin S64x4x1.rank)
  bcast_S_S64x4x1 : S_.BroadcastsInDim S64x4x1 (![] : Fin 0 → Fin S64x4x1.rank)
  bcast_S64x4x1_S64x4x256_0_1_2 : S64x4x1.BroadcastsInDim S64x4x256 (![0, 1, 2] : Fin 3 → Fin S64x4x256.rank)
  concatenates_S64x1x256_S64x1x256_S64x2x256_d1 : Shape.Concatenates [S64x1x256, S64x1x256] S64x2x256 1
  reducesTo_S64x2x256_S64x2_d2 : S64x2x256.ReducesTo [2] S64x2
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S64x2x1_S64x2x256_0_1_2 : S64x2x1.BroadcastsInDim S64x2x256 (![0, 1, 2] : Fin 3 → Fin S64x2x256.rank)
  bcast_S_S4x2 : S_.BroadcastsInDim S4x2 (![] : Fin 0 → Fin S4x2.rank)
  bcast_S4x2_S1x4x2_1_2 : S4x2.BroadcastsInDim S1x4x2 (![1, 2] : Fin 2 → Fin S1x4x2.rank)
  bcast_S1x4x2_S64x4x2_0_1_2 : S1x4x2.BroadcastsInDim S64x4x2 (![0, 1, 2] : Fin 3 → Fin S64x4x2.rank)
  reducesTo_S64x4x2_S64_d1_2 : S64x4x2.ReducesTo [1, 2] S64
  bcast_S_S64 : S_.BroadcastsInDim S64 (![] : Fin 0 → Fin S64.rank)
  reducesTo_S64_S_d0 : S64.ReducesTo [0] S_
  reducesTo_S64x4x256_S64x256_d1 : S64x4x256.ReducesTo [1] S64x256
  bcast_S_S64x256 : S_.BroadcastsInDim S64x256 (![] : Fin 0 → Fin S64x256.rank)
  reducesTo_S64x256_S64_d1 : S64x256.ReducesTo [1] S64
  bcast_S64x1_S64x256_0_1 : S64x1.BroadcastsInDim S64x256 (![0, 1] : Fin 2 → Fin S64x256.rank)
  reducesTo_S4x8192x4x256_S4x8192x256_d2 : S4x8192x4x256.ReducesTo [2] S4x8192x256
  bcast_S_S4x8192x256 : S_.BroadcastsInDim S4x8192x256 (![] : Fin 0 → Fin S4x8192x256.rank)
  reducesTo_S4x8192x256_S4x8192_d2 : S4x8192x256.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x256_0_1_2 : S4x8192x1.BroadcastsInDim S4x8192x256 (![0, 1, 2] : Fin 3 → Fin S4x8192x256.rank)
  bcast_S_S64x4x8192 : S_.BroadcastsInDim S64x4x8192 (![] : Fin 0 → Fin S64x4x8192.rank)
  bcast_S4_S1x4_1 : S4.BroadcastsInDim S1x4 (![1] : Fin 1 → Fin S1x4.rank)
  bcast_S64x1_S64x4_0_1 : S64x1.BroadcastsInDim S64x4 (![0, 1] : Fin 2 → Fin S64x4.rank)
  bcast_S1x4_S64x4_0_1 : S1x4.BroadcastsInDim S64x4 (![0, 1] : Fin 2 → Fin S64x4.rank)
  bcast_S64x4x1_S64x4x8192_0_1_2 : S64x4x1.BroadcastsInDim S64x4x8192 (![0, 1, 2] : Fin 3 → Fin S64x4x8192.rank)
  reducesTo_S64x4x8192_S_d0_1_2 : S64x4x8192.ReducesTo [0, 1, 2] S_
  gather_S64x5_S64x1x1_S64x1_n_1_0_0_1_2_11_wf : GatherDims.WF S64x5 S64x1x1 S64x1 [] [1] [0] [1] [0] 2 ![1, 1]
  gather_S64x4_S64x1x1_S64x1_n_1_0_0_1_2_11_wf : GatherDims.WF S64x4 S64x1x1 S64x1 [] [1] [0] [1] [0] 2 ![1, 1]
  dot_S64x4x256_S64x2x256_S64x4x2_2_2_1_1_0_0_wf : DotDims.WF S64x4x256 S64x2x256 S64x4x2 [2] [2] [1] [1] [0] [0]
  dot_S64x256_S4x8192x256_S64x4x8192_1_2_0_01_n_n_wf : DotDims.WF S64x256 S4x8192x256 S64x4x8192 [1] [2] [0] [0, 1] [] []

variable [Facts₀]

def gather_S64x5_S64x1x1_S64x1_n_1_0_0_1_2_11 : GatherDims S64x5 S64x1x1 S64x1 where
  offsetDims := []
  collapsedSliceDims := [1]
  operandBatchingDims := [0]
  startIndicesBatchingDims := [0]
  startIndexMap := [1]
  indexVectorDim := 2
  sliceSizes := ![1, 1]
  wf := gather_S64x5_S64x1x1_S64x1_n_1_0_0_1_2_11_wf
def gather_S64x4_S64x1x1_S64x1_n_1_0_0_1_2_11 : GatherDims S64x4 S64x1x1 S64x1 where
  offsetDims := []
  collapsedSliceDims := [1]
  operandBatchingDims := [0]
  startIndicesBatchingDims := [0]
  startIndexMap := [1]
  indexVectorDim := 2
  sliceSizes := ![1, 1]
  wf := gather_S64x4_S64x1x1_S64x1_n_1_0_0_1_2_11_wf
def dot_S64x4x256_S64x2x256_S64x4x2_2_2_1_1_0_0 : DotDims S64x4x256 S64x2x256 S64x4x2 where
  lhsContracting := [2]
  rhsContracting := [2]
  lhsNonContracting := [1]
  rhsNonContracting := [1]
  lhsBatch := [0]
  rhsBatch := [0]
  wf := dot_S64x4x256_S64x2x256_S64x4x2_2_2_1_1_0_0_wf
def dot_S64x256_S4x8192x256_S64x4x8192_1_2_0_01_n_n : DotDims S64x256 S4x8192x256 S64x4x8192 where
  lhsContracting := [1]
  rhsContracting := [2]
  lhsNonContracting := [0]
  rhsNonContracting := [0, 1]
  lhsBatch := []
  rhsBatch := []
  wf := dot_S64x256_S4x8192x256_S64x4x8192_1_2_0_01_n_n_wf

class Facts : Prop extends Facts₀ where

variable [Facts]
-- ==== Proof.CohortSpec.lean ====
/-
  The contrastive cohort-bank term, as mathematics over the extended reals.

  A bank of 4 classes x N rows x 4 components x 256 features is averaged over its components, each averaged row is
  scaled to unit length (its norm clamped below), and every row is compared with each of 64 unit anchors: the
  similarity is the inner product over the features, and its weight is exp (similarity / 2). The loss needs two totals
  of these weights over all (anchor, class, row) triples: the total over the triples whose class is the anchor's own
  (a 0/1 table marks them), and the total over the others. One program takes the second total directly, weighting by
  one minus the table, over the whole bank (N = 8192); the other takes the total of all weights, tile by tile of 256
  rows (N = 256 at a time), and subtracts the first. This file states the pieces, index by index, for both.
-/
import Idealize.ShloMosaic.PureOps.Ideal
import Idealize.ShloMosaic.PureOps.Ideal.Laws
import Idealize.ShloMosaic.Lib.ValueIdx

noncomputable section

open scoped BigOperators

namespace Cert.Cohort

open Idealize.ShloMosaic Idealize.ShloMosaic.ValueIdx

/-- A bank of N rows; the whole bank and one tile; the anchors; the 0/1 table of own classes. -/
abbrev SBankN (N : Nat) : Shape := ⟨4, ![4, N, 4, 256]⟩
abbrev SBank : Shape := SBankN 8192
abbrev STile : Shape := SBankN 256
abbrev SAnch : Shape := ⟨2, ![64, 256]⟩
abbrev SHot : Shape := ⟨2, ![64, 4]⟩

/-- The literals the two programs share, kept as their words: 4, the norm's lower clamp (about 1e-12), the
    temperature 2, the unit 1, the two counts 64*8192 and 64*3*8192, and the guard (about 1e-8). -/
def four : EReal := Ideal.ofBits .f32 0x40800000#32
def tiny : EReal := Ideal.ofBits .f32 0x2B8CBCCC#32
def two : EReal := Ideal.ofBits .f32 0x40000000#32
def one : EReal := Ideal.ofBits .f32 0x3F800000#32
def nPos : EReal := Ideal.ofBits .f32 0x49000000#32
def nNeg : EReal := Ideal.ofBits .f32 0x49C00000#32
def guard : EReal := Ideal.ofBits .f32 0x322BCC77#32

/-- A vector scaled to unit length, its norm clamped below: v c / max (sqrt (sum of squares)) tiny. -/
def l2 {n : Nat} (v : Fin n → EReal) (c : Fin n) : EReal :=
  Ideal.div (v c) (max (Ideal.sqrt (∑ c' : Fin n, v c' * v c')) tiny)

/-- Row (k, n) of a bank averaged over its four components, at feature c. -/
def cmean {N : Nat} (bank : (SBankN N).Idx → EReal) (k : Fin 4) (n : Fin N) (c : Fin 256) : EReal :=
  Ideal.div (∑ j : Fin 4, bank (ix4 k n j c)) four

/-- The averaged row scaled to unit length. -/
def unit {N : Nat} (bank : (SBankN N).Idx → EReal) (k : Fin 4) (n : Fin N) (c : Fin 256) : EReal :=
  l2 (cmean bank k n) c

/-- Anchor b against row (k, n): the inner product over the features. -/
def sim {N : Nat} (anch : SAnch.Idx → EReal) (bank : (SBankN N).Idx → EReal) (b : Fin 64) (k : Fin 4) (n : Fin N) : EReal :=
  ∑ c : Fin 256, anch (ix2 b c) * unit bank k n c

/-- Its weight exp (sim / 2). -/
def ex {N : Nat} (anch : SAnch.Idx → EReal) (bank : (SBankN N).Idx → EReal) (b : Fin 64) (k : Fin 4) (n : Fin N) : EReal :=
  Ideal.exp (Ideal.div (sim anch bank b k n) two)

/-- The total weight of the triples marked by the table, and of the others (weighted by one minus the table). -/
def posTotal (anch : SAnch.Idx → EReal) (bank : SBank.Idx → EReal) (hot : SHot.Idx → EReal) : EReal :=
  ∑ b : Fin 64, ∑ k : Fin 4, ∑ n : Fin 8192, ex anch bank b k n * hot (ix2 b k)
def negTotal (anch : SAnch.Idx → EReal) (bank : SBank.Idx → EReal) (hot : SHot.Idx → EReal) : EReal :=
  ∑ b : Fin 64, ∑ k : Fin 4, ∑ n : Fin 8192, ex anch bank b k n * (one - hot (ix2 b k))

/-- One tile's share of the total weight, and of the marked weight: per class, per anchor, the tile's 256 weights
    summed and (for the marked share) multiplied by the table's entry. -/
def tileAllOf (anch : SAnch.Idx → EReal) (blk : STile.Idx → EReal) : EReal :=
  ∑ k : Fin 4, ∑ b : Fin 64, ∑ n' : Fin 256, ex anch blk b k n'
def tilePosOf (anch : SAnch.Idx → EReal) (blk : STile.Idx → EReal) (hot : SHot.Idx → EReal) : EReal :=
  ∑ k : Fin 4, ∑ b : Fin 64, (∑ n' : Fin 256, ex anch blk b k n') * hot (ix2 b k)

/-- Row n' of tile t is row 256 t + n' of the bank; tile t of the bank. -/
def rowOf (t : Fin 32) (n' : Fin 256) : Fin 8192 := ⟨256 * t.val + n'.val, by have := t.isLt; have := n'.isLt; omega⟩
def tileOf (bank : SBank.Idx → EReal) (t : Fin 32) : STile.Idx → EReal :=
  fun i => bank (ix4 (i 0) (rowOf t (i 1)) (i 2) (i 3))

def tileAll (anch : SAnch.Idx → EReal) (bank : SBank.Idx → EReal) (t : Fin 32) : EReal :=
  tileAllOf anch (tileOf bank t)
def tilePos (anch : SAnch.Idx → EReal) (bank : SBank.Idx → EReal) (hot : SHot.Idx → EReal) (t : Fin 32) : EReal :=
  tilePosOf anch (tileOf bank t) hot

/-- A weight of tile t is the bank's weight at the tile's row. -/
theorem ex_tileOf (anch : SAnch.Idx → EReal) (bank : SBank.Idx → EReal) (t : Fin 32) (b : Fin 64) (k : Fin 4) (n' : Fin 256) :
    ex anch (tileOf bank t) b k n' = ex anch bank b k (rowOf t n') := rfl

/-- The loss from its four scalars, as the program that subtracts computes it: with p the marked total and a the total,
    nll + (intra + -log ((p / nPos + guard) / (p / nPos + (a - p) / nNeg + guard))). -/
def lossSub (nll intra p a : EReal) : EReal :=
  nll + (intra + -Ideal.log (Ideal.div (Ideal.div p nPos + guard)
    (Ideal.div p nPos + Ideal.div (a - p) nNeg + guard)))
/-- and as the program that takes the second total directly computes it, with q that total. -/
def lossDirect (nll intra p q : EReal) : EReal :=
  nll + (intra + -Ideal.log (Ideal.div (Ideal.div p nPos + guard)
    (Ideal.div p nPos + Ideal.div q nNeg + guard)))

theorem lossSub_eq_lossDirect (nll intra p a q : EReal) (h : a - p = q) : lossSub nll intra p a = lossDirect nll intra p q := by
  unfold lossSub lossDirect; rw [h]

/-- A rank-3 index set is the product of its three coordinate ranges, so a sum over it is the triple sum over the
    coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Cohort

end
-- ==== Proof.KernelTail.lean ====
/-
  The last host operations of the program that subtracts: from the two accumulated totals (each a [1,1] array read as a
  scalar) and the two other losses they compute nll + (intra + -log ((p / nPos + guard) / (p / nPos + (a - p) / nNeg + guard))).
-/
import proofs.«181343_j12429635355015_2_alg».proof.Proof.Gen.KernelIdeal.Frame
import proofs.«181343_j12429635355015_2_alg».proof.Proof.CohortSpec
import Idealize.ShloMosaic.Lib.StableHlo.Run
import Idealize.ShloMosaic.Lib.Pipeline.Value

noncomputable section
namespace Cert.KernelIdeal.Tail
open Cert.KernelIdeal Cert.KernelIdeal.Gen Cert.Cohort Idealize.ShloMosaic Idealize.ShloMosaic.TcCoe Idealize.ShloMosaic.StableHlo Idealize.ShloMosaic.ValueIdx Idealize.SL.Sem

/-- A [1,1] array read as a scalar is its one entry. -/
theorem cell (x : S1x1.Idx → EReal) (h : S1x1.ShapeCasts S_) (i : S_.Idx) : shapeCast S_ x h i = x (ix2 0 0) :=
  shapeCast_apply x h i (ix2 0 0) (by rw [eq_ix0 i]; rfl)

/-- The closing operations, as a function of the two other losses and the two [1,1] totals. -/
theorem tail_form (n i : S_.Idx → EReal) (p a : S1x1.Idx → EReal) (h : S1x1.ShapeCasts S_) :
    (addf (F := Ideal) (φ := .f32) n (addf i (Host.negf (Host.log (Host.divf
      (addf (Host.divf (fun j => shapeCast S_ p h j) (constant (F := Ideal) S_ .f32 1224736768#32)) (constant (F := Ideal) S_ .f32 841731191#32))
      (addf (addf (Host.divf (fun j => shapeCast S_ p h j) (constant (F := Ideal) S_ .f32 1224736768#32))
          (Host.divf (subf (fun j => shapeCast S_ a h j) (fun j => shapeCast S_ p h j)) (constant (F := Ideal) S_ .f32 1237319680#32)))
        (constant (F := Ideal) S_ .f32 841731191#32))))))) ix0
      = lossSub (n ix0) (i ix0) (p (ix2 0 0)) (a (ix2 0 0)) := by
  simp only [cell p h, cell a h]
  rfl

/-- The result buffer after the closing operations, from any contents before them. -/
theorem tail_read (W : Valuation τ sig (Elt Ideal)) :
    StableHlo.after (hostOps1 (F := Ideal)) W (Proc.devRef .tc main_v101) = fun _ =>
      lossSub (W (Proc.devRef .tc main_v33) ix0) (W (Proc.devRef .tc main_v68) ix0)
        (W (Proc.devRef .tc main_v87_0) (ix2 0 0)) (W (Proc.devRef .tc main_v87_1) (ix2 0 0)) := by
  simp only [hostOps1]
  after_results_simp
  funext j
  have hj : j = ix0 := eq_ix0 j
  subst hj
  exact tail_form _ _ _ _ _
end Cert.KernelIdeal.Tail
end
-- ==== Proof.KernelRun.lean ====
/-
  The run of the program that subtracts, read: its result is the loss formed from the survival and intra-cohort losses as
  the host lines before the kernel leave them and from the two totals the kernel's grid accumulates; its arguments end
  unchanged.
-/
import proofs.«181343_j12429635355015_2_alg».proof.Proof.KernelTail

noncomputable section
namespace Cert.KernelIdeal.Tail
open Cert.KernelIdeal Cert.KernelIdeal.Gen Cert.Cohort Idealize.ShloMosaic Idealize.ShloMosaic.TcCoe Idealize.ShloMosaic.StableHlo Idealize.ShloMosaic.ValueIdx Idealize.SL.Sem
open Idealize.ShloMosaic.Pipeline (Dat)

variable (m : (ℓ : Loc nD τ sig) → Buf (Elt Ideal) ℓ) (ρ : Dev nD → PrngReg)

/-- What the closing host lines leave in the result buffer. -/
theorem tail_eq (c : Dev nD) :
    Pipeline.afterTail₀ cfgs (dats m) 0 (V0 m) [hostOps1] c main_v101 = fun _ =>
      lossSub (V m c main_v33 ix0) (V m c main_v68 ix0)
        ((dats m 0 c).arrAt 3 cfg0.N (ix2 0 0)) ((dats m 0 c).arrAt 4 cfg0.N (ix2 0 0)) := by
  unfold Pipeline.afterTail₀
  simp only [List.flatten_cons, List.flatten_nil, List.append_nil]
  rw [tail_read]
  rw [Pipeline.withArrays_of_ne _ c (V0 m c) _ main_v33 (by exact (by decide : ∀ w, Pipeline.arrRef spec0 w ≠ main_v33)),
    Pipeline.withArrays_of_ne _ c (V0 m c) _ main_v68 (by exact (by decide : ∀ w, Pipeline.arrRef spec0 w ≠ main_v68))]
  have e3 := Pipeline.withArrays_arr spec0 launch0.win.arr_inj c (V0 m c) (fun w => (dats m 0 c).arrAt w (cfgs 0).N) 3
  have e4 := Pipeline.withArrays_arr spec0 launch0.win.arr_inj c (V0 m c) (fun w => (dats m 0 c).arrAt w (cfgs 0).N) 4
  funext x
  exact congrArg₂ (lossSub (V m c main_v33 ix0) (V m c main_v68 ix0)) (congrFun e3 (ix2 0 0)) (congrFun e4 (ix2 0 0))

/-- Every weakly fair execution terminates with the result at that loss and the arguments unchanged. -/
theorem run : θ_run defs (onTc (τ := τ) (main (F := Ideal))) ⟨m, fun _ => 0, ρ⟩ fun r => ∀ c : Dev nD,
      r.2.mem ((c.tc : Thread nD τ).loc main_v101) = (fun _ =>
        lossSub (V m c main_v33 ix0) (V m c main_v68 ix0)
          ((dats m 0 c).arrAt 3 cfg0.N (ix2 0 0)) ((dats m 0 c).arrAt 4 cfg0.N (ix2 0 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v101 (Pipeline.mem_restRefs_of main_v101 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 0).trans (((dats m 0 c).arrAt_in 0 rfl _).trans ((A_eq m c 0).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Tail
end
-- ==== Proof.TileIdx.lean ====
/-
  Index bookkeeping for the tile arithmetic, stated once over arbitrary extents.

  A sum taken along one axis of an array is, at each index of the result, the sum over that axis's coordinate with the
  other coordinates kept: the lemmas `lift…` name the source index coordinate by coordinate. A trailing unit axis
  added by a reshape, a trailing unit axis stretched by a broadcast, a block cut from the leading axis, and a column cut
  from a matrix each read one entry of their operand; the lemmas below say which. Last, the product of an M×K matrix
  with the transpose of an N×K matrix, accumulated into zero, is at (a, b) the inner product of row a of the first with
  row b of the second.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Idealize.ShloMosaic Idealize.ShloMosaic.ValueIdx

variable {α : Type}

/-! ## The source index of a sum along one axis -/

/-- Along axis 2 of a rank-4 array: over (a, b, c) with coordinate j inserted, the source index is (a, b, j, c). -/
theorem lift4_axis2 {n0 n1 n2 n3 : Nat} (h : (⟨4, ![n0, n1, n2, n3]⟩ : Shape).Reduces [2] ⟨3, ![n0, n1, n3]⟩)
    (a : Fin n0) (b : Fin n1) (c : Fin n3) (j : Fin n2) : h.lift (ix3 a b c) j = ix4 a b j c := by
  funext e; apply Fin.ext
  match e with
  | ⟨0, _⟩ => rfl
  | ⟨1, _⟩ => rfl
  | ⟨2, _⟩ => rfl
  | ⟨3, _⟩ => rfl

/-- Along axis 2 of a rank-3 array: over (a, b) with coordinate c inserted, the source index is (a, b, c). -/
theorem lift3_axis2 {n0 n1 n2 : Nat} (h : (⟨3, ![n0, n1, n2]⟩ : Shape).Reduces [2] ⟨2, ![n0, n1]⟩)
    (a : Fin n0) (b : Fin n1) (c : Fin n2) : h.lift (ix2 a b) c = ix3 a b c := by
  funext e; apply Fin.ext
  match e with
  | ⟨0, _⟩ => rfl
  | ⟨1, _⟩ => rfl
  | ⟨2, _⟩ => rfl

/-- Along axis 1 of a matrix: over row a with coordinate c inserted, the source index is (a, c). -/
theorem lift2_axis1 {n0 n1 : Nat} (h : (⟨2, ![n0, n1]⟩ : Shape).Reduces [1] ⟨1, ![n0]⟩)
    (a : Fin n0) (c : Fin n1) : h.lift (ix1 a) c = ix2 a c := by
  funext e; apply Fin.ext
  match e with
  | ⟨0, _⟩ => rfl
  | ⟨1, _⟩ => rfl

/-- Along axis 0 of a matrix: over column c with coordinate a inserted, the source index is (a, c). -/
theorem lift2_axis0 {n0 n1 : Nat} (h : (⟨2, ![n0, n1]⟩ : Shape).Reduces [0] ⟨1, ![n1]⟩)
    (a : Fin n0) (c : Fin n1) : h.lift (ix1 c) a = ix2 a c := by
  funext e; apply Fin.ext
  match e with
  | ⟨0, _⟩ => rfl
  | ⟨1, _⟩ => rfl

/-! ## Unit axes added, stretched -/

/-- An [a, b] array viewed as [a, b, 1] reads, at (i, j, u), the operand at (i, j). -/
theorem shapeCast_ab_ab1_apply {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array viewed as [a, 1] reads, at (i, u), the operand at i. -/
theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, 1] array stretched to [a, b, c] reads, at (i, j, e), the operand at (i, j, 0). -/
theorem broadcastTo_ab1_abc_apply {a b c : Nat} (v : (⟨3, ![a, b, 1]⟩ : Shape).Idx → α)
    (h : (⟨3, ![a, b, 1]⟩ : Shape).Broadcasts ⟨3, ![a, b, c]⟩) (i : Fin a) (j : Fin b) (e : Fin c) :
    broadcastTo ⟨3, ![a, b, c]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## A block cut from the leading axis -/

/-- A rank-3 array cut along axis 0 from `o` reads, at (j, b, e), the source at (k, b, e) with k = o + j. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## The product with a transposed right operand -/

/-- An M×K matrix times the transpose of an N×K matrix, accumulated into the zero splat, at (a, b): the inner product
    of row a of the first with row b of the second. -/
theorem matmul_transposedRhs_zero_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.KernelIdeal.Tile

end
-- ==== Proof.TileUnit.lean ====
/-
  The bank tile averaged over its components and scaled to unit length, entry by entry.

  The program sums the tile over its four components, divides by four, squares, sums the squares over the 256 features,
  takes the root, clamps it below, stretches the clamped norm back over the features and divides. Read at row (k, n)
  and feature c this is the unit vector of the averaged row at c.
-/
import proofs.«181343_j12429635355015_2_alg».proof.Proof.Gen.KernelIdeal.Skeleton
import proofs.«181343_j12429635355015_2_alg».proof.Proof.CohortSpec
import proofs.«181343_j12429635355015_2_alg».proof.Proof.TileIdx

noncomputable section

open scoped BigOperators

namespace Cert.KernelIdeal.Tile

open Cert.KernelIdeal Cert.KernelIdeal.Gen Cert.Cohort Idealize.ShloMosaic Idealize.ShloMosaic.ValueIdx

/-- The tile summed over its four components. -/
def compSum (x0 : Vec Ideal S4x256x4x256 .f32) : FVec Ideal S4x256x256 .f32 :=
  multiReduction .add [2] S4x256x256 x0 0x00000000#32 reduces_S4x256x4x256_S4x256x256 (.inl rfl) rfl

/-- The averaged tile: the component sum divided by four. -/
def meanV (x0 : Vec Ideal S4x256x4x256 .f32) : FVec Ideal S4x256x256 .f32 :=
  divf (compSum x0) (broadcast S4x256x256 (Scalar.ofBits .f32 0x40800000#32))

/-- The squared length of each averaged row. -/
def sqV (x0 : Vec Ideal S4x256x4x256 .f32) : FVec Ideal S4x256 .f32 :=
  multiReduction .add [2] S4x256 (mulf (meanV x0) (meanV x0)) 0x00000000#32 reduces_S4x256x256_S4x256 (.inl rfl) rfl

/-- The clamped length of each averaged row, with a trailing unit axis. -/
def normV (x0 : Vec Ideal S4x256x4x256 .f32) : FVec Ideal S4x256x1 .f32 :=
  maximumf (sqrt (shapeCast S4x256x1 (sqV x0) shapeCasts_S4x256_S4x256x1))
    (broadcast S4x256x1 (Scalar.ofBits .f32 0x2B8CBCCC#32))

/-- The program's normalised tile is the averaged tile over the stretched clamped length. -/
theorem pay5_eq (x0 : Vec Ideal S4x256x4x256 .f32) :
    k0_pay5 (F := Ideal) x0 = divf (meanV x0) (broadcastTo S4x256x256 (normV x0) broadcasts_S4x256x1_S4x256x256) := rfl

theorem compSum_apply (x0 : Vec Ideal S4x256x4x256 .f32) (k : Fin 4) (n : Fin 256) (c : Fin 256) :
    compSum x0 (ix3 k n c) = ∑ j : Fin 4, x0 (ix4 k n j c) :=
  (Ideal.multiReduction_add_single x0 _ reduces_S4x256x4x256_S4x256x256 _ _ (ix3 k n c)).trans
    (Finset.sum_congr rfl fun (j : Fin 4) _ => congrArg x0 (lift4_axis2 reduces_S4x256x4x256_S4x256x256 k n c j))

theorem meanV_apply (x0 : Vec Ideal S4x256x4x256 .f32) (k : Fin 4) (n : Fin 256) (c : Fin 256) :
    meanV x0 (ix3 k n c) = cmean x0 k n c := by
  show Ideal.div (compSum x0 (ix3 k n c)) (Ideal.ofBits .f32 0x40800000#32) = _
  rw [compSum_apply]
  rfl

theorem sqV_apply (x0 : Vec Ideal S4x256x4x256 .f32) (k : Fin 4) (n : Fin 256) :
    sqV x0 (ix2 k n) = ∑ c : Fin 256, cmean x0 k n c * cmean x0 k n c :=
  (Ideal.multiReduction_add_single (mulf (meanV x0) (meanV x0)) _ reduces_S4x256x256_S4x256 _ _ (ix2 k n)).trans
    (Finset.sum_congr rfl fun (c : Fin 256) _ => by
      refine (congrArg (mulf (meanV x0) (meanV x0)) (lift3_axis2 reduces_S4x256x256_S4x256 k n c)).trans ?_
      show meanV x0 (ix3 k n c) * meanV x0 (ix3 k n c) = _
      rw [meanV_apply])

theorem normV_apply (x0 : Vec Ideal S4x256x4x256 .f32) (k : Fin 4) (n : Fin 256) (u : Fin 1) :
    normV x0 (ix3 k n u) = max (Ideal.sqrt (∑ c : Fin 256, cmean x0 k n c * cmean x0 k n c)) tiny := by
  show max (Ideal.sqrt (shapeCast S4x256x1 (sqV x0) shapeCasts_S4x256_S4x256x1 (ix3 k n u)))
    (Ideal.ofBits .f32 0x2B8CBCCC#32) = _
  rw [shapeCast_ab_ab1_apply, sqV_apply]
  rfl

/-- The normalised tile at row (k, n) and feature c is the unit vector of the averaged row at c. -/
theorem pay5_apply (x0 : Vec Ideal S4x256x4x256 .f32) (k : Fin 4) (n : Fin 256) (c : Fin 256) :
    k0_pay5 (F := Ideal) x0 (ix3 k n c) = unit x0 k n c := by
  rw [pay5_eq]
  show Ideal.div (meanV x0 (ix3 k n c))
    (broadcastTo S4x256x256 (normV x0) broadcasts_S4x256x1_S4x256x256 (ix3 k n c)) = _
  rw [broadcastTo_ab1_abc_apply, meanV_apply, normV_apply]
  rfl

end Cert.KernelIdeal.Tile

end
-- ==== Proof.TileCol.lean ====
/-
  One class's column of summed weights, entry by entry.

  For class k the program cuts the class's 256 unit rows out of the normalised tile, multiplies the anchors with their
  transpose (so entry (b, n) is the inner product of anchor b with row n over the 256 features), halves, exponentiates
  and sums each anchor's 256 weights. Read at anchor b this column is the sum over the tile's rows of the weight of
  anchor b against row (k, n).
-/
import proofs.«181343_j12429635355015_2_alg».proof.Proof.Gen.KernelIdeal.Skeleton
import proofs.«181343_j12429635355015_2_alg».proof.Proof.CohortSpec
import proofs.«181343_j12429635355015_2_alg».proof.Proof.TileIdx
import proofs.«181343_j12429635355015_2_alg».proof.Proof.TileUnit

noncomputable section

open scoped BigOperators

namespace Cert.KernelIdeal.Tile

open Cert.KernelIdeal Cert.KernelIdeal.Gen Cert.Cohort Idealize.ShloMosaic Idealize.ShloMosaic.ValueIdx

/-- The rows of the class at offset `o` of a normalised tile, as a 256 × 256 matrix. -/
def rowsOf (o : Nat) (h : S4x256x256.Slices ![o, 0, 0] S1x256x256) (v14 : FVec Ideal S4x256x256 .f32) :
    FVec Ideal S256x256 .bf16 :=
  truncf .bf16 (shapeCast S256x256 (extractStridedSlice S1x256x256 ![o, 0, 0] v14 h) shapeCasts_S1x256x256_S256x256)
    bitsLt_bf16_f32

/-- The anchors against those rows: the inner products over the features. -/
def simOf (o : Nat) (h : S4x256x256.Slices ![o, 0, 0] S1x256x256) (v14 : FVec Ideal S4x256x256 .f32)
    (v17 : FVec Ideal S64x256 .bf16) : FVec Ideal S64x256 .f32 :=
  matmul dot_S64x256_S256x256_S64x256_1_1_0_0_n_n none v17 (rowsOf o h v14) (constant S64x256 .f32 0x00000000#32)

/-- Their weights: the exponential of half the inner product. -/
def wtOf (o : Nat) (h : S4x256x256.Slices ![o, 0, 0] S1x256x256) (v14 : FVec Ideal S4x256x256 .f32)
    (v17 : FVec Ideal S64x256 .bf16) : FVec Ideal S64x256 .f32 :=
  exp (divf (simOf o h v14 v17) (broadcast S64x256 (Scalar.ofBits .f32 0x40000000#32)))

/-- Each anchor's weights summed over the rows, as a column. -/
def colOf (o : Nat) (h : S4x256x256.Slices ![o, 0, 0] S1x256x256) (v14 : FVec Ideal S4x256x256 .f32)
    (v17 : FVec Ideal S64x256 .bf16) : FVec Ideal S64x1 .f32 :=
  shapeCast S64x1 (multiReduction .add [1] S64 (wtOf o h v14 v17) 0x00000000#32 reduces_S64x256_S64 (.inl rfl) rfl)
    shapeCasts_S64_S64x1

/-- The four columns the program computes are this one at the four class offsets. -/
theorem pay9_eq (x0 : Vec Ideal S4x256x4x256 .f32) (x1 : Vec Ideal S64x256 .f32) :
    k0_pay9 (F := Ideal) x0 x1 = colOf 0 slices_S4x256x256_o0_0_0_S1x256x256 (k0_pay5 x0) (k0_pay6 x1) := rfl
theorem pay12_eq (v14 : FVec Ideal S4x256x256 .f32) (v17 : FVec Ideal S64x256 .bf16) :
    k0_pay12 (F := Ideal) v14 v17 = colOf 1 slices_S4x256x256_o1_0_0_S1x256x256 v14 v17 := rfl
theorem pay13_eq (v14 : FVec Ideal S4x256x256 .f32) (v17 : FVec Ideal S64x256 .bf16) :
    k0_pay13 (F := Ideal) v14 v17 = colOf 2 slices_S4x256x256_o2_0_0_S1x256x256 v14 v17 := rfl
theorem pay16_eq (v14 : FVec Ideal S4x256x256 .f32) (v17 : FVec Ideal S64x256 .bf16) :
    k0_pay16 (F := Ideal) v14 v17 = colOf 3 slices_S4x256x256_o3_0_0_S1x256x256 v14 v17 := rfl

variable (o : Nat) (h : S4x256x256.Slices ![o, 0, 0] S1x256x256) (v14 : FVec Ideal S4x256x256 .f32)
  (v17 : FVec Ideal S64x256 .bf16) (k : Fin 4) (hk : k.val = o)

include hk in
theorem rowsOf_apply (n : Fin 256) (c : Fin 256) : rowsOf o h v14 (ix2 n c) = v14 (ix3 k n c) := by
  show shapeCast S256x256 (extractStridedSlice S1x256x256 ![o, 0, 0] v14 h) shapeCasts_S1x256x256_S256x256 (ix2 n c) = _
  rw [shapeCast_1ab_ab_apply]
  exact slice3_axis0_apply o v14 h (0 : Fin 1) n c k (by rw [hk]; rfl)

include hk in
theorem simOf_apply (b : Fin 64) (n : Fin 256) :
    simOf o h v14 v17 (ix2 b n) = ∑ c : Fin 256, v17 (ix2 b c) * v14 (ix3 k n c) :=
  (matmul_transposedRhs_zero_apply dot_S64x256_S256x256_S64x256_1_1_0_0_n_n_wf none v17 (rowsOf o h v14) b n).trans
    (Finset.sum_congr rfl fun c _ => by rw [rowsOf_apply o h v14 k hk])

include hk in
theorem wtOf_apply (b : Fin 64) (n : Fin 256) :
    wtOf o h v14 v17 (ix2 b n) = Ideal.exp (Ideal.div (∑ c : Fin 256, v17 (ix2 b c) * v14 (ix3 k n c)) two) := by
  show Ideal.exp (Ideal.div (simOf o h v14 v17 (ix2 b n)) (Ideal.ofBits .f32 0x40000000#32)) = _
  rw [simOf_apply o h v14 v17 k hk]
  rfl

include hk in
theorem colOf_apply (b : Fin 64) (u : Fin 1) :
    colOf o h v14 v17 (ix2 b u)
      = ∑ n : Fin 256, Ideal.exp (Ideal.div (∑ c : Fin 256, v17 (ix2 b c) * v14 (ix3 k n c)) two) := by
  show shapeCast S64x1 (multiReduction .add [1] S64 (wtOf o h v14 v17) 0x00000000#32 reduces_S64x256_S64 (.inl rfl) rfl)
    shapeCasts_S64_S64x1 (ix2 b u) = _
  rw [shapeCast_a_a1_apply]
  refine (Ideal.multiReduction_add_single (wtOf o h v14 v17) _ reduces_S64x256_S64 _ _ (ix1 b)).trans
    (Finset.sum_congr rfl fun (n : Fin 256) _ => ?_)
  refine (congrArg (wtOf o h v14 v17) (lift2_axis1 reduces_S64x256_S64 b n)).trans ?_
  exact wtOf_apply o h v14 v17 k hk b n

/-- The anchors as the program hands them to the product are the anchors. -/
theorem pay6_apply (x1 : Vec Ideal S64x256 .f32) (i : S64x256.Idx) : k0_pay6 (F := Ideal) x1 i = x1 i := by
  show shapeCast S64x256 x1 shapeCasts_S64x256_S64x256 i = x1 i
  rw [shapeCast_self]

include hk in
/-- Over the normalised tile and the anchors, the class's column at anchor b is the tile's weights of (b, k, ·) summed. -/
theorem col_apply (x0 : Vec Ideal S4x256x4x256 .f32) (x1 : Vec Ideal S64x256 .f32) (b : Fin 64) (u : Fin 1) :
    colOf o h (k0_pay5 x0) (k0_pay6 x1) (ix2 b u) = ∑ n : Fin 256, ex x1 x0 b k n := by
  rw [colOf_apply o h _ _ k hk]
  refine Finset.sum_congr rfl fun n _ => ?_
  show _ = Ideal.exp (Ideal.div (∑ c : Fin 256, x1 (ix2 b c) * unit x0 k n c) two)
  refine congrArg (fun s => Ideal.exp (Ideal.div s two)) (Finset.sum_congr rfl fun c _ => ?_)
  rw [pay6_apply, pay5_apply]

end Cert.KernelIdeal.Tile

end
-- ==== Proof.TileValue.lean ====
/-
  What one grid point adds to the two running totals.

  Each class's column of summed weights is summed over the 64 anchors — as it stands for the total of all weights,
  and entry by entry times the class's column of the 0/1 table for the marked total. The four classes are added one
  after another to a zero, and the result to the value the accumulator held. Since addition on the extended reals is
  a commutative monoid, the chain (((0 + s0) + s1) + s2) + s3 is the sum of the s_k over the four classes, which is the
  tile's share as the specification writes it.
-/
import proofs.«181343_j12429635355015_2_alg».proof.Proof.Gen.KernelIdeal.Skeleton
import proofs.«181343_j12429635355015_2_alg».proof.Proof.CohortSpec
import proofs.«181343_j12429635355015_2_alg».proof.Proof.TileIdx
import proofs.«181343_j12429635355015_2_alg».proof.Proof.TileUnit
import proofs.«181343_j12429635355015_2_alg».proof.Proof.TileCol

noncomputable section

open scoped BigOperators

namespace Cert.KernelIdeal.Tile

open Cert.KernelIdeal Cert.KernelIdeal.Gen Cert.Cohort Idealize.ShloMosaic Idealize.ShloMosaic.ValueIdx

/-- A column summed over the 64 anchors, as a one-entry vector … -/
def anchSum1 (v : FVec Ideal S64x1 .f32) : FVec Ideal S1 .f32 :=
  multiReduction .add [0] S1 v 0x00000000#32 reduces_S64x1_S1 (.inl rfl) rfl

/-- … and as a 1 × 1 matrix. -/
def anchSum (v : FVec Ideal S64x1 .f32) : FVec Ideal S1x1 .f32 :=
  shapeCast S1x1 (anchSum1 v) shapeCasts_S1_S1x1

/-- A column times column `o` of the 0/1 table, entry by entry. -/
def markOf (o : Nat) (h : S64x4.Slices ![0, o] S64x1) (col : FVec Ideal S64x1 .f32) (v19 : FVec Ideal S64x4 .f32) :
    FVec Ideal S64x1 .f32 :=
  mulf col (extractStridedSlice S64x1 ![0, o] v19 h)

theorem anchSum1_apply (v : FVec Ideal S64x1 .f32) (u : Fin 1) : anchSum1 v (ix1 u) = ∑ b : Fin 64, v (ix2 b u) :=
  (Ideal.multiReduction_add_single v _ reduces_S64x1_S1 _ _ (ix1 u)).trans
    (Finset.sum_congr rfl fun (b : Fin 64) _ => congrArg v (lift2_axis0 reduces_S64x1_S1 b u))

/-- A one-entry vector viewed as a 1 × 1 matrix reads its one entry. -/
theorem cast11_apply (w : FVec Ideal S1 .f32) (y : S1x1.Idx) :
    shapeCast S1x1 w shapeCasts_S1_S1x1 y = w (ix1 (0 : Fin 1)) := by
  obtain ⟨u0, u1, rfl⟩ : ∃ (u0 : Fin 1) (u1 : Fin 1), y = ix2 u0 u1 := ⟨y 0, y 1, eq_ix2 y⟩
  rw [shapeCast_a_1a_apply]
  obtain rfl : u1 = 0 := Subsingleton.elim _ _
  rfl

theorem anchSum_apply (v : FVec Ideal S64x1 .f32) (y : S1x1.Idx) :
    anchSum v y = ∑ b : Fin 64, v (ix2 b (0 : Fin 1)) := by
  show shapeCast S1x1 (anchSum1 v) shapeCasts_S1_S1x1 y = _
  rw [cast11_apply, anchSum1_apply]

/-- The 0/1 table as the program hands it on is the table. -/
theorem pay7_apply (x2 : Vec Ideal S64x4 .f32) (i : S64x4.Idx) : k0_pay7 (F := Ideal) x2 i = x2 i := by
  show shapeCast S64x4 x2 shapeCasts_S64x4_S64x4 i = x2 i
  rw [shapeCast_self]

section Terms
variable (o : Nat) (hs : S4x256x256.Slices ![o, 0, 0] S1x256x256) (ho : S64x4.Slices ![0, o] S64x1)
  (k : Fin 4) (hk : k.val = o)
  (x0 : Vec Ideal S4x256x4x256 .f32) (x1 : Vec Ideal S64x256 .f32) (x2 : Vec Ideal S64x4 .f32) (y : S1x1.Idx)

include hk in
/-- One class's share of the total: its weights summed over the anchors and the tile's rows. -/
theorem allTerm : anchSum (colOf o hs (k0_pay5 x0) (k0_pay6 x1)) y = ∑ b : Fin 64, ∑ n : Fin 256, ex x1 x0 b k n := by
  rw [anchSum_apply]
  exact Finset.sum_congr rfl fun b _ => col_apply o hs k hk x0 x1 b 0

include hk in
/-- One class's share of the marked total: per anchor the summed weights times the table's entry. -/
theorem posTerm :
    anchSum (markOf o ho (colOf o hs (k0_pay5 x0) (k0_pay6 x1)) (k0_pay7 x2)) y
      = ∑ b : Fin 64, (∑ n : Fin 256, ex x1 x0 b k n) * x2 (ix2 b k) := by
  rw [anchSum_apply]
  refine Finset.sum_congr rfl fun b _ => ?_
  show colOf o hs (k0_pay5 x0) (k0_pay6 x1) (ix2 b (0 : Fin 1))
    * extractStridedSlice S64x1 ![0, o] (k0_pay7 x2) ho (ix2 b (0 : Fin 1)) = _
  rw [col_apply o hs k hk, slice2_axis1_apply o (k0_pay7 x2) ho b (0 : Fin 1) k (by rw [hk]; rfl), pay7_apply]

end Terms

/-- What a grid point adds to the marked total: the tile's marked share. -/
theorem pos_incr (x0 : Vec Ideal S4x256x4x256 .f32) (x1 : Vec Ideal S64x256 .f32) (x2 : Vec Ideal S64x4 .f32)
    (acc : Vec Ideal S1x1 .f32) (y : S1x1.Idx) :
    k0_pay1 (F := Ideal) (k0_pay7 x2)
        (k0_pay15 (k0_pay5 x0) (k0_pay6 x1) (k0_pay7 x2) k0_pay8 (k0_pay11 x0 x1 x2))
        (k0_pay16 (k0_pay5 x0) (k0_pay6 x1)) acc y
      = acc y + tilePosOf x1 x0 x2 := by
  show shapeCast S1x1 acc shapeCasts_S1x1_S1x1 y
      + ((((Ideal.ofBits .f32 0x00000000#32
            + anchSum (markOf 0 slices_S64x4_o0_0_S64x1 (k0_pay9 x0 x1) (k0_pay7 x2)) y)
          + anchSum (markOf 1 slices_S64x4_o0_1_S64x1 (k0_pay12 (k0_pay5 x0) (k0_pay6 x1)) (k0_pay7 x2)) y)
        + anchSum (markOf 2 slices_S64x4_o0_2_S64x1 (k0_pay13 (k0_pay5 x0) (k0_pay6 x1)) (k0_pay7 x2)) y)
      + anchSum (markOf 3 slices_S64x4_o0_3_S64x1 (k0_pay16 (k0_pay5 x0) (k0_pay6 x1)) (k0_pay7 x2)) y) = _
  rw [shapeCast_self, pay9_eq, pay12_eq, pay13_eq, pay16_eq,
    posTerm 0 _ _ 0 rfl, posTerm 1 _ _ 1 rfl, posTerm 2 _ _ 2 rfl, posTerm 3 _ _ 3 rfl,
    Ideal.ofBits_zero_f32, zero_add]
  unfold tilePosOf
  rw [Fin.sum_univ_four]

/-- What a grid point adds to the total of all weights: the tile's share. -/
theorem all_incr (x0 : Vec Ideal S4x256x4x256 .f32) (x1 : Vec Ideal S64x256 .f32) (acc : Vec Ideal S1x1 .f32)
    (y : S1x1.Idx) :
    k0_pay2 (F := Ideal) (k0_pay14 (k0_pay5 x0) (k0_pay6 x1) (k0_pay10 x0 x1))
        (k0_pay17 (k0_pay5 x0) (k0_pay6 x1)) acc y
      = acc y + tileAllOf x1 x0 := by
  show shapeCast S1x1 acc shapeCasts_S1x1_S1x1 y
      + ((((Ideal.ofBits .f32 0x00000000#32 + anchSum (k0_pay9 x0 x1) y)
          + anchSum (k0_pay12 (k0_pay5 x0) (k0_pay6 x1)) y)
        + anchSum (k0_pay13 (k0_pay5 x0) (k0_pay6 x1)) y)
      + anchSum (k0_pay16 (k0_pay5 x0) (k0_pay6 x1)) y) = _
  rw [shapeCast_self, pay9_eq, pay12_eq, pay13_eq, pay16_eq,
    allTerm 0 _ 0 rfl, allTerm 1 _ 1 rfl, allTerm 2 _ 2 rfl, allTerm 3 _ 3 rfl,
    Ideal.ofBits_zero_f32, zero_add]
  unfold tileAllOf
  rw [Fin.sum_univ_four]

end Cert.KernelIdeal.Tile

end
-- ==== Proof.KernelAccFrame.lean ====
/-
  The two accumulated scalars of the tiled program, read off its run over the grid.

  The program walks the bank in 32 tiles of 256 rows. It keeps two one-element accumulators: at the first tile both are
  set to zero, at every tile the tile's marked weight is added to the first and the tile's whole weight to the second,
  and only after the last tile are the two written out. This file follows that walk:

    * what one pass leaves in each accumulator, in each of the two cases (first tile: over the zero just stored; any
      later tile: over what the tile before left) — the same expression of the three blocks read and of the
      accumulator, for any float values (out_A_3, out_A_4, out_B_3, out_B_4; first_pos … later_all at a grid point);
    * what the three blocks are: the anchors and the table are read whole at every point (iblk1_eq, iblk2_eq), and the
      bank's block at point t is tile t of the bank, row n' of the block being row 256 t + n' (iblk0_eq);
    * over the extended reals, given that one pass adds the tile's share to the accumulator it read (the two
      hypotheses hpos, hall: proved from the body's arithmetic elsewhere), the accumulators after point n hold the
      shares of tiles 0 … n added up, by induction on n from 0 + x = x (outsAt_eq);
    * so the one write-back, after point 31, writes the sum of all 32 shares, and since the block written is the
      whole one-element array, that sum is what each result array ends holding (final_pos_of, final_all_of).
-/
import proofs.«181343_j12429635355015_2_alg».proof.Proof.Gen.KernelIdeal.Frame
import proofs.«181343_j12429635355015_2_alg».proof.Proof.CohortSpec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.Cohort

variable {F : FTy → Type} [FloatOps F]

theorem hz : (![0, 0] : Fin 2 → Nat) = fun _ => 0 := funext fun a => by fin_cases a <;> rfl

theorem hz4 : (![0, 0, 0, 0] : Fin 4 → Nat) = fun _ => 0 := funext fun a => by fin_cases a <;> rfl

/-- The marked share as the body threads it: the table, the three earlier classes' running total, the last class's
    per-anchor sums, and the accumulator read. -/
abbrev posPay (x0 : Vec F S4x256x4x256 .f32) (x1 : Vec F S64x256 .f32) (x2 : Vec F S64x4 .f32) (acc : Vec F S1x1 .f32) : Vec F S1x1 .f32 :=
  k0_pay1 (k0_pay7 x2) (k0_pay15 (k0_pay5 x0) (k0_pay6 x1) (k0_pay7 x2) k0_pay8 (k0_pay11 x0 x1 x2)) (k0_pay16 (k0_pay5 x0) (k0_pay6 x1)) acc

/-- The total share likewise. -/
abbrev allPay (x0 : Vec F S4x256x4x256 .f32) (x1 : Vec F S64x256 .f32) (acc : Vec F S1x1 .f32) : Vec F S1x1 .f32 :=
  k0_pay2 (k0_pay14 (k0_pay5 x0) (k0_pay6 x1) (k0_pay10 x0 x1)) (k0_pay17 (k0_pay5 x0) (k0_pay6 x1)) acc

theorem out_B_3 (c : Dev nD) (i : grid0.Coords) (a1 : Memref sig .tc .vmem S4x256x4x256 .f32) (h1 : a1.IsWhole)
    (a2 : Memref sig .tc .vmem S64x256 .f32) (h2 : a2.IsWhole) (a3 : Memref sig .tc .vmem S64x4 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4x256x4x256 .f32) (x1 : Vec F S64x256 .f32) (x2 : Vec F S64x4 .f32) (xo3 xo4 : Vec F S1x1 .f32) :
    out0_B_3 c i a1 h1 a2 h2 a3 h3 a4 h4 a5 h5 hc x0 x1 x2 xo3 xo4 = posPay x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4x256x4x256) hz4, View.ld_unit_zero (S := S64x256) hz, View.ld_unit_zero (S := S64x4) hz,
    View.ld_unit_zero (S := S1x1) hz]

theorem out_B_4 (c : Dev nD) (i : grid0.Coords) (a1 : Memref sig .tc .vmem S4x256x4x256 .f32) (h1 : a1.IsWhole)
    (a2 : Memref sig .tc .vmem S64x256 .f32) (h2 : a2.IsWhole) (a3 : Memref sig .tc .vmem S64x4 .f32) (h3 : a3.IsWhole)
    (a4 : Memref sig .tc .vmem S1x1 .f32) (h4 : a4.IsWhole) (a5 : Memref sig .tc .vmem S1x1 .f32) (h5 : a5.IsWhole)
    (hc : ¬cond0_0 i) (x0 : Vec F S4x256x4x256 .f32) (x1 : Vec F S64x256 .f32) (x2 : Vec F S64x4 .f32) (xo3 xo4 : Vec F S1x1 .f32) :
    out0_B_4 c i a1 h1 a2 h2 a3 h3 a4 h4 a5 h5 hc x0 x1 x2 xo3 xo4 = allPay x0 x1 xo4 := by
  unfold out0_B_4
  rw [View.read_writes_eq_canon _ _ _ (cover0_B_4 c i a1 h1 a2 h2 a3 h3 a4 h4 a5 h5 hc x0 x1 x2 xo3 xo4)]
  unfold kernelRun0_B
  dsimp only
  sl_unfold_words
  rw [View.canon_unit_zero hz]
  simp only [View.readAt_eq_ld, h1.read_unread, h2.read_unread, h3.read_unread, h4.read_unread, h5.read_unread,
    View.ld_unit_zero (S := S4x256x4x256) hz4, View.ld_unit_zero (S := S64x256) hz, View.ld_unit_zero (S := S64x4) hz,
    View.ld_unit_zero (S := S1x1) hz]

theorem out_A_3 (c : Dev nD) (i : grid0.Coords) (a1 : Memref sig .tc .vmem S4x256x4x256 .f32) (h1 : a1.IsWhole)
    (a2 : Memref sig .tc .vmem S64x256 .f32) (h2 : a2.IsWhole) (a3 : Memref sig .tc .vmem S64x4 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4x256x4x256 .f32) (x1 : Vec F S64x256 .f32) (x2 : Vec F S64x4 .f32) :
    out0_A_3 c i a1 h1 a2 h2 a3 h3 a4 h4 a5 h5 hc x0 x1 x2 = posPay x0 x1 x2 k0_pay3 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S4x256x4x256) hz4, View.ld_unit_zero (S := S64x256) hz, View.ld_unit_zero (S := S64x4) hz]

theorem out_A_4 (c : Dev nD) (i : grid0.Coords) (a1 : Memref sig .tc .vmem S4x256x4x256 .f32) (h1 : a1.IsWhole)
    (a2 : Memref sig .tc .vmem S64x256 .f32) (h2 : a2.IsWhole) (a3 : Memref sig .tc .vmem S64x4 .f32) (h3 : a3.IsWhole)
    (a4 : Memref sig .tc .vmem S1x1 .f32) (h4 : a4.IsWhole) (a5 : Memref sig .tc .vmem S1x1 .f32) (h5 : a5.IsWhole)
    (hc : cond0_0 i) (x0 : Vec F S4x256x4x256 .f32) (x1 : Vec F S64x256 .f32) (x2 : Vec F S64x4 .f32) :
    out0_A_4 c i a1 h1 a2 h2 a3 h3 a4 h4 a5 h5 hc x0 x1 x2 = allPay x0 x1 k0_pay4 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S4x256x4x256) hz4, View.ld_unit_zero (S := S64x256) hz, View.ld_unit_zero (S := S64x4) hz]

/-! ## What the three input windows read -/

section Blocks

variable (m : (ℓ : Loc nD τ sig) → Buf (Elt F) ℓ)

/-- The anchors' window is the whole array at block (0, 0): every point reads the array itself. -/
theorem iblk1_eq (c : Dev nD) (t : Fin cfg0.N) : iblk m c 1 t = V m c main_v79 := by
  have hz' : (fun a => win0_1.index t a * main_v79.ty.shape.size a) = fun _ => 0 :=
    funext fun a => by fin_cases a <;> rfl
  exact Memref.read_access_unit_zero (Elt F) main_v79 hz' (fun a => by rw [congrFun hz' a]; simp) (V m c main_v79)

/-- So is the table's. -/
theorem iblk2_eq (c : Dev nD) (t : Fin cfg0.N) : iblk m c 2 t = V m c main_v86 := by
  have hz' : (fun a => win0_2.index t a * main_v86.ty.shape.size a) = fun _ => 0 :=
    funext fun a => by fin_cases a <;> rfl
  exact Memref.read_access_unit_zero (Elt F) main_v86 hz' (fun a => by rw [congrFun hz' a]; simp) (V m c main_v86)

/-- The bank's window at point t sits at block (0, t, 0, 0). -/
theorem idx0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)

end Blocks

/-- The point's number as a tile number. -/
abbrev tileNo (t : Fin cfg0.N) : Fin 32 := ⟨t.val, lt_of_lt_of_eq t.isLt (show cfg0.N = 32 from N_0)⟩

/-- The bank's block at point t is tile t of the bank: row n' of the block is row 256 t + n' of the array, the other
    three coordinates unchanged. -/
theorem iblk0_eq (m : (ℓ : Loc nD τ sig) → Buf (Elt Ideal) ℓ) (c : Dev nD) (t : Fin cfg0.N) :
    iblk m c 0 t = tileOf (V m c main_arg5) (tileNo t) := by
  obtain ⟨i0, i1, i2, i3⟩ := idx0 t
  funext j
  unfold iblk tileOf
  rw [View.read_apply]
  show V m c main_arg5 _ = V m c main_arg5 _
  congr 1
  funext a
  apply Fin.ext
  match a with
  | ⟨0, _⟩ => show win0_0.index t 0 * 4 + 1 * (j 0).val = (j 0).val; rw [i0]; omega
  | ⟨1, _⟩ => show win0_0.index t 1 * 256 + 1 * (j 1).val = 256 * t.val + (j 1).val; rw [i1]; omega
  | ⟨2, _⟩ => show win0_0.index t 2 * 4 + 1 * (j 2).val = (j 2).val; rw [i2]; omega
  | ⟨3, _⟩ => show win0_0.index t 3 * 256 + 1 * (j 3).val = (j 3).val; rw [i3]; omega

/-! ## The two cases at a point of the grid -/

section AtPoint

variable (m : (ℓ : Loc nD τ sig) → Buf (Elt F) ℓ)

/-- At the first point the marked share is taken over the zero block just stored, -/
theorem first_pos (c : Dev nD) (t : Fin cfg0.N) (h0 : t.val % 32 = 0) :
    (outsAt0 m c t.val t.isLt).1 = posPay (iblk m c 0 t) (iblk m c 1 t) (iblk m c 2 t) k0_pay3 :=
  (congrArg Prod.fst (outsAt0_A m c t h0)).trans
    (out_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))

/-- and so is the total share. -/
theorem first_all (c : Dev nD) (t : Fin cfg0.N) (h0 : t.val % 32 = 0) :
    (outsAt0 m c t.val t.isLt).2 = allPay (iblk m c 0 t) (iblk m c 1 t) k0_pay4 :=
  (congrArg Prod.snd (outsAt0_A m c t h0)).trans
    (out_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t))

/-- At every later point they are taken over what the point before left. -/
theorem later_pos (c : Dev nD) (t : Fin cfg0.N) (h0 : ¬t.val % 32 = 0) :
    (outsAt0 m c t.val t.isLt).1 = posPay (iblk m c 0 t) (iblk m c 1 t) (iblk m c 2 t) (outsAt0 m c (t.val - 1) (Nat.lt_of_le_of_lt (Nat.sub_le _ _) t.isLt)).1 :=
  (congrArg Prod.fst (outsAt0_B m c t h0)).trans
    (out_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2)

theorem later_all (c : Dev nD) (t : Fin cfg0.N) (h0 : ¬t.val % 32 = 0) :
    (outsAt0 m c t.val t.isLt).2 = allPay (iblk m c 0 t) (iblk m c 1 t) (outsAt0 m c (t.val - 1) (Nat.lt_of_le_of_lt (Nat.sub_le _ _) t.isLt)).2 :=
  (congrArg Prod.snd (outsAt0_B m c t h0)).trans
    (out_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t)
      (outsAt0 m c (t.val - 1) (Nat.lt_of_le_of_lt (Nat.sub_le _ _) t.isLt)).1 (outsAt0 m c (t.val - 1) (Nat.lt_of_le_of_lt (Nat.sub_le _ _) t.isLt)).2)

end AtPoint

/-! ## The running totals, over the extended reals

Given that one pass of the body adds the tile's marked share (respectively its whole share) to the accumulator it
read, the accumulator after point n holds the shares of tiles 0 … n added up: by induction on n, the first point
starting from the zero block. -/

section Totals

variable (m : (ℓ : Loc nD τ sig) → Buf (Elt Ideal) ℓ)

/-- Tile k's marked share and whole share, for a natural k (nothing beyond the 32 tiles). -/
def posAt (c : Dev nD) (k : ℕ) : EReal :=
  if h : k < 32 then tilePos (V m c main_v79) (V m c main_arg5) (V m c main_v86) ⟨k, h⟩ else 0
def allAt (c : Dev nD) (k : ℕ) : EReal :=
  if h : k < 32 then tileAll (V m c main_v79) (V m c main_arg5) ⟨k, h⟩ else 0

/-- One pass at point t, over the blocks the point reads, adds tile t's marked share; -/
theorem pos_step (hpos : ∀ (x0 : Vec Ideal S4x256x4x256 .f32) (x1 : Vec Ideal S64x256 .f32) (x2 : Vec Ideal S64x4 .f32)
      (acc : Vec Ideal S1x1 .f32) (y : S1x1.Idx), posPay x0 x1 x2 acc y = acc y + tilePosOf x1 x0 x2)
    (c : Dev nD) (t : Fin cfg0.N) (acc : Vec Ideal S1x1 .f32) (y : S1x1.Idx) :
    posPay (iblk m c 0 t) (iblk m c 1 t) (iblk m c 2 t) acc y = acc y + posAt m c t.val := by
  rw [hpos, iblk0_eq m c t, iblk1_eq m c t, iblk2_eq m c t]
  unfold posAt
  rw [dif_pos (tileNo t).isLt]
  rfl

/-- and its whole share. -/
theorem all_step (hall : ∀ (x0 : Vec Ideal S4x256x4x256 .f32) (x1 : Vec Ideal S64x256 .f32)
      (acc : Vec Ideal S1x1 .f32) (y : S1x1.Idx), allPay x0 x1 acc y = acc y + tileAllOf x1 x0)
    (c : Dev nD) (t : Fin cfg0.N) (acc : Vec Ideal S1x1 .f32) (y : S1x1.Idx) :
    allPay (iblk m c 0 t) (iblk m c 1 t) acc y = acc y + allAt m c t.val := by
  rw [hall, iblk0_eq m c t, iblk1_eq m c t]
  unfold allAt
  rw [dif_pos (tileNo t).isLt]
  rfl

/-- The zero block reads the real number zero. -/
theorem pay3_apply (y : S1x1.Idx) : k0_pay3 (F := Ideal) y = 0 := Ideal.ofBits_zero_f32
theorem pay4_apply (y : S1x1.Idx) : k0_pay4 (F := Ideal) y = 0 := Ideal.ofBits_zero_f32

/-- After point n the two accumulators hold the shares of tiles 0 … n. -/
theorem outsAt_eq (hpos : ∀ (x0 : Vec Ideal S4x256x4x256 .f32) (x1 : Vec Ideal S64x256 .f32) (x2 : Vec Ideal S64x4 .f32)
      (acc : Vec Ideal S1x1 .f32) (y : S1x1.Idx), posPay x0 x1 x2 acc y = acc y + tilePosOf x1 x0 x2)
    (hall : ∀ (x0 : Vec Ideal S4x256x4x256 .f32) (x1 : Vec Ideal S64x256 .f32)
      (acc : Vec Ideal S1x1 .f32) (y : S1x1.Idx), allPay x0 x1 acc y = acc y + tileAllOf x1 x0) (c : Dev nD) :
    ∀ (n : ℕ) (h : n < cfg0.N) (y : S1x1.Idx),
      (outsAt0 m c n h).1 y = ∑ k ∈ Finset.range (n + 1), posAt m c k
      ∧ (outsAt0 m c n h).2 y = ∑ k ∈ Finset.range (n + 1), allAt m c k
  | 0, h, y => by
    constructor
    · refine (congrFun (first_pos m c ⟨0, h⟩ rfl) y).trans ?_
      refine (pos_step m hpos c ⟨0, h⟩ (k0_pay3 (F := Ideal)) y).trans ?_
      rw [Finset.sum_range_one, pay3_apply, zero_add]
    · refine (congrFun (first_all m c ⟨0, h⟩ rfl) y).trans ?_
      refine (all_step m hall c ⟨0, h⟩ (k0_pay4 (F := Ideal)) y).trans ?_
      rw [Finset.sum_range_one, pay4_apply, zero_add]
  | n + 1, h, y => by
    have hN : cfg0.N = 32 := N_0
    have hB : ¬(⟨n + 1, h⟩ : Fin cfg0.N).val % 32 = 0 := by dsimp only; omega
    obtain ⟨ihp, iha⟩ := outsAt_eq hpos hall c n (Nat.lt_of_succ_lt h) y
    constructor
    · refine (congrFun (later_pos m c ⟨n + 1, h⟩ hB) y).trans ?_
      refine (pos_step m hpos c ⟨n + 1, h⟩ _ y).trans ?_
      rw [Finset.sum_range_succ _ (n + 1)]
      exact congrArg (· + posAt m c (n + 1)) ihp
    · refine (congrFun (later_all m c ⟨n + 1, h⟩ hB) y).trans ?_
      refine (all_step m hall c ⟨n + 1, h⟩ _ y).trans ?_
      rw [Finset.sum_range_succ _ (n + 1)]
      exact congrArg (· + allAt m c (n + 1)) iha

/-- All 32 shares, as the sum over the tiles. -/
theorem sum_posAt (c : Dev nD) :
    ∑ k ∈ Finset.range 32, posAt m c k = ∑ t : Fin 32, tilePos (V m c main_v79) (V m c main_arg5) (V m c main_v86) t := by
  rw [← Fin.sum_univ_eq_sum_range (fun k => posAt m c k) 32]
  refine Finset.sum_congr rfl fun t _ => ?_
  unfold posAt
  rw [dif_pos t.isLt]
theorem sum_allAt (c : Dev nD) :
    ∑ k ∈ Finset.range 32, allAt m c k = ∑ t : Fin 32, tileAll (V m c main_v79) (V m c main_arg5) t := by
  rw [← Fin.sum_univ_eq_sum_range (fun k => allAt m c k) 32]
  refine Finset.sum_congr rfl fun t _ => ?_
  unfold allAt
  rw [dif_pos t.isLt]

end Totals

/-! ## The two result arrays -/

section Finals

variable (m : (ℓ : Loc nD τ sig) → Buf (Elt Ideal) ℓ)

/-- The last point of the grid, the one point whose pass is written back. -/
def tLast : Fin cfg0.N := ⟨31, by rw [show cfg0.N = 32 from N_0]; decide⟩

/-- The marked total and the whole total, as contents of the two one-element result arrays. -/
abbrev totalPos (c : Dev nD) : Buf (Elt Ideal) ((c : Thread nD τ).loc main_v87_0) :=
  fun _ => (∑ t : Fin 32, tilePos (V m c main_v79) (V m c main_arg5) (V m c main_v86) t : EReal)
abbrev totalAll (c : Dev nD) : Buf (Elt Ideal) ((c : Thread nD τ).loc main_v87_1) :=
  fun _ => (∑ t : Fin 32, tileAll (V m c main_v79) (V m c main_arg5) t : EReal)

/-- The one write-back of the first result, after the last point, writes the marked total: the block is the whole
    one-element array, read through zero offsets. -/
theorem flushed3_eq (hpos : ∀ (x0 : Vec Ideal S4x256x4x256 .f32) (x1 : Vec Ideal S64x256 .f32) (x2 : Vec Ideal S64x4 .f32)
      (acc : Vec Ideal S1x1 .f32) (y : S1x1.Idx), posPay x0 x1 x2 acc y = acc y + tilePosOf x1 x0 x2)
    (hall : ∀ (x0 : Vec Ideal S4x256x4x256 .f32) (x1 : Vec Ideal S64x256 .f32)
      (acc : Vec Ideal S1x1 .f32) (y : S1x1.Idx), allPay x0 x1 acc y = acc y + tileAllOf x1 x0)
    (c : Dev nD) (t : Fin cfg0.N) (hf : (cfg0.win 3).flush t = true) :
    (dats m 0 c).flushed 3 t = ((cfg0.win 3).blk t).view.read (Elt Ideal) (totalPos m c) := by
  have hN : cfg0.N = 32 := N_0
  have h31 : t.val = 31 := by have := (flush0_3 t).mp hf; have := t.isLt; omega
  have hz' : (fun a => win0_3.index t a * main_v87_0.ty.shape.size a) = fun _ => 0 :=
    funext fun a => by fin_cases a <;> rfl
  refine Eq.trans ?_ (Memref.read_access_unit_zero (Elt Ideal) main_v87_0 hz' (fun a => by rw [congrFun hz' a]; simp) (totalPos m c)).symm
  show (cfg0.win 3).cut (grid0.coords t) ((dats m 0 c).after 3 t) = _
  rw [after0_3]
  funext y
  show (outsAt0 m c t.val t.isLt).1 y = _
  refine ((outsAt_eq m hpos hall c t.val t.isLt y).1).trans ?_
  rw [h31]
  exact sum_posAt m c

/-- Likewise the second result's write-back writes the whole total. -/
theorem flushed4_eq (hpos : ∀ (x0 : Vec Ideal S4x256x4x256 .f32) (x1 : Vec Ideal S64x256 .f32) (x2 : Vec Ideal S64x4 .f32)
      (acc : Vec Ideal S1x1 .f32) (y : S1x1.Idx), posPay x0 x1 x2 acc y = acc y + tilePosOf x1 x0 x2)
    (hall : ∀ (x0 : Vec Ideal S4x256x4x256 .f32) (x1 : Vec Ideal S64x256 .f32)
      (acc : Vec Ideal S1x1 .f32) (y : S1x1.Idx), allPay x0 x1 acc y = acc y + tileAllOf x1 x0)
    (c : Dev nD) (t : Fin cfg0.N) (hf : (cfg0.win 4).flush t = true) :
    (dats m 0 c).flushed 4 t = ((cfg0.win 4).blk t).view.read (Elt Ideal) (totalAll m c) := by
  have hN : cfg0.N = 32 := N_0
  have h31 : t.val = 31 := by have := (flush0_4 t).mp hf; have := t.isLt; omega
  have hz' : (fun a => win0_4.index t a * main_v87_1.ty.shape.size a) = fun _ => 0 :=
    funext fun a => by fin_cases a <;> rfl
  refine Eq.trans ?_ (Memref.read_access_unit_zero (Elt Ideal) main_v87_1 hz' (fun a => by rw [congrFun hz' a]; simp) (totalAll m c)).symm
  show (cfg0.win 4).cut (grid0.coords t) ((dats m 0 c).after 4 t) = _
  rw [after0_4]
  funext y
  show (outsAt0 m c t.val t.isLt).2 y = _
  refine ((outsAt_eq m hpos hall c t.val t.isLt y).2).trans ?_
  rw [h31]
  exact sum_allAt m c

/-- So the first result array ends holding the marked total (the last point's block covers its one element), -/
theorem final_pos_of (hpos : ∀ (x0 : Vec Ideal S4x256x4x256 .f32) (x1 : Vec Ideal S64x256 .f32) (x2 : Vec Ideal S64x4 .f32)
      (acc : Vec Ideal S1x1 .f32) (y : S1x1.Idx), posPay x0 x1 x2 acc y = acc y + tilePosOf x1 x0 x2)
    (hall : ∀ (x0 : Vec Ideal S4x256x4x256 .f32) (x1 : Vec Ideal S64x256 .f32)
      (acc : Vec Ideal S1x1 .f32) (y : S1x1.Idx), allPay x0 x1 acc y = acc y + tileAllOf x1 x0)
    (c : Dev nD) : (dats m 0 c).arrAt 3 cfg0.N = totalPos m c :=
  (dats m 0 c).arrAt_eq_of_cover 3 (totalPos m c) (flushed3_eq m hpos hall c) fun i =>
    ⟨tLast, (flush0_3 tLast).mpr rfl, by
      show i ∈ ((View.whole main_v87_0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- and the second the whole total. -/
theorem final_all_of (hpos : ∀ (x0 : Vec Ideal S4x256x4x256 .f32) (x1 : Vec Ideal S64x256 .f32) (x2 : Vec Ideal S64x4 .f32)
      (acc : Vec Ideal S1x1 .f32) (y : S1x1.Idx), posPay x0 x1 x2 acc y = acc y + tilePosOf x1 x0 x2)
    (hall : ∀ (x0 : Vec Ideal S4x256x4x256 .f32) (x1 : Vec Ideal S64x256 .f32)
      (acc : Vec Ideal S1x1 .f32) (y : S1x1.Idx), allPay x0 x1 acc y = acc y + tileAllOf x1 x0)
    (c : Dev nD) : (dats m 0 c).arrAt 4 cfg0.N = totalAll m c :=
  (dats m 0 c).arrAt_eq_of_cover 4 (totalAll m c) (flushed4_eq m hpos hall c) fun i =>
    ⟨tLast, (flush0_4 tLast).mpr rfl, by
      show i ∈ ((View.whole main_v87_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

end Finals

end Cert.KernelIdeal.Acc

end
-- ==== Proof.KernelAcc.lean ====
/-
  The tiled program's two accumulated results, over the extended reals: the first result array ends holding the sum
  over the 32 tiles of each tile's marked weight, the second the sum of each tile's whole weight. The walk over the
  grid is in KernelAccFrame (an induction on the tile number); the fact it rests on — one pass of the body adds the
  tile's share to the accumulator it read — is the body's arithmetic, read in TileValue. Here the two are put together.
-/
import proofs.«181343_j12429635355015_2_alg».proof.Proof.Gen.KernelIdeal.Frame
import proofs.«181343_j12429635355015_2_alg».proof.Proof.CohortSpec
import proofs.«181343_j12429635355015_2_alg».proof.Proof.TileValue
import proofs.«181343_j12429635355015_2_alg».proof.Proof.KernelAccFrame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.Cohort

variable (m : (ℓ : Loc nD τ sig) → Buf (Elt Ideal) ℓ)

/-- The first result array ends holding the marked weight of all 32 tiles. -/
theorem final_pos (c : Dev nD) : (dats m 0 c).arrAt 3 cfg0.N
    = fun _ => (∑ t : Fin 32, tilePos (V m c main_v79) (V m c main_arg5) (V m c main_v86) t : EReal) :=
  final_pos_of m Tile.pos_incr Tile.all_incr c

/-- The second result array ends holding the whole weight of all 32 tiles. -/
theorem final_all (c : Dev nD) : (dats m 0 c).arrAt 4 cfg0.N
    = fun _ => (∑ t : Fin 32, tileAll (V m c main_v79) (V m c main_arg5) t : EReal) :=
  final_all_of m Tile.pos_incr Tile.all_incr c

end Cert.KernelIdeal.Acc

end
-- ==== Proof.RefOpsLists.lean ====
/- The reference program's @main as lists of its host operations, in order — one entry per printed operation, the body of a
   module-local function listed at its call over that call's buffers —, cut where a call begins and ends; each with the two
   side facts a run asks of a list (its buffers are the core's own; it allocates nothing). -/
import proofs.«181343_j12429635355015_2_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 0: 7 operations of @main. -/
abbrev r0 : List (HloOp τ sig (Elt F)) :=
  [ StableHlo.nullary main_cst (fun i => FloatOps.ofBits .f32 (lit0 (S4x2.rowMajor i))),
    StableHlo.unary main_arg7 main_v0 (sitofp .f32 : (⟨S64, .i32⟩ : BufTy).Contents (Elt F) → (⟨S64, .f32⟩ : BufTy).Contents (Elt F)),
    StableHlo.unary main_v0 main_v1 (broadcastInDim S64x1 ![0] bcast_S64_S64x1_0 : (⟨S64, .f32⟩ : BufTy).Contents (Elt F) → (⟨S64x1, .f32⟩ : BufTy).Contents (Elt F)),
    StableHlo.unary main_arg6 main_v2 (broadcastInDim S64x1 ![0] bcast_S64_S64x1_0 : (⟨S64, .i32⟩ : BufTy).Contents (Elt F) → (⟨S64x1, .i32⟩ : BufTy).Contents (Elt F)),
    StableHlo.nullary main_cst_0 (constant S_ .f32 0x3F800000#32),
    StableHlo.unary main_cst_0 main_v3 (broadcastInDim S64x1 ![] bcast_S_S64x1 : (⟨S_, .f32⟩ : BufTy).Contents (Elt F) → (⟨S64x1, .f32⟩ : BufTy).Contents (Elt F)),
    StableHlo.binary main_v3 main_arg1 main_v4 ((fun a b => concatenate S64x5 1 [⟨S64x1, a⟩, ⟨S64x4, b⟩] concatenates_S64x1_S64x4_S64x5_d1) : (⟨S64x1, .f32⟩ : BufTy).Contents (Elt F) → (⟨S64x4, .f32⟩ : BufTy).Contents (Elt F) → (⟨S64x5, .f32⟩ : BufTy).Contents (Elt F)) ]
theorem r0_sub : (r0 : List (HloOp τ sig (Elt F))).Forall fun op => op.bufs ⊆ tcRefs τ sig :=
  ⟨nullary_bufs_sub .., unary_bufs_sub .., unary_bufs_sub .., unary_bufs_sub .., nullary_bufs_sub .., unary_bufs_sub .., binary_bufs_sub ..⟩
theorem r0_fresh : (r0 : List (HloOp τ sig (Elt F))).Forall fun op => op.fresh = ∅ := by
  simp only [List.Forall]; repeat' constructor

/-- Stretch 1: 22 the body of @take_along_axis at the call whose buffers are main_call0. -/
abbrev r1 : List (HloOp τ sig (Elt F)) :=
  [ StableHlo.TRef.nullary main_call0.c (constantI S_ 32 0#32),
    StableHlo.TRef.unary main_call0.c main_call0.v0 (broadcastInDim S64x1 ![] bcast_S_S64x1),
    StableHlo.TRef.binary (.of main_v2 : StableHlo.TRef sig ⟨S64x1, .i32⟩) main_call0.v0 main_call0.v1 (cmpi .slt),
    StableHlo.TRef.nullary main_call0.c_0 (constantI S_ 32 5#32),
    StableHlo.TRef.unary main_call0.c_0 main_call0.v2 (broadcastInDim S64x1 ![] bcast_S_S64x1),
    StableHlo.TRef.binary (.of main_v2 : StableHlo.TRef sig ⟨S64x1, .i32⟩) main_call0.v2 main_call0.v3 addi,
    StableHlo.TRef.ternary main_call0.v1 main_call0.v3 (.of main_v2 : StableHlo.TRef sig ⟨S64x1, .i32⟩) main_call0.v4 select,
    StableHlo.TRef.reshape main_call0.v4 main_call0.v5 rfl shapeCasts_S64x1_S64x1x1,
    StableHlo.TRef.nullary main_call0.c_1 (constantI S1 32 4#32),
    StableHlo.TRef.nullary main_call0.c_2 (constantI S_ 32 0#32),
    StableHlo.TRef.unary main_call0.c_2 main_call0.v6 (broadcastInDim S64x1x1 ![] bcast_S_S64x1x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S64x1x1 ![0, 1, 2] bcast_S1x1x1_S64x1x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S64x1x1_S64x1_d2 h_S_),
    StableHlo.TRef.binary (.of main_v4 : StableHlo.TRef sig ⟨S64x5, .f32⟩) main_call0.v5 main_call0.v13 (fun x i => Host.gather gather_S64x5_S64x1x1_S64x1_n_1_0_0_1_2_11 x i),
    StableHlo.TRef.nullary main_call0.cst (constant S_ .f32 0x7FC00000#32),
    StableHlo.TRef.unary main_call0.cst main_call0.v14 (broadcastInDim S64x1 ![] bcast_S_S64x1),
    StableHlo.TRef.ternary main_call0.v12 main_call0.v13 main_call0.v14 main_call0.v15 select ]
theorem r1_sub : (r1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem r1_fresh : (r1 : List (HloOp τ sig (Elt F))).Forall fun op => op.fresh = ∅ := by
  simp only [List.Forall]; repeat' constructor

/-- Stretch 2: 22 the body of @take_along_axis_0 at the call whose buffers are main_call1. -/
abbrev r2 : List (HloOp τ sig (Elt F)) :=
  [ StableHlo.TRef.nullary main_call1.c (constantI S_ 32 0#32),
    StableHlo.TRef.unary main_call1.c main_call1.v0 (broadcastInDim S64x1 ![] bcast_S_S64x1),
    StableHlo.TRef.binary (.of main_v2 : StableHlo.TRef sig ⟨S64x1, .i32⟩) main_call1.v0 main_call1.v1 (cmpi .slt),
    StableHlo.TRef.nullary main_call1.c_0 (constantI S_ 32 4#32),
    StableHlo.TRef.unary main_call1.c_0 main_call1.v2 (broadcastInDim S64x1 ![] bcast_S_S64x1),
    StableHlo.TRef.binary (.of main_v2 : StableHlo.TRef sig ⟨S64x1, .i32⟩) main_call1.v2 main_call1.v3 addi,
    StableHlo.TRef.ternary main_call1.v1 main_call1.v3 (.of main_v2 : StableHlo.TRef sig ⟨S64x1, .i32⟩) main_call1.v4 select,
    StableHlo.TRef.reshape main_call1.v4 main_call1.v5 rfl shapeCasts_S64x1_S64x1x1,
    StableHlo.TRef.nullary main_call1.c_1 (constantI S1 32 3#32),
    StableHlo.TRef.nullary main_call1.c_2 (constantI S_ 32 0#32),
    StableHlo.TRef.unary main_call1.c_2 main_call1.v6 (broadcastInDim S64x1x1 ![] bcast_S_S64x1x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S64x1x1 ![0, 1, 2] bcast_S1x1x1_S64x1x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S64x1x1_S64x1_d2 h_S_),
    StableHlo.TRef.binary (.of main_arg0 : StableHlo.TRef sig ⟨S64x4, .f32⟩) main_call1.v5 main_call1.v13 (fun x i => Host.gather gather_S64x4_S64x1x1_S64x1_n_1_0_0_1_2_11 x i),
    StableHlo.TRef.nullary main_call1.cst (constant S_ .f32 0x7FC00000#32),
    StableHlo.TRef.unary main_call1.cst main_call1.v14 (broadcastInDim S64x1 ![] bcast_S_S64x1),
    StableHlo.TRef.ternary main_call1.v12 main_call1.v13 main_call1.v14 main_call1.v15 select ]
theorem r2_sub : (r2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem r2_fresh : (r2 : List (HloOp τ sig (Elt F))).Forall fun op => op.fresh = ∅ := by
  simp only [List.Forall]; repeat' constructor

/-- Stretch 3: 3 operations of @main. -/
abbrev r3 : List (HloOp τ sig (Elt F)) :=
  [ StableHlo.nullary main_c (constantI S_ 32 1#32),
    StableHlo.unary main_c main_v7 (broadcastInDim S64x1 ![] bcast_S_S64x1 : (⟨S_, .i32⟩ : BufTy).Contents (Elt F) → (⟨S64x1, .i32⟩ : BufTy).Contents (Elt F)),
    StableHlo.binary main_v2 main_v7 main_v8 (addi : (⟨S64x1, .i32⟩ : BufTy).Contents (Elt F) → (⟨S64x1, .i32⟩ : BufTy).Contents (Elt F) → (⟨S64x1, .i32⟩ : BufTy).Contents (Elt F)) ]
theorem r3_sub : (r3 : List (HloOp τ sig (Elt F))).Forall fun op => op.bufs ⊆ tcRefs τ sig :=
  ⟨nullary_bufs_sub .., unary_bufs_sub .., binary_bufs_sub ..⟩
theorem r3_fresh : (r3 : List (HloOp τ sig (Elt F))).Forall fun op => op.fresh = ∅ := by
  simp only [List.Forall]; repeat' constructor

/-- Stretch 4: 22 the body of @take_along_axis at the call whose buffers are main_call2. -/
abbrev r4 : List (HloOp τ sig (Elt F)) :=
  [ StableHlo.TRef.nullary main_call2.c (constantI S_ 32 0#32),
    StableHlo.TRef.unary main_call2.c main_call2.v0 (broadcastInDim S64x1 ![] bcast_S_S64x1),
    StableHlo.TRef.binary (.of main_v8 : StableHlo.TRef sig ⟨S64x1, .i32⟩) main_call2.v0 main_call2.v1 (cmpi .slt),
    StableHlo.TRef.nullary main_call2.c_0 (constantI S_ 32 5#32),
    StableHlo.TRef.unary main_call2.c_0 main_call2.v2 (broadcastInDim S64x1 ![] bcast_S_S64x1),
    StableHlo.TRef.binary (.of main_v8 : StableHlo.TRef sig ⟨S64x1, .i32⟩) main_call2.v2 main_call2.v3 addi,
    StableHlo.TRef.ternary main_call2.v1 main_call2.v3 (.of main_v8 : StableHlo.TRef sig ⟨S64x1, .i32⟩) main_call2.v4 select,
    StableHlo.TRef.reshape main_call2.v4 main_call2.v5 rfl shapeCasts_S64x1_S64x1x1,
    StableHlo.TRef.nullary main_call2.c_1 (constantI S1 32 4#32),
    StableHlo.TRef.nullary main_call2.c_2 (constantI S_ 32 0#32),
    StableHlo.TRef.unary main_call2.c_2 main_call2.v6 (broadcastInDim S64x1x1 ![] bcast_S_S64x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S64x1x1 ![0, 1, 2] bcast_S1x1x1_S64x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S64x1x1_S64x1_d2 h_S_),
    StableHlo.TRef.binary (.of main_v4 : StableHlo.TRef sig ⟨S64x5, .f32⟩) main_call2.v5 main_call2.v13 (fun x i => Host.gather gather_S64x5_S64x1x1_S64x1_n_1_0_0_1_2_11 x i),
    StableHlo.TRef.nullary main_call2.cst (constant S_ .f32 0x7FC00000#32),
    StableHlo.TRef.unary main_call2.cst main_call2.v14 (broadcastInDim S64x1 ![] bcast_S_S64x1),
    StableHlo.TRef.ternary main_call2.v12 main_call2.v13 main_call2.v14 main_call2.v15 select ]
theorem r4_sub : (r4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem r4_fresh : (r4 : List (HloOp τ sig (Elt F))).Forall fun op => op.fresh = ∅ := by
  simp only [List.Forall]; repeat' constructor

/-- Stretch 5: 47 operations of @main. -/
abbrev r5 : List (HloOp τ sig (Elt F)) :=
  [ StableHlo.nullary main_cst_1 (constant S_ .f32 0x3F800000#32),
    StableHlo.unary main_cst_1 main_v10 (broadcastInDim S64x1 ![] bcast_S_S64x1 : (⟨S_, .f32⟩ : BufTy).Contents (Elt F) → (⟨S64x1, .f32⟩ : BufTy).Contents (Elt F)),
    StableHlo.binary main_v10 main_v1 main_v11 (subf : (⟨S64x1, .f32⟩ : BufTy).Contents (Elt F) → (⟨S64x1, .f32⟩ : BufTy).Contents (Elt F) → (⟨S64x1, .f32⟩ : BufTy).Contents (Elt F)),
    StableHlo.unary main_v11 main_v12 (Host.negf : (⟨S64x1, .f32⟩ : BufTy).Contents (Elt F) → (⟨S64x1, .f32⟩ : BufTy).Contents (Elt F)),
    StableHlo.nullary main_cst_2 (constant S_ .f32 0x33D6BF95#32),
    StableHlo.unary main_cst_2 main_v13 (broadcastInDim S64x1 ![] bcast_S_S64x1 : (⟨S_, .f32⟩ : BufTy).Contents (Elt F) → (⟨S64x1, .f32⟩ : BufTy).Contents (Elt F)),
    StableHlo.binary main_v5 main_v13 main_v14 (maximumf : (⟨S64x1, .f32⟩ : BufTy).Contents (Elt F) → (⟨S64x1, .f32⟩ : BufTy).Contents (Elt F) → (⟨S64x1, .f32⟩ : BufTy).Contents (Elt F)),
    StableHlo.unary main_v14 main_v15 (Host.log : (⟨S64x1, .f32⟩ : BufTy).Contents (Elt F) → (⟨S64x1, .f32⟩ : BufTy).Contents (Elt F)),
    StableHlo.nullary main_cst_3 (constant S_ .f32 0x33D6BF95#32),
    StableHlo.unary main_cst_3 main_v16 (broadcastInDim S64x1 ![] bcast_S_S64x1 : (⟨S_, .f32⟩ : BufTy).Contents (Elt F) → (⟨S64x1, .f32⟩ : BufTy).Contents (Elt F)),
    StableHlo.binary main_v6 main_v16 main_v17 (maximumf : (⟨S64x1, .f32⟩ : BufTy).Contents (Elt F) → (⟨S64x1, .f32⟩ : BufTy).Contents (Elt F) → (⟨S64x1, .f32⟩ : BufTy).Contents (Elt F)),
    StableHlo.unary main_v17 main_v18 (Host.log : (⟨S64x1, .f32⟩ : BufTy).Contents (Elt F) → (⟨S64x1, .f32⟩ : BufTy).Contents (Elt F)),
    StableHlo.binary main_v15 main_v18 main_v19 (addf : (⟨S64x1, .f32⟩ : BufTy).Contents (Elt F) → (⟨S64x1, .f32⟩ : BufTy).Contents (Elt F) → (⟨S64x1, .f32⟩ : BufTy).Contents (Elt F)),
    StableHlo.binary main_v12 main_v19 main_v20 (mulf : (⟨S64x1, .f32⟩ : BufTy).Contents (Elt F) → (⟨S64x1, .f32⟩ : BufTy).Contents (Elt F) → (⟨S64x1, .f32⟩ : BufTy).Contents (Elt F)),
    StableHlo.unary main_v1 main_v21 (Host.negf : (⟨S64x1, .f32⟩ : BufTy).Contents (Elt F) → (⟨S64x1, .f32⟩ : BufTy).Contents (Elt F)),
    StableHlo.nullary main_cst_4 (constant S_ .f32 0x33D6BF95#32),
    StableHlo.unary main_cst_4 main_v22 (broadcastInDim S64x1 ![] bcast_S_S64x1 : (⟨S_, .f32⟩ : BufTy).Contents (Elt F) → (⟨S64x1, .f32⟩ : BufTy).Contents (Elt F)),
    StableHlo.binary main_v9 main_v22 main_v23 (maximumf : (⟨S64x1, .f32⟩ : BufTy).Contents (Elt F) → (⟨S64x1, .f32⟩ : BufTy).Contents (Elt F) → (⟨S64x1, .f32⟩ : BufTy).Contents (Elt F)),
    StableHlo.unary main_v23 main_v24 (Host.log : (⟨S64x1, .f32⟩ : BufTy).Contents (Elt F) → (⟨S64x1, .f32⟩ : BufTy).Contents (Elt F)),
    StableHlo.binary main_v21 main_v24 main_v25 (mulf : (⟨S64x1, .f32⟩ : BufTy).Contents (Elt F) → (⟨S64x1, .f32⟩ : BufTy).Contents (Elt F) → (⟨S64x1, .f32⟩ : BufTy).Contents (Elt F)),
    StableHlo.binary main_v25 main_v20 main_v26 (addf : (⟨S64x1, .f32⟩ : BufTy).Contents (Elt F) → (⟨S64x1, .f32⟩ : BufTy).Contents (Elt F) → (⟨S64x1, .f32⟩ : BufTy).Contents (Elt F)),
    StableHlo.nullary main_cst_5 (constant S_ .f32 0x3F800000#32),
    StableHlo.unary main_cst_5 main_v27 (broadcastInDim S64x1 ![] bcast_S_S64x1 : (⟨S_, .f32⟩ : BufTy).Contents (Elt F) → (⟨S64x1, .f32⟩ : BufTy).Contents (Elt F)),
    StableHlo.binary main_v27 main_v26 main_v28 (mulf : (⟨S64x1, .f32⟩ : BufTy).Contents (Elt F) → (⟨S64x1, .f32⟩ : BufTy).Contents (Elt F) → (⟨S64x1, .f32⟩ : BufTy).Contents (Elt F)),
    StableHlo.nullary main_cst_6 (constant S_ .f32 0x00000000#32),
    StableHlo.unary main_cst_6 main_v29 (broadcastInDim S64x1 ![] bcast_S_S64x1 : (⟨S_, .f32⟩ : BufTy).Contents (Elt F) → (⟨S64x1, .f32⟩ : BufTy).Contents (Elt F)),
    StableHlo.binary main_v29 main_v20 main_v30 (mulf : (⟨S64x1, .f32⟩ : BufTy).Contents (Elt F) → (⟨S64x1, .f32⟩ : BufTy).Contents (Elt F) → (⟨S64x1, .f32⟩ : BufTy).Contents (Elt F)),
    StableHlo.binary main_v28 main_v30 main_v31 (addf : (⟨S64x1, .f32⟩ : BufTy).Contents (Elt F) → (⟨S64x1, .f32⟩ : BufTy).Contents (Elt F) → (⟨S64x1, .f32⟩ : BufTy).Contents (Elt F)),
    StableHlo.nullary main_cst_7 (constant S_ .f32 0x00000000#32),
    StableHlo.binary main_v31 main_cst_7 main_v32 ((fun x v => Host.reduceAdd x v reducesTo_S64x1_S_d0_1 h_S_) : (⟨S64x1, .f32⟩ : BufTy).Contents (Elt F) → (⟨S_, .f32⟩ : BufTy).Contents (Elt F) → (⟨S_, .f32⟩ : BufTy).Contents (Elt F)),
    StableHlo.nullary main_cst_8 (constant S_ .f32 0x42800000#32),
    StableHlo.binary main_v32 main_cst_8 main_v33 (Host.divf : (⟨S_, .f32⟩ : BufTy).Contents (Elt F) → (⟨S_, .f32⟩ : BufTy).Contents (Elt F) → (⟨S_, .f32⟩ : BufTy).Contents (Elt F)),
    StableHlo.binary main_arg2 main_arg2 main_v34 (mulf : (⟨S64x4x256, .f32⟩ : BufTy).Contents (Elt F) → (⟨S64x4x256, .f32⟩ : BufTy).Contents (Elt F) → (⟨S64x4x256, .f32⟩ : BufTy).Contents (Elt F)),
    StableHlo.nullary main_cst_9 (constant S_ .f32 0x00000000#32),
    StableHlo.binary main_v34 main_cst_9 main_v35 ((fun x v => Host.reduceAdd x v reducesTo_S64x4x256_S64x4_d2 h_S_) : (⟨S64x4x256, .f32⟩ : BufTy).Contents (Elt F) → (⟨S_, .f32⟩ : BufTy).Contents (Elt F) → (⟨S64x4, .f32⟩ : BufTy).Contents (Elt F)),
    StableHlo.unary main_v35 main_v36 (broadcastInDim S64x4x1 ![0, 1] bcast_S64x4_S64x4x1_0_1 : (⟨S64x4, .f32⟩ : BufTy).Contents (Elt F) → (⟨S64x4x1, .f32⟩ : BufTy).Contents (Elt F)),
    StableHlo.unary main_v36 main_v37 (Host.sqrt : (⟨S64x4x1, .f32⟩ : BufTy).Contents (Elt F) → (⟨S64x4x1, .f32⟩ : BufTy).Contents (Elt F)),
    StableHlo.nullary main_cst_10 (constant S_ .f32 0x2B8CBCCC#32),
    StableHlo.unary main_cst_10 main_v38 (broadcastInDim S64x4x1 ![] bcast_S_S64x4x1 : (⟨S_, .f32⟩ : BufTy).Contents (Elt F) → (⟨S64x4x1, .f32⟩ : BufTy).Contents (Elt F)),
    StableHlo.binary main_v37 main_v38 main_v39 (maximumf : (⟨S64x4x1, .f32⟩ : BufTy).Contents (Elt F) → (⟨S64x4x1, .f32⟩ : BufTy).Contents (Elt F) → (⟨S64x4x1, .f32⟩ : BufTy).Contents (Elt F)),
    StableHlo.unary main_v39 main_v40 (broadcastInDim S64x4x256 ![0, 1, 2] bcast_S64x4x1_S64x4x256_0_1_2 : (⟨S64x4x1, .f32⟩ : BufTy).Contents (Elt F) → (⟨S64x4x256, .f32⟩ : BufTy).Contents (Elt F)),
    StableHlo.binary main_arg2 main_v40 main_v41 (Host.divf : (⟨S64x4x256, .f32⟩ : BufTy).Contents (Elt F) → (⟨S64x4x256, .f32⟩ : BufTy).Contents (Elt F) → (⟨S64x4x256, .f32⟩ : BufTy).Contents (Elt F)),
    StableHlo.binary main_arg3 main_arg4 main_v42 ((fun a b => concatenate S64x2x256 1 [⟨S64x1x256, a⟩, ⟨S64x1x256, b⟩] concatenates_S64x1x256_S64x1x256_S64x2x256_d1) : (⟨S64x1x256, .f32⟩ : BufTy).Contents (Elt F) → (⟨S64x1x256, .f32⟩ : BufTy).Contents (Elt F) → (⟨S64x2x256, .f32⟩ : BufTy).Contents (Elt F)),
    StableHlo.binary main_v42 main_v42 main_v43 (mulf : (⟨S64x2x256, .f32⟩ : BufTy).Contents (Elt F) → (⟨S64x2x256, .f32⟩ : BufTy).Contents (Elt F) → (⟨S64x2x256, .f32⟩ : BufTy).Contents (Elt F)),
    StableHlo.nullary main_cst_11 (constant S_ .f32 0x00000000#32),
    StableHlo.binary main_v43 main_cst_11 main_v44 ((fun x v => Host.reduceAdd x v reducesTo_S64x2x256_S64x2_d2 h_S_) : (⟨S64x2x256, .f32⟩ : BufTy).Contents (Elt F) → (⟨S_, .f32⟩ : BufTy).Contents (Elt F) → (⟨S64x2, .f32⟩ : BufTy).Contents (Elt F)),
    StableHlo.unary main_v44 main_v45 (broadcastInDim S64x2x1 ![0, 1] bcast_S64x2_S64x2x1_0_1 : (⟨S64x2, .f32⟩ : BufTy).Contents (Elt F) → (⟨S64x2x1, .f32⟩ : BufTy).Contents (Elt F)) ]
theorem r5_sub : (r5 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., binary_bufs_sub .., nullary_bufs_sub .., binary_bufs_sub .., unary_bufs_sub ..⟩
theorem r5_fresh : (r5 : List (HloOp τ sig (Elt F))).Forall fun op => op.fresh = ∅ := by
  simp only [List.Forall]; repeat' constructor

/-- Stretch 6: 60 operations of @main. -/
abbrev r6 : List (HloOp τ sig (Elt F)) :=
  [ StableHlo.unary main_v45 main_v46 (Host.sqrt : (⟨S64x2x1, .f32⟩ : BufTy).Contents (Elt F) → (⟨S64x2x1, .f32⟩ : BufTy).Contents (Elt F)),
    StableHlo.nullary main_cst_12 (constant S_ .f32 0x2B8CBCCC#32),
    StableHlo.unary main_cst_12 main_v47 (broadcastInDim S64x2x1 ![] bcast_S_S64x2x1 : (⟨S_, .f32⟩ : BufTy).Contents (Elt F) → (⟨S64x2x1, .f32⟩ : BufTy).Contents (Elt F)),
    StableHlo.binary main_v46 main_v47 main_v48 (maximumf : (⟨S64x2x1, .f32⟩ : BufTy).Contents (Elt F) → (⟨S64x2x1, .f32⟩ : BufTy).Contents (Elt F) → (⟨S64x2x1, .f32⟩ : BufTy).Contents (Elt F)),
    StableHlo.unary main_v48 main_v49 (broadcastInDim S64x2x256 ![0, 1, 2] bcast_S64x2x1_S64x2x256_0_1_2 : (⟨S64x2x1, .f32⟩ : BufTy).Contents (Elt F) → (⟨S64x2x256, .f32⟩ : BufTy).Contents (Elt F)),
    StableHlo.binary main_v42 main_v49 main_v50 (Host.divf : (⟨S64x2x256, .f32⟩ : BufTy).Contents (Elt F) → (⟨S64x2x256, .f32⟩ : BufTy).Contents (Elt F) → (⟨S64x2x256, .f32⟩ : BufTy).Contents (Elt F)),
    StableHlo.binary main_v41 main_v50 main_v51 ((fun l r => Host.dotGeneral dot_S64x4x256_S64x2x256_S64x4x2_2_2_1_1_0_0 none l r) : (⟨S64x4x256, .f32⟩ : BufTy).Contents (Elt F) → (⟨S64x2x256, .f32⟩ : BufTy).Contents (Elt F) → (⟨S64x4x2, .f32⟩ : BufTy).Contents (Elt F)),
    StableHlo.unary main_v51 main_v52 (Host.absf : (⟨S64x4x2, .f32⟩ : BufTy).Contents (Elt F) → (⟨S64x4x2, .f32⟩ : BufTy).Contents (Elt F)),
    StableHlo.nullary main_cst_13 (constant S_ .f32 0x3F800000#32),
    StableHlo.unary main_cst_13 main_v53 (broadcastInDim S4x2 ![] bcast_S_S4x2 : (⟨S_, .f32⟩ : BufTy).Contents (Elt F) → (⟨S4x2, .f32⟩ : BufTy).Contents (Elt F)),
    StableHlo.binary main_v53 main_cst main_v54 (subf : (⟨S4x2, .f32⟩ : BufTy).Contents (Elt F) → (⟨S4x2, .f32⟩ : BufTy).Contents (Elt F) → (⟨S4x2, .f32⟩ : BufTy).Contents (Elt F)),
    StableHlo.unary main_v54 main_v55 (broadcastInDim S1x4x2 ![1, 2] bcast_S4x2_S1x4x2_1_2 : (⟨S4x2, .f32⟩ : BufTy).Contents (Elt F) → (⟨S1x4x2, .f32⟩ : BufTy).Contents (Elt F)),
    StableHlo.unary main_v55 main_v56 (broadcastInDim S64x4x2 ![0, 1, 2] bcast_S1x4x2_S64x4x2_0_1_2 : (⟨S1x4x2, .f32⟩ : BufTy).Contents (Elt F) → (⟨S64x4x2, .f32⟩ : BufTy).Contents (Elt F)),
    StableHlo.binary main_v52 main_v56 main_v57 (mulf : (⟨S64x4x2, .f32⟩ : BufTy).Contents (Elt F) → (⟨S64x4x2, .f32⟩ : BufTy).Contents (Elt F) → (⟨S64x4x2, .f32⟩ : BufTy).Contents (Elt F)),
    StableHlo.unary main_cst main_v58 (broadcastInDim S1x4x2 ![1, 2] bcast_S4x2_S1x4x2_1_2 : (⟨S4x2, .f32⟩ : BufTy).Contents (Elt F) → (⟨S1x4x2, .f32⟩ : BufTy).Contents (Elt F)),
    StableHlo.unary main_v58 main_v59 (broadcastInDim S64x4x2 ![0, 1, 2] bcast_S1x4x2_S64x4x2_0_1_2 : (⟨S1x4x2, .f32⟩ : BufTy).Contents (Elt F) → (⟨S64x4x2, .f32⟩ : BufTy).Contents (Elt F)),
    StableHlo.binary main_v59 main_v51 main_v60 (mulf : (⟨S64x4x2, .f32⟩ : BufTy).Contents (Elt F) → (⟨S64x4x2, .f32⟩ : BufTy).Contents (Elt F) → (⟨S64x4x2, .f32⟩ : BufTy).Contents (Elt F)),
    StableHlo.binary main_v57 main_v60 main_v61 (subf : (⟨S64x4x2, .f32⟩ : BufTy).Contents (Elt F) → (⟨S64x4x2, .f32⟩ : BufTy).Contents (Elt F) → (⟨S64x4x2, .f32⟩ : BufTy).Contents (Elt F)),
    StableHlo.nullary main_cst_14 (constant S_ .f32 0x00000000#32),
    StableHlo.binary main_v61 main_cst_14 main_v62 ((fun x v => Host.reduceAdd x v reducesTo_S64x4x2_S64_d1_2 h_S_) : (⟨S64x4x2, .f32⟩ : BufTy).Contents (Elt F) → (⟨S_, .f32⟩ : BufTy).Contents (Elt F) → (⟨S64, .f32⟩ : BufTy).Contents (Elt F)),
    StableHlo.nullary main_cst_15 (constant S_ .f32 0x41000000#32),
    StableHlo.unary main_cst_15 main_v63 (broadcastInDim S64 ![] bcast_S_S64 : (⟨S_, .f32⟩ : BufTy).Contents (Elt F) → (⟨S64, .f32⟩ : BufTy).Contents (Elt F)),
    StableHlo.binary main_v62 main_v63 main_v64 (Host.divf : (⟨S64, .f32⟩ : BufTy).Contents (Elt F) → (⟨S64, .f32⟩ : BufTy).Contents (Elt F) → (⟨S64, .f32⟩ : BufTy).Contents (Elt F)),
    StableHlo.nullary main_cst_16 (constant S_ .f32 0x3F800000#32),
    StableHlo.unary main_cst_16 main_v65 (broadcastInDim S64 ![] bcast_S_S64 : (⟨S_, .f32⟩ : BufTy).Contents (Elt F) → (⟨S64, .f32⟩ : BufTy).Contents (Elt F)),
    StableHlo.binary main_v64 main_v65 main_v66 (addf : (⟨S64, .f32⟩ : BufTy).Contents (Elt F) → (⟨S64, .f32⟩ : BufTy).Contents (Elt F) → (⟨S64, .f32⟩ : BufTy).Contents (Elt F)),
    StableHlo.nullary main_cst_17 (constant S_ .f32 0x00000000#32),
    StableHlo.binary main_v66 main_cst_17 main_v67 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_18 (constant S_ .f32 0x42800000#32),
    StableHlo.binary main_v67 main_cst_18 main_v68 (Host.divf : (⟨S_, .f32⟩ : BufTy).Contents (Elt F) → (⟨S_, .f32⟩ : BufTy).Contents (Elt F) → (⟨S_, .f32⟩ : BufTy).Contents (Elt F)),
    StableHlo.nullary main_cst_19 (constant S_ .f32 0x00000000#32),
    StableHlo.binary main_arg2 main_cst_19 main_v69 ((fun x v => Host.reduceAdd x v reducesTo_S64x4x256_S64x256_d1 h_S_) : (⟨S64x4x256, .f32⟩ : BufTy).Contents (Elt F) → (⟨S_, .f32⟩ : BufTy).Contents (Elt F) → (⟨S64x256, .f32⟩ : BufTy).Contents (Elt F)),
    StableHlo.nullary main_cst_20 (constant S_ .f32 0x40800000#32),
    StableHlo.unary main_cst_20 main_v70 (broadcastInDim S64x256 ![] bcast_S_S64x256 : (⟨S_, .f32⟩ : BufTy).Contents (Elt F) → (⟨S64x256, .f32⟩ : BufTy).Contents (Elt F)),
    StableHlo.binary main_v69 main_v70 main_v71 (Host.divf : (⟨S64x256, .f32⟩ : BufTy).Contents (Elt F) → (⟨S64x256, .f32⟩ : BufTy).Contents (Elt F) → (⟨S64x256, .f32⟩ : BufTy).Contents (Elt F)),
    StableHlo.binary main_v71 main_v71 main_v72 (mulf : (⟨S64x256, .f32⟩ : BufTy).Contents (Elt F) → (⟨S64x256, .f32⟩ : BufTy).Contents (Elt F) → (⟨S64x256, .f32⟩ : BufTy).Contents (Elt F)),
    StableHlo.nullary main_cst_21 (constant S_ .f32 0x00000000#32),
    StableHlo.binary main_v72 main_cst_21 main_v73 ((fun x v => Host.reduceAdd x v reducesTo_S64x256_S64_d1 h_S_) : (⟨S64x256, .f32⟩ : BufTy).Contents (Elt F) → (⟨S_, .f32⟩ : BufTy).Contents (Elt F) → (⟨S64, .f32⟩ : BufTy).Contents (Elt F)),
    StableHlo.unary main_v73 main_v74 (broadcastInDim S64x1 ![0] bcast_S64_S64x1_0 : (⟨S64, .f32⟩ : BufTy).Contents (Elt F) → (⟨S64x1, .f32⟩ : BufTy).Contents (Elt F)),
    StableHlo.unary main_v74 main_v75 (Host.sqrt : (⟨S64x1, .f32⟩ : BufTy).Contents (Elt F) → (⟨S64x1, .f32⟩ : BufTy).Contents (Elt F)),
    StableHlo.nullary main_cst_22 (constant S_ .f32 0x2B8CBCCC#32),
    StableHlo.unary main_cst_22 main_v76 (broadcastInDim S64x1 ![] bcast_S_S64x1 : (⟨S_, .f32⟩ : BufTy).Contents (Elt F) → (⟨S64x1, .f32⟩ : BufTy).Contents (Elt F)),
    StableHlo.binary main_v75 main_v76 main_v77 (maximumf : (⟨S64x1, .f32⟩ : BufTy).Contents (Elt F) → (⟨S64x1, .f32⟩ : BufTy).Contents (Elt F) → (⟨S64x1, .f32⟩ : BufTy).Contents (Elt F)),
    StableHlo.unary main_v77 main_v78 (broadcastInDim S64x256 ![0, 1] bcast_S64x1_S64x256_0_1 : (⟨S64x1, .f32⟩ : BufTy).Contents (Elt F) → (⟨S64x256, .f32⟩ : BufTy).Contents (Elt F)),
    StableHlo.binary main_v71 main_v78 main_v79 (Host.divf : (⟨S64x256, .f32⟩ : BufTy).Contents (Elt F) → (⟨S64x256, .f32⟩ : BufTy).Contents (Elt F) → (⟨S64x256, .f32⟩ : BufTy).Contents (Elt F)),
    StableHlo.nullary main_cst_23 (constant S_ .f32 0x00000000#32),
    StableHlo.binary main_arg5 main_cst_23 main_v80 ((fun x v => Host.reduceAdd x v reducesTo_S4x8192x4x256_S4x8192x256_d2 h_S_) : (⟨S4x8192x4x256, .f32⟩ : BufTy).Contents (Elt F) → (⟨S_, .f32⟩ : BufTy).Contents (Elt F) → (⟨S4x8192x256, .f32⟩ : BufTy).Contents (Elt F)),
    StableHlo.nullary main_cst_24 (constant S_ .f32 0x40800000#32),
    StableHlo.unary main_cst_24 main_v81 (broadcastInDim S4x8192x256 ![] bcast_S_S4x8192x256 : (⟨S_, .f32⟩ : BufTy).Contents (Elt F) → (⟨S4x8192x256, .f32⟩ : BufTy).Contents (Elt F)),
    StableHlo.binary main_v80 main_v81 main_v82 (Host.divf : (⟨S4x8192x256, .f32⟩ : BufTy).Contents (Elt F) → (⟨S4x8192x256, .f32⟩ : BufTy).Contents (Elt F) → (⟨S4x8192x256, .f32⟩ : BufTy).Contents (Elt F)),
    StableHlo.binary main_v82 main_v82 main_v83 (mulf : (⟨S4x8192x256, .f32⟩ : BufTy).Contents (Elt F) → (⟨S4x8192x256, .f32⟩ : BufTy).Contents (Elt F) → (⟨S4x8192x256, .f32⟩ : BufTy).Contents (Elt F)),
    StableHlo.nullary main_cst_25 (constant S_ .f32 0x00000000#32),
    StableHlo.binary main_v83 main_cst_25 main_v84 ((fun x v => Host.reduceAdd x v reducesTo_S4x8192x256_S4x8192_d2 h_S_) : (⟨S4x8192x256, .f32⟩ : BufTy).Contents (Elt F) → (⟨S_, .f32⟩ : BufTy).Contents (Elt F) → (⟨S4x8192, .f32⟩ : BufTy).Contents (Elt F)),
    StableHlo.unary main_v84 main_v85 (broadcastInDim S4x8192x1 ![0, 1] bcast_S4x8192_S4x8192x1_0_1 : (⟨S4x8192, .f32⟩ : BufTy).Contents (Elt F) → (⟨S4x8192x1, .f32⟩ : BufTy).Contents (Elt F)),
    StableHlo.unary main_v85 main_v86 (Host.sqrt : (⟨S4x8192x1, .f32⟩ : BufTy).Contents (Elt F) → (⟨S4x8192x1, .f32⟩ : BufTy).Contents (Elt F)),
    StableHlo.nullary main_cst_26 (constant S_ .f32 0x2B8CBCCC#32),
    StableHlo.unary main_cst_26 main_v87 (broadcastInDim S4x8192x1 ![] bcast_S_S4x8192x1 : (⟨S_, .f32⟩ : BufTy).Contents (Elt F) → (⟨S4x8192x1, .f32⟩ : BufTy).Contents (Elt F)),
    StableHlo.binary main_v86 main_v87 main_v88 (maximumf : (⟨S4x8192x1, .f32⟩ : BufTy).Contents (Elt F) → (⟨S4x8192x1, .f32⟩ : BufTy).Contents (Elt F) → (⟨S4x8192x1, .f32⟩ : BufTy).Contents (Elt F)),
    StableHlo.unary main_v88 main_v89 (broadcastInDim S4x8192x256 ![0, 1, 2] bcast_S4x8192x1_S4x8192x256_0_1_2 : (⟨S4x8192x1, .f32⟩ : BufTy).Contents (Elt F) → (⟨S4x8192x256, .f32⟩ : BufTy).Contents (Elt F)),
    StableHlo.binary main_v82 main_v89 main_v90 (Host.divf : (⟨S4x8192x256, .f32⟩ : BufTy).Contents (Elt F) → (⟨S4x8192x256, .f32⟩ : BufTy).Contents (Elt F) → (⟨S4x8192x256, .f32⟩ : BufTy).Contents (Elt F)) ]
theorem r6_sub : (r6 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., nullary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem r6_fresh : (r6 : List (HloOp τ sig (Elt F))).Forall fun op => op.fresh = ∅ := by
  simp only [List.Forall]; repeat' constructor

/-- Stretch 7: 38 operations of @main. -/
abbrev r7 : List (HloOp τ sig (Elt F)) :=
  [ StableHlo.binary main_v79 main_v90 main_v91 ((fun l r => Host.dotGeneral dot_S64x256_S4x8192x256_S64x4x8192_1_2_0_01_n_n none l r) : (⟨S64x256, .f32⟩ : BufTy).Contents (Elt F) → (⟨S4x8192x256, .f32⟩ : BufTy).Contents (Elt F) → (⟨S64x4x8192, .f32⟩ : BufTy).Contents (Elt F)),
    StableHlo.nullary main_cst_27 (constant S_ .f32 0x40000000#32),
    StableHlo.unary main_cst_27 main_v92 (broadcastInDim S64x4x8192 ![] bcast_S_S64x4x8192 : (⟨S_, .f32⟩ : BufTy).Contents (Elt F) → (⟨S64x4x8192, .f32⟩ : BufTy).Contents (Elt F)),
    StableHlo.binary main_v91 main_v92 main_v93 (Host.divf : (⟨S64x4x8192, .f32⟩ : BufTy).Contents (Elt F) → (⟨S64x4x8192, .f32⟩ : BufTy).Contents (Elt F) → (⟨S64x4x8192, .f32⟩ : BufTy).Contents (Elt F)),
    StableHlo.unary main_v93 main_v94 (Host.exp : (⟨S64x4x8192, .f32⟩ : BufTy).Contents (Elt F) → (⟨S64x4x8192, .f32⟩ : BufTy).Contents (Elt F)),
    StableHlo.unary main_arg6 main_v95 (broadcastInDim S64x1 ![0] bcast_S64_S64x1_0 : (⟨S64, .i32⟩ : BufTy).Contents (Elt F) → (⟨S64x1, .i32⟩ : BufTy).Contents (Elt F)),
    StableHlo.nullary main_v96 (iotaInDim S4 32 0),
    StableHlo.unary main_v96 main_v97 (broadcastInDim S1x4 ![1] bcast_S4_S1x4_1 : (⟨S4, .i32⟩ : BufTy).Contents (Elt F) → (⟨S1x4, .i32⟩ : BufTy).Contents (Elt F)),
    StableHlo.unary main_v95 main_v98 (broadcastInDim S64x4 ![0, 1] bcast_S64x1_S64x4_0_1 : (⟨S64x1, .i32⟩ : BufTy).Contents (Elt F) → (⟨S64x4, .i32⟩ : BufTy).Contents (Elt F)),
    StableHlo.unary main_v97 main_v99 (broadcastInDim S64x4 ![0, 1] bcast_S1x4_S64x4_0_1 : (⟨S1x4, .i32⟩ : BufTy).Contents (Elt F) → (⟨S64x4, .i32⟩ : BufTy).Contents (Elt F)),
    StableHlo.binary main_v98 main_v99 main_v100 (cmpi .eq : (⟨S64x4, .i32⟩ : BufTy).Contents (Elt F) → (⟨S64x4, .i32⟩ : BufTy).Contents (Elt F) → (⟨S64x4, .i1⟩ : BufTy).Contents (Elt F)),
    StableHlo.unary main_v100 main_v101 (uitofp .f32 : (⟨S64x4, .i1⟩ : BufTy).Contents (Elt F) → (⟨S64x4, .f32⟩ : BufTy).Contents (Elt F)),
    StableHlo.unary main_v101 main_v102 (broadcastInDim S64x4x1 ![0, 1] bcast_S64x4_S64x4x1_0_1 : (⟨S64x4, .f32⟩ : BufTy).Contents (Elt F) → (⟨S64x4x1, .f32⟩ : BufTy).Contents (Elt F)),
    StableHlo.unary main_v102 main_v103 (broadcastInDim S64x4x8192 ![0, 1, 2] bcast_S64x4x1_S64x4x8192_0_1_2 : (⟨S64x4x1, .f32⟩ : BufTy).Contents (Elt F) → (⟨S64x4x8192, .f32⟩ : BufTy).Contents (Elt F)),
    StableHlo.binary main_v94 main_v103 main_v104 (mulf : (⟨S64x4x8192, .f32⟩ : BufTy).Contents (Elt F) → (⟨S64x4x8192, .f32⟩ : BufTy).Contents (Elt F) → (⟨S64x4x8192, .f32⟩ : BufTy).Contents (Elt F)),
    StableHlo.nullary main_cst_28 (constant S_ .f32 0x00000000#32),
    StableHlo.binary main_v104 main_cst_28 main_v105 ((fun x v => Host.reduceAdd x v reducesTo_S64x4x8192_S_d0_1_2 h_S_) : (⟨S64x4x8192, .f32⟩ : BufTy).Contents (Elt F) → (⟨S_, .f32⟩ : BufTy).Contents (Elt F) → (⟨S_, .f32⟩ : BufTy).Contents (Elt F)),
    StableHlo.nullary main_cst_29 (constant S_ .f32 0x49000000#32),
    StableHlo.binary main_v105 main_cst_29 main_v106 (Host.divf : (⟨S_, .f32⟩ : BufTy).Contents (Elt F) → (⟨S_, .f32⟩ : BufTy).Contents (Elt F) → (⟨S_, .f32⟩ : BufTy).Contents (Elt F)),
    StableHlo.nullary main_cst_30 (constant S_ .f32 0x3F800000#32),
    StableHlo.unary main_cst_30 main_v107 (broadcastInDim S64x4x1 ![] bcast_S_S64x4x1 : (⟨S_, .f32⟩ : BufTy).Contents (Elt F) → (⟨S64x4x1, .f32⟩ : BufTy).Contents (Elt F)),
    StableHlo.binary main_v107 main_v102 main_v108 (subf : (⟨S64x4x1, .f32⟩ : BufTy).Contents (Elt F) → (⟨S64x4x1, .f32⟩ : BufTy).Contents (Elt F) → (⟨S64x4x1, .f32⟩ : BufTy).Contents (Elt F)),
    StableHlo.unary main_v108 main_v109 (broadcastInDim S64x4x8192 ![0, 1, 2] bcast_S64x4x1_S64x4x8192_0_1_2 : (⟨S64x4x1, .f32⟩ : BufTy).Contents (Elt F) → (⟨S64x4x8192, .f32⟩ : BufTy).Contents (Elt F)),
    StableHlo.binary main_v94 main_v109 main_v110 (mulf : (⟨S64x4x8192, .f32⟩ : BufTy).Contents (Elt F) → (⟨S64x4x8192, .f32⟩ : BufTy).Contents (Elt F) → (⟨S64x4x8192, .f32⟩ : BufTy).Contents (Elt F)),
    StableHlo.nullary main_cst_31 (constant S_ .f32 0x00000000#32),
    StableHlo.binary main_v110 main_cst_31 main_v111 ((fun x v => Host.reduceAdd x v reducesTo_S64x4x8192_S_d0_1_2 h_S_) : (⟨S64x4x8192, .f32⟩ : BufTy).Contents (Elt F) → (⟨S_, .f32⟩ : BufTy).Contents (Elt F) → (⟨S_, .f32⟩ : BufTy).Contents (Elt F)),
    StableHlo.nullary main_cst_32 (constant S_ .f32 0x49C00000#32),
    StableHlo.binary main_v111 main_cst_32 main_v112 (Host.divf : (⟨S_, .f32⟩ : BufTy).Contents (Elt F) → (⟨S_, .f32⟩ : BufTy).Contents (Elt F) → (⟨S_, .f32⟩ : BufTy).Contents (Elt F)),
    StableHlo.nullary main_cst_33 (constant S_ .f32 0x322BCC77#32),
    StableHlo.binary main_v106 main_cst_33 main_v113 (addf : (⟨S_, .f32⟩ : BufTy).Contents (Elt F) → (⟨S_, .f32⟩ : BufTy).Contents (Elt F) → (⟨S_, .f32⟩ : BufTy).Contents (Elt F)),
    StableHlo.binary main_v106 main_v112 main_v114 (addf : (⟨S_, .f32⟩ : BufTy).Contents (Elt F) → (⟨S_, .f32⟩ : BufTy).Contents (Elt F) → (⟨S_, .f32⟩ : BufTy).Contents (Elt F)),
    StableHlo.nullary main_cst_34 (constant S_ .f32 0x322BCC77#32),
    StableHlo.binary main_v114 main_cst_34 main_v115 (addf : (⟨S_, .f32⟩ : BufTy).Contents (Elt F) → (⟨S_, .f32⟩ : BufTy).Contents (Elt F) → (⟨S_, .f32⟩ : BufTy).Contents (Elt F)),
    StableHlo.binary main_v113 main_v115 main_v116 (Host.divf : (⟨S_, .f32⟩ : BufTy).Contents (Elt F) → (⟨S_, .f32⟩ : BufTy).Contents (Elt F) → (⟨S_, .f32⟩ : BufTy).Contents (Elt F)),
    StableHlo.unary main_v116 main_v117 (Host.log : (⟨S_, .f32⟩ : BufTy).Contents (Elt F) → (⟨S_, .f32⟩ : BufTy).Contents (Elt F)),
    StableHlo.unary main_v117 main_v118 (Host.negf : (⟨S_, .f32⟩ : BufTy).Contents (Elt F) → (⟨S_, .f32⟩ : BufTy).Contents (Elt F)),
    StableHlo.binary main_v68 main_v118 main_v119 (addf : (⟨S_, .f32⟩ : BufTy).Contents (Elt F) → (⟨S_, .f32⟩ : BufTy).Contents (Elt F) → (⟨S_, .f32⟩ : BufTy).Contents (Elt F)),
    StableHlo.binary main_v33 main_v119 main_v120 (addf : (⟨S_, .f32⟩ : BufTy).Contents (Elt F) → (⟨S_, .f32⟩ : BufTy).Contents (Elt F) → (⟨S_, .f32⟩ : BufTy).Contents (Elt F)) ]
theorem r7_sub : (r7 : List (HloOp τ sig (Elt F))).Forall fun op => op.bufs ⊆ tcRefs τ sig :=
  ⟨binary_bufs_sub .., nullary_bufs_sub .., unary_bufs_sub .., binary_bufs_sub .., unary_bufs_sub .., unary_bufs_sub .., nullary_bufs_sub .., unary_bufs_sub .., unary_bufs_sub .., unary_bufs_sub .., binary_bufs_sub .., unary_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., unary_bufs_sub .., unary_bufs_sub .., binary_bufs_sub .., binary_bufs_sub ..⟩
theorem r7_fresh : (r7 : List (HloOp τ sig (Elt F))).Forall fun op => op.fresh = ∅ := by
  simp only [List.Forall]; repeat' constructor

end Cert.ReferenceIdeal.Hand

end
-- ==== Proof.RefRun.lean ====
/-
  The reference program run: its @main is the straight line of its host operations (the lists of the sibling module, a
  module-local function's body standing at its call), so every weakly fair execution terminates with each buffer of a
  core at the fold of the operations' results over the launch contents.
-/
import proofs.«181343_j12429635355015_2_alg».proof.Proof.RefOpsLists

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window of @main: five stretches and then the sixth, the last statement in tail position. -/
theorem part0_chain (c : Dev nD) : main_part0 (F := F) c = (Pipeline.chainK [seq r0, seq r1, seq r2, seq r3, seq r4] (seq r5) : Prog (TpuEff nD τ sig (Elt F) (Pipeline.Sig Λ₀ (Fin 0) fun p => (pcfgs (F := F) p).Adm) .tc) PUnit) := by
  chain_rfl
/-- The second window is one stretch. -/
theorem part1_chain (c : Dev nD) : main_part1 (F := F) c = (Pipeline.chainK [] (seq r6) : Prog (TpuEff nD τ sig (Elt F) (Pipeline.Sig Λ₀ (Fin 0) fun p => (pcfgs (F := F) p).Adm) .tc) PUnit) := by
  chain_rfl
/-- The last window is one stretch, closed by the return. -/
theorem part2_chain (c : Dev nD) : main_part2 (F := F) c = (Pipeline.chain [seq r7] : Prog (TpuEff nD τ sig (Elt F) (Pipeline.Sig Λ₀ (Fin 0) fun p => (pcfgs (F := F) p).Adm) .tc) PUnit) := by
  chain_rfl

/-- @main is the chain of its eight stretches. -/
theorem main_chain (c : Dev nD) : main (F := F) c = (Pipeline.chain [seq r0, seq r1, seq r2, seq r3, seq r4, seq r5, seq r6, seq r7] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [part2_chain, part1_chain, Pipeline.chainK_bind_chain, part0_chain, Pipeline.chainK_bind_chain]
  chain_rfl

/-- All of @main's operations, in order. -/
abbrev ops : List (HloOp τ sig (Elt F)) := List.flatten [r0, r1, r2, r3, r4, r5, r6, r7]

/-- A chain of straight lines is the straight line of the concatenation. -/
theorem main_eq (c : Dev nD) : main (F := F) c = seq ops := by
  rw [main_chain]
  simp only [ops, List.flatten_cons, List.flatten_nil, seq_append, Pipeline.chain_cons, Pipeline.chain_nil]
  rfl

/-- A property of every list of a family holds of their concatenation. -/
theorem forall_flatten {α : Type} {P : α → Prop} {ls : List (List α)} (h : ls.Forall fun l => l.Forall P) :
    (List.flatten ls).Forall P := by
  rw [List.forall_iff_forall_mem]
  intro a ha
  obtain ⟨l, hl, hal⟩ := List.mem_flatten.mp ha
  exact (List.forall_iff_forall_mem.mp ((List.forall_iff_forall_mem.mp h) l hl)) a hal

theorem ops_sub : (ops : List (HloOp τ sig (Elt F))).Forall fun op => op.bufs ⊆ tcRefs τ sig :=
  forall_flatten (by simp only [List.Forall]; exact ⟨r0_sub, r1_sub, r2_sub, r3_sub, r4_sub, r5_sub, r6_sub, r7_sub⟩)
theorem ops_fresh : (ops : List (HloOp τ sig (Elt F))).Forall fun op => op.fresh = ∅ :=
  forall_flatten (by simp only [List.Forall]; exact ⟨r0_fresh, r1_fresh, r2_fresh, r3_fresh, r4_fresh, r5_fresh, r6_fresh, r7_fresh⟩)

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each buffer of a core at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.Hand

end
-- ==== Proof.RefReadMath.lean ====
/-
  The reference program's cohort-bank term, piece by piece: each piece is the small tensor expression the program
  prints (a mean over the components, the clamped norm, the scaling, the contraction against the anchors, the
  exponential, the two masked totals, the last scalar stretch), and each is read here at an index as the plain
  mathematics of the shared statement: sums over coordinates, one division, one square root, one maximum, one
  exponential, one logarithm. Nothing here looks at the program's run; these are facts about the expressions alone.
-/
import proofs.«181343_j12429635355015_2_alg».proof.Proof.Gen.ReferenceIdeal
import proofs.«181343_j12429635355015_2_alg».proof.Proof.CohortSpec
import Idealize.ShloMosaic.Lib.Pipeline.Value

noncomputable section

open scoped BigOperators

namespace Cert.ReferenceIdeal.Read

open Cert.ReferenceIdeal Cert.ReferenceIdeal.Gen Cert.Cohort Idealize.ShloMosaic Idealize.ShloMosaic.ValueIdx

/-! ## The bank: mean over the components, clamped norm, unit rows -/

/-- The bank summed over its component axis (from zero) and divided by four. -/
def meanT (Bk : FVec Ideal S4x8192x4x256 .f32) : FVec Ideal S4x8192x256 .f32 :=
  Host.divf (Host.reduceAdd Bk (constant S_ .f32 0x00000000#32) reducesTo_S4x8192x4x256_S4x8192x256_d2 h_S_)
    (broadcastInDim S4x8192x256 ![] bcast_S_S4x8192x256 (constant S_ .f32 0x40800000#32))

/-- The index over (k, n, c) with component j inserted on axis 2 is (k, n, j, c). -/
theorem lift_bank (h : S4x8192x4x256.Reduces [2] S4x8192x256) (k : Fin 4) (n : Fin 8192) (c : Fin 256) (j : Fin 4) :
    h.lift (ix3 k n c) j = ix4 k n j c := by
  funext d
  match d with
  | ⟨0, _⟩ => rfl
  | ⟨1, _⟩ => rfl
  | ⟨2, _⟩ => rfl
  | ⟨3, _⟩ => rfl

/-- At (k, n, c) it is the mean of the four components of row (k, n) at feature c. -/
theorem meanT_apply (Bk : FVec Ideal S4x8192x4x256 .f32) (k : Fin 4) (n : Fin 8192) (c : Fin 256) :
    meanT Bk (ix3 k n c) = cmean Bk k n c := by
  have h : S4x8192x4x256.Reduces [2] S4x8192x256 := by decide
  show Ideal.div (Ideal.hostReduceAdd reducesTo_S4x8192x4x256_S4x8192x256_d2 Bk (Ideal.ofBits .f32 0x00000000#32) (ix3 k n c))
    (Ideal.ofBits .f32 0x40800000#32) = _
  rw [Ideal.hostReduceAdd_single _ h, Ideal.ofBits_zero_f32, zero_add]
  unfold cmean four
  refine congrArg (fun z => Ideal.div z _) (Finset.sum_congr rfl fun j _ => ?_)
  exact congrArg Bk (lift_bank h k n c j)

/-- The rows' norms, clamped below: the squares summed over the features (from zero), kept as a unit axis, the square
    root, the maximum with the small literal. -/
def normT (m : FVec Ideal S4x8192x256 .f32) : FVec Ideal S4x8192x1 .f32 :=
  maximumf (Host.sqrt (broadcastInDim S4x8192x1 ![0, 1] bcast_S4x8192_S4x8192x1_0_1
      (Host.reduceAdd (mulf m m) (constant S_ .f32 0x00000000#32) reducesTo_S4x8192x256_S4x8192_d2 h_S_)))
    (broadcastInDim S4x8192x1 ![] bcast_S_S4x8192x1 (constant S_ .f32 0x2B8CBCCC#32))

/-- The index over (k, n) with feature c inserted on axis 2 is (k, n, c). -/
theorem lift_feat (h : S4x8192x256.Reduces [2] S4x8192) (k : Fin 4) (n : Fin 8192) (c : Fin 256) :
    h.lift (ix2 k n) c = ix3 k n c := by
  funext d
  match d with
  | ⟨0, _⟩ => rfl
  | ⟨1, _⟩ => rfl
  | ⟨2, _⟩ => rfl

theorem normT_apply (m : FVec Ideal S4x8192x256 .f32) (k : Fin 4) (n : Fin 8192) (z : Fin 1) :
    normT m (ix3 k n z) = max (Ideal.sqrt (∑ c : Fin 256, m (ix3 k n c) * m (ix3 k n c))) tiny := by
  have h : S4x8192x256.Reduces [2] S4x8192 := by decide
  show max (Ideal.sqrt (broadcastInDim S4x8192x1 ![0, 1] bcast_S4x8192_S4x8192x1_0_1
      (Ideal.hostReduceAdd reducesTo_S4x8192x256_S4x8192_d2 (mulf m m) (Ideal.ofBits .f32 0x00000000#32)) (ix3 k n z)))
    (Ideal.ofBits .f32 0x2B8CBCCC#32) = _
  rw [broadcastInDim_apply _ _ _ (ix3 k n z) (ix2 k n) (fun a => match a with | ⟨0, _⟩ => rfl | ⟨1, _⟩ => rfl),
    Ideal.hostReduceAdd_single _ h, Ideal.ofBits_zero_f32, zero_add]
  unfold tiny
  refine congrArg (fun s => max (Ideal.sqrt s) _) (Finset.sum_congr rfl fun c _ => ?_)
  show m (h.lift (ix2 k n) c) * m (h.lift (ix2 k n) c) = _
  rw [lift_feat h k n c]

/-- The bank's rows averaged and scaled to unit length. -/
def unitT (Bk : FVec Ideal S4x8192x4x256 .f32) : FVec Ideal S4x8192x256 .f32 :=
  Host.divf (meanT Bk) (broadcastInDim S4x8192x256 ![0, 1, 2] bcast_S4x8192x1_S4x8192x256_0_1_2 (normT (meanT Bk)))

theorem unitT_apply (Bk : FVec Ideal S4x8192x4x256 .f32) (k : Fin 4) (n : Fin 8192) (c : Fin 256) :
    unitT Bk (ix3 k n c) = unit Bk k n c := by
  show Ideal.div (meanT Bk (ix3 k n c))
    (broadcastInDim S4x8192x256 ![0, 1, 2] bcast_S4x8192x1_S4x8192x256_0_1_2 (normT (meanT Bk)) (ix3 k n c)) = _
  rw [broadcastInDim_apply _ _ _ (ix3 k n c) (ix3 k n (0 : Fin 1))
      (fun a => match a with | ⟨0, _⟩ => rfl | ⟨1, _⟩ => rfl | ⟨2, _⟩ => rfl),
    normT_apply]
  simp only [meanT_apply]
  rfl

/-! ## The weights: contraction against the anchors, halved, exponentiated -/

/-- The contraction over the features read at (b, k, n): the sum over c of anchor b's and row (k, n)'s entries' products. -/
theorem dot_apply (a : FVec Ideal S64x256 .f32) (u : FVec Ideal S4x8192x256 .f32) (b : Fin 64) (k : Fin 4) (n : Fin 8192) :
    Host.dotGeneral dot_S64x256_S4x8192x256_S64x4x8192_1_2_0_01_n_n none a u (ix3 b k n) = ∑ c : Fin 256, a (ix2 b c) * u (ix3 k n c) := by
  show FloatOps.dotGeneral _ none _ a u (ix3 b k n) = _
  rw [Ideal.dotGeneral_apply, ← Equiv.sum_comp (contrEquiv1 dot_S64x256_S4x8192x256_S64x4x8192_1_2_0_01_n_n 256 rfl rfl).symm]
  refine Finset.sum_congr rfl fun c _ => ?_
  have c1 := contrEquiv1_symm_val dot_S64x256_S4x8192x256_S64x4x8192_1_2_0_01_n_n 256 rfl rfl c
  have l : (dot_S64x256_S4x8192x256_S64x4x8192_1_2_0_01_n_n).lhsIdx (ix3 b k n) ((contrEquiv1 _ 256 rfl rfl).symm c) = ix2 b c := by
    funext ax; apply Fin.ext
    match ax with
    | ⟨0, _⟩ => first | rfl | (simp [DotDims.lhsIdx, dot_S64x256_S4x8192x256_S64x4x8192_1_2_0_01_n_n]; rfl) | simp [DotDims.lhsIdx, dot_S64x256_S4x8192x256_S64x4x8192_1_2_0_01_n_n]
    | ⟨1, _⟩ => exact (DotDims.lhsIdx_val_of_single _ (cl := (1 : Fin 2)) rfl _ _).trans c1
  have r : (dot_S64x256_S4x8192x256_S64x4x8192_1_2_0_01_n_n).rhsIdx (ix3 b k n) ((contrEquiv1 _ 256 rfl rfl).symm c) = ix3 k n c := by
    funext ax; apply Fin.ext
    match ax with
    | ⟨0, _⟩ => first | rfl | (simp [DotDims.rhsIdx, dot_S64x256_S4x8192x256_S64x4x8192_1_2_0_01_n_n]; rfl) | simp [DotDims.rhsIdx, dot_S64x256_S4x8192x256_S64x4x8192_1_2_0_01_n_n]
    | ⟨1, _⟩ => first | rfl | (simp [DotDims.rhsIdx, dot_S64x256_S4x8192x256_S64x4x8192_1_2_0_01_n_n]; rfl) | simp [DotDims.rhsIdx, dot_S64x256_S4x8192x256_S64x4x8192_1_2_0_01_n_n]
    | ⟨2, _⟩ => exact (DotDims.rhsIdx_val_of_single _ (cr := (2 : Fin 3)) rfl _ _).trans c1
  rw [l, r]

/-- exp of half the contraction of the anchors with a bank of rows. -/
def exT (a : FVec Ideal S64x256 .f32) (u : FVec Ideal S4x8192x256 .f32) : FVec Ideal S64x4x8192 .f32 :=
  Host.exp (Host.divf (Host.dotGeneral dot_S64x256_S4x8192x256_S64x4x8192_1_2_0_01_n_n none a u)
    (broadcastInDim S64x4x8192 ![] bcast_S_S64x4x8192 (constant S_ .f32 0x40000000#32)))

theorem exT_apply (a : FVec Ideal S64x256 .f32) (u : FVec Ideal S4x8192x256 .f32) (b : Fin 64) (k : Fin 4) (n : Fin 8192) :
    exT a u (ix3 b k n) = Ideal.exp (Ideal.div (∑ c : Fin 256, a (ix2 b c) * u (ix3 k n c)) two) := by
  show Ideal.exp (Ideal.div (Host.dotGeneral dot_S64x256_S4x8192x256_S64x4x8192_1_2_0_01_n_n none a u (ix3 b k n)) (Ideal.ofBits .f32 0x40000000#32)) = _
  rw [dot_apply]
  rfl

/-- Against the unit rows of a bank it is the weight of the shared statement. -/
theorem exT_unitT (a : FVec Ideal S64x256 .f32) (Bk : FVec Ideal S4x8192x4x256 .f32) (b : Fin 64) (k : Fin 4) (n : Fin 8192) :
    exT a (unitT Bk) (ix3 b k n) = ex a Bk b k n := by
  rw [exT_apply]
  simp only [unitT_apply]
  rfl

/-! ## The two totals -/

/-- The 0/1 table given a unit axis and repeated along the rows reads, at (b, k, n), its entry (b, k). -/
theorem hot_apply (h : FVec Ideal S64x4 .f32) (b : Fin 64) (k : Fin 4) (n : Fin 8192) :
    broadcastInDim S64x4x8192 ![0, 1, 2] bcast_S64x4x1_S64x4x8192_0_1_2
      (broadcastInDim S64x4x1 ![0, 1] bcast_S64x4_S64x4x1_0_1 h) (ix3 b k n) = h (ix2 b k) := by
  rw [broadcastInDim_apply _ _ _ (ix3 b k n) (ix3 b k (0 : Fin 1))
      (fun a => match a with | ⟨0, _⟩ => rfl | ⟨1, _⟩ => rfl | ⟨2, _⟩ => rfl),
    broadcastInDim_apply _ _ _ (ix3 b k (0 : Fin 1)) (ix2 b k) (fun a => match a with | ⟨0, _⟩ => rfl | ⟨1, _⟩ => rfl)]

/-- The total of the weights times the table. -/
def posT (e : FVec Ideal S64x4x8192 .f32) (h : FVec Ideal S64x4 .f32) : FVec Ideal S_ .f32 :=
  Host.reduceAdd (mulf e (broadcastInDim S64x4x8192 ![0, 1, 2] bcast_S64x4x1_S64x4x8192_0_1_2
      (broadcastInDim S64x4x1 ![0, 1] bcast_S64x4_S64x4x1_0_1 h)))
    (constant S_ .f32 0x00000000#32) reducesTo_S64x4x8192_S_d0_1_2 h_S_

theorem posT_apply (e : FVec Ideal S64x4x8192 .f32) (h : FVec Ideal S64x4 .f32) (i : S_.Idx) :
    posT e h i = ∑ b : Fin 64, ∑ k : Fin 4, ∑ n : Fin 8192, e (ix3 b k n) * h (ix2 b k) := by
  show Ideal.hostReduceAdd reducesTo_S64x4x8192_S_d0_1_2 (mulf e (broadcastInDim S64x4x8192 ![0, 1, 2] bcast_S64x4x1_S64x4x8192_0_1_2
      (broadcastInDim S64x4x1 ![0, 1] bcast_S64x4_S64x4x1_0_1 h))) (Ideal.ofBits .f32 0x00000000#32) i = _
  rw [Ideal.hostReduceAdd_total _ (fun b => b.elim0), Ideal.ofBits_zero_f32, zero_add, sum_idx3]
  refine Finset.sum_congr rfl fun b _ => Finset.sum_congr rfl fun k _ => Finset.sum_congr rfl fun n _ => ?_
  show e (ix3 b k n) * _ = _
  rw [hot_apply]

/-- The total of the weights times one minus the table. -/
def negT (e : FVec Ideal S64x4x8192 .f32) (h : FVec Ideal S64x4 .f32) : FVec Ideal S_ .f32 :=
  Host.reduceAdd (mulf e (broadcastInDim S64x4x8192 ![0, 1, 2] bcast_S64x4x1_S64x4x8192_0_1_2
      (subf (broadcastInDim S64x4x1 ![] bcast_S_S64x4x1 (constant S_ .f32 0x3F800000#32))
        (broadcastInDim S64x4x1 ![0, 1] bcast_S64x4_S64x4x1_0_1 h))))
    (constant S_ .f32 0x00000000#32) reducesTo_S64x4x8192_S_d0_1_2 h_S_

theorem negT_apply (e : FVec Ideal S64x4x8192 .f32) (h : FVec Ideal S64x4 .f32) (i : S_.Idx) :
    negT e h i = ∑ b : Fin 64, ∑ k : Fin 4, ∑ n : Fin 8192, e (ix3 b k n) * (one - h (ix2 b k)) := by
  show Ideal.hostReduceAdd reducesTo_S64x4x8192_S_d0_1_2 (mulf e (broadcastInDim S64x4x8192 ![0, 1, 2] bcast_S64x4x1_S64x4x8192_0_1_2
      (subf (broadcastInDim S64x4x1 ![] bcast_S_S64x4x1 (constant S_ .f32 0x3F800000#32))
        (broadcastInDim S64x4x1 ![0, 1] bcast_S64x4_S64x4x1_0_1 h)))) (Ideal.ofBits .f32 0x00000000#32) i = _
  rw [Ideal.hostReduceAdd_total _ (fun b => b.elim0), Ideal.ofBits_zero_f32, zero_add, sum_idx3]
  refine Finset.sum_congr rfl fun b _ => Finset.sum_congr rfl fun k _ => Finset.sum_congr rfl fun n _ => ?_
  show e (ix3 b k n) * _ = _
  rw [broadcastInDim_apply _ _ _ (ix3 b k n) (ix3 b k (0 : Fin 1))
      (fun a => match a with | ⟨0, _⟩ => rfl | ⟨1, _⟩ => rfl | ⟨2, _⟩ => rfl)]
  show e (ix3 b k n) * (Ideal.ofBits .f32 0x3F800000#32
    - broadcastInDim S64x4x1 ![0, 1] bcast_S64x4_S64x4x1_0_1 h (ix3 b k (0 : Fin 1))) = _
  rw [broadcastInDim_apply _ _ _ (ix3 b k (0 : Fin 1)) (ix2 b k) (fun a => match a with | ⟨0, _⟩ => rfl | ⟨1, _⟩ => rfl)]
  rfl

/-! ## The last stretch -/

/-- The last stretch of the program, from its four scalars: n + (i + -log ((p / 2^19 + g) / (p / 2^19 + q / (3 * 2^19) + g))),
    every operation elementwise on the one-element tensors. -/
def tailT (n i p q : FVec Ideal S_ .f32) : FVec Ideal S_ .f32 :=
  addf n (addf i (Host.negf (Host.log (Host.divf
    (addf (Host.divf p (constant S_ .f32 0x49000000#32)) (constant S_ .f32 0x322BCC77#32))
    (addf (addf (Host.divf p (constant S_ .f32 0x49000000#32)) (Host.divf q (constant S_ .f32 0x49C00000#32)))
      (constant S_ .f32 0x322BCC77#32))))))

theorem tailT_eq (n i p q : FVec Ideal S_ .f32) :
    tailT n i p q = fun _ => lossDirect (n ix0) (i ix0) (p ix0) (q ix0) := by
  funext j
  rw [eq_ix0 j]
  rfl

end Cert.ReferenceIdeal.Read

end
-- ==== Proof.RefReadBank.lean ====
/-
  The reference program's run, read at the unit rows: after all its operations the buffer of the scaled rows holds the
  expression "mean over the components, divided by the clamped norm" of the bank as launched. Both sides are evaluated
  through the whole line of operations to the same expression of the launch contents.
-/
import proofs.«181343_j12429635355015_2_alg».proof.Proof.RefRun
import proofs.«181343_j12429635355015_2_alg».proof.Proof.RefReadMath

noncomputable section

namespace Cert.ReferenceIdeal.Read

open Cert.ReferenceIdeal Cert.ReferenceIdeal.Gen Cert.ReferenceIdeal.Hand Cert.Cohort Idealize.ShloMosaic Idealize.ShloMosaic.TcCoe Idealize.ShloMosaic.StableHlo Idealize.ShloMosaic.ValueIdx

set_option maxHeartbeats 2000000 in
theorem v90_read (V : Valuation τ sig (Elt Ideal)) :
    after ops V (main_v90 : DevRef τ sig) = unitT (V (main_arg5 : DevRef τ sig)) := by
  simp only [unitT, normT, meanT, ops, r0, r1, r2, r3, r4, r5, r6, r7, List.flatten_cons, List.flatten_nil, List.append_nil, List.cons_append, List.nil_append]
  after_results_simp
  all_goals rfl

end Cert.ReferenceIdeal.Read

end
-- ==== Proof.RefReadWeights.lean ====
/-
  The reference program's run, read at the weights: after all its operations the buffer of the weights holds
  exp (contraction / 2) of the anchors' buffer with the unit rows' buffer, both as they end. Both sides are evaluated
  through the whole line of operations to the same expression of the launch contents.
-/
import proofs.«181343_j12429635355015_2_alg».proof.Proof.RefRun
import proofs.«181343_j12429635355015_2_alg».proof.Proof.RefReadMath

noncomputable section

namespace Cert.ReferenceIdeal.Read

open Cert.ReferenceIdeal Cert.ReferenceIdeal.Gen Cert.ReferenceIdeal.Hand Cert.Cohort Idealize.ShloMosaic Idealize.ShloMosaic.TcCoe Idealize.ShloMosaic.StableHlo Idealize.ShloMosaic.ValueIdx

set_option maxHeartbeats 2000000 in
theorem v94_read (V : Valuation τ sig (Elt Ideal)) :
    after ops V (main_v94 : DevRef τ sig) = exT (after ops V (main_v79 : DevRef τ sig)) (after ops V (main_v90 : DevRef τ sig)) := by
  simp only [exT, ops, r0, r1, r2, r3, r4, r5, r6, r7, List.flatten_cons, List.flatten_nil, List.append_nil, List.cons_append, List.nil_append]
  after_results_simp
  all_goals rfl

end Cert.ReferenceIdeal.Read

end
-- ==== Proof.RefReadTotalPos.lean ====
/-
  The reference program's run, read at the marked total: after all its operations that scalar holds the total of the
  weights' buffer times the table's buffer (given a unit axis and repeated along the rows), both as they end.
-/
import proofs.«181343_j12429635355015_2_alg».proof.Proof.RefRun
import proofs.«181343_j12429635355015_2_alg».proof.Proof.RefReadMath

noncomputable section

namespace Cert.ReferenceIdeal.Read

open Cert.ReferenceIdeal Cert.ReferenceIdeal.Gen Cert.ReferenceIdeal.Hand Cert.Cohort Idealize.ShloMosaic Idealize.ShloMosaic.TcCoe Idealize.ShloMosaic.StableHlo Idealize.ShloMosaic.ValueIdx

set_option maxHeartbeats 2000000 in
theorem v105_read (V : Valuation τ sig (Elt Ideal)) :
    after ops V (main_v105 : DevRef τ sig) = posT (after ops V (main_v94 : DevRef τ sig)) (after ops V (main_v101 : DevRef τ sig)) := by
  simp only [posT, ops, r0, r1, r2, r3, r4, r5, r6, r7, List.flatten_cons, List.flatten_nil, List.append_nil, List.cons_append, List.nil_append]
  after_results_simp
  all_goals rfl

end Cert.ReferenceIdeal.Read

end
-- ==== Proof.RefReadTotalNeg.lean ====
/-
  The reference program's run, read at the unmarked total: after all its operations that scalar holds the total of the
  weights' buffer times one minus the table's buffer (given a unit axis and repeated along the rows), both as they end.
-/
import proofs.«181343_j12429635355015_2_alg».proof.Proof.RefRun
import proofs.«181343_j12429635355015_2_alg».proof.Proof.RefReadMath

noncomputable section

namespace Cert.ReferenceIdeal.Read

open Cert.ReferenceIdeal Cert.ReferenceIdeal.Gen Cert.ReferenceIdeal.Hand Cert.Cohort Idealize.ShloMosaic Idealize.ShloMosaic.TcCoe Idealize.ShloMosaic.StableHlo Idealize.ShloMosaic.ValueIdx

set_option maxHeartbeats 2000000 in
theorem v111_read (V : Valuation τ sig (Elt Ideal)) :
    after ops V (main_v111 : DevRef τ sig) = negT (after ops V (main_v94 : DevRef τ sig)) (after ops V (main_v101 : DevRef τ sig)) := by
  simp only [negT, ops, r0, r1, r2, r3, r4, r5, r6, r7, List.flatten_cons, List.flatten_nil, List.append_nil, List.cons_append, List.nil_append]
  after_results_simp
  all_goals rfl

end Cert.ReferenceIdeal.Read

end
-- ==== Proof.RefReadTail.lean ====
/-
  The reference program's run, read at its result: after all its operations the result scalar holds the last stretch's
  expression of four scalars as they end: the survival loss, the intra-cohort loss, the marked total and the unmarked total.
-/
import proofs.«181343_j12429635355015_2_alg».proof.Proof.RefRun
import proofs.«181343_j12429635355015_2_alg».proof.Proof.RefReadMath

noncomputable section

namespace Cert.ReferenceIdeal.Read

open Cert.ReferenceIdeal Cert.ReferenceIdeal.Gen Cert.ReferenceIdeal.Hand Cert.Cohort Idealize.ShloMosaic Idealize.ShloMosaic.TcCoe Idealize.ShloMosaic.StableHlo Idealize.ShloMosaic.ValueIdx

set_option maxHeartbeats 4000000 in
theorem v120_read (V : Valuation τ sig (Elt Ideal)) :
    after ops V (main_v120 : DevRef τ sig) = tailT (after ops V (main_v33 : DevRef τ sig)) (after ops V (main_v68 : DevRef τ sig))
      (after ops V (main_v105 : DevRef τ sig)) (after ops V (main_v111 : DevRef τ sig)) := by
  simp only [tailT, ops, r0, r1, r2, r3, r4, r5, r6, r7, List.flatten_cons, List.flatten_nil, List.append_nil, List.cons_append, List.nil_append]
  after_results_simp
  all_goals rfl

end Cert.ReferenceIdeal.Read

end
-- ==== Proof.RefReadArgs.lean ====
/-
  The reference program writes none of its eight arguments: each operation of its line writes its own result buffer,
  and no result buffer is an argument's. So every argument's buffer ends as it was launched.
-/
import proofs.«181343_j12429635355015_2_alg».proof.Proof.RefRun
import Idealize.ShloMosaic.PureOps.Ideal

noncomputable section

namespace Cert.ReferenceIdeal.Read

open Cert.ReferenceIdeal Cert.ReferenceIdeal.Gen Cert.ReferenceIdeal.Hand Idealize.ShloMosaic Idealize.ShloMosaic.TcCoe Idealize.ShloMosaic.StableHlo

/-- No operation of the line writes any of the eight arguments (one pass over the line: each operation's one written
    buffer is compared with the eight). -/
theorem args_not_written : ∀ op ∈ (ops : List (HloOp τ sig (Elt Ideal))),
    ∀ r ∈ [main_arg0, main_arg1, main_arg2, main_arg3, main_arg4, main_arg5, main_arg6, main_arg7], (Proc.devRef .tc r : DevRef τ sig) ∉ op.writes := by
  refine List.forall_iff_forall_mem.mp ?_
  simp only [ops, r0, r1, r2, r3, r4, r5, r6, r7, List.flatten_cons, List.flatten_nil, List.append_nil, List.cons_append,
    List.nil_append, List.Forall, nullary_writes, unary_writes, binary_writes, ternary_writes, quaternary_writes,
    reshape_writes, binaryIndexed_writes, unaryIndexed_writes, nary_writes, Finset.mem_singleton]
  repeat' apply And.intro
  all_goals exact fun r hr => devRef_ne_of_ne ((by decide : ∀ r ∈ [main_arg0, main_arg1, main_arg2, main_arg3, main_arg4, main_arg5, main_arg6, main_arg7], r ≠ _) r hr)

theorem arg0_kept (V : Valuation τ sig (Elt Ideal)) :
    after ops V (main_arg0 : DevRef τ sig) = V (main_arg0 : DevRef τ sig) :=
  after_of_forall_not_mem (b := Proc.devRef .tc main_arg0) _ _ fun op hop => args_not_written op hop main_arg0 (by decide)

theorem arg1_kept (V : Valuation τ sig (Elt Ideal)) :
    after ops V (main_arg1 : DevRef τ sig) = V (main_arg1 : DevRef τ sig) :=
  after_of_forall_not_mem (b := Proc.devRef .tc main_arg1) _ _ fun op hop => args_not_written op hop main_arg1 (by decide)

theorem arg2_kept (V : Valuation τ sig (Elt Ideal)) :
    after ops V (main_arg2 : DevRef τ sig) = V (main_arg2 : DevRef τ sig) :=
  after_of_forall_not_mem (b := Proc.devRef .tc main_arg2) _ _ fun op hop => args_not_written op hop main_arg2 (by decide)

theorem arg3_kept (V : Valuation τ sig (Elt Ideal)) :
    after ops V (main_arg3 : DevRef τ sig) = V (main_arg3 : DevRef τ sig) :=
  after_of_forall_not_mem (b := Proc.devRef .tc main_arg3) _ _ fun op hop => args_not_written op hop main_arg3 (by decide)

theorem arg4_kept (V : Valuation τ sig (Elt Ideal)) :
    after ops V (main_arg4 : DevRef τ sig) = V (main_arg4 : DevRef τ sig) :=
  after_of_forall_not_mem (b := Proc.devRef .tc main_arg4) _ _ fun op hop => args_not_written op hop main_arg4 (by decide)

theorem arg5_kept (V : Valuation τ sig (Elt Ideal)) :
    after ops V (main_arg5 : DevRef τ sig) = V (main_arg5 : DevRef τ sig) :=
  after_of_forall_not_mem (b := Proc.devRef .tc main_arg5) _ _ fun op hop => args_not_written op hop main_arg5 (by decide)

theorem arg6_kept (V : Valuation τ sig (Elt Ideal)) :
    after ops V (main_arg6 : DevRef τ sig) = V (main_arg6 : DevRef τ sig) :=
  after_of_forall_not_mem (b := Proc.devRef .tc main_arg6) _ _ fun op hop => args_not_written op hop main_arg6 (by decide)

theorem arg7_kept (V : Valuation τ sig (Elt Ideal)) :
    after ops V (main_arg7 : DevRef τ sig) = V (main_arg7 : DevRef τ sig) :=
  after_of_forall_not_mem (b := Proc.devRef .tc main_arg7) _ _ fun op hop => args_not_written op hop main_arg7 (by decide)

end Cert.ReferenceIdeal.Read

end
-- ==== Proof.RefRead.lean ====
/-
  The reference program's result as mathematics. After all its operations the result scalar is the loss of the shared
  statement: the survival loss plus the intra-cohort loss plus minus the logarithm of
  (p / count + guard) / (p / count + q / count' + guard), where p is the total, over every anchor, class and bank row, of
  exp (anchor . unit row / 2) times the 0/1 table's entry for (anchor, class), and q the same total weighted by one minus
  that entry; the unit rows are the launched bank's rows averaged over their four components and scaled to unit length
  under the clamped norm. The survival loss, the intra-cohort loss, the unit anchors and the table are read no further
  than the buffers that hold them at the end.

  The run's partial readings (each buffer's final contents as one small expression of the final contents of the buffers
  it is computed from) are in the sibling modules; the expressions read at an index are in the mathematics module; here
  they are chained from the result back to the launched bank.
-/
import proofs.«181343_j12429635355015_2_alg».proof.Proof.RefReadBank
import proofs.«181343_j12429635355015_2_alg».proof.Proof.RefReadWeights
import proofs.«181343_j12429635355015_2_alg».proof.Proof.RefReadTotalPos
import proofs.«181343_j12429635355015_2_alg».proof.Proof.RefReadTotalNeg
import proofs.«181343_j12429635355015_2_alg».proof.Proof.RefReadTail
import proofs.«181343_j12429635355015_2_alg».proof.Proof.RefReadArgs

noncomputable section

open scoped BigOperators

namespace Cert.ReferenceIdeal.Read

open Cert.ReferenceIdeal Cert.ReferenceIdeal.Gen Cert.ReferenceIdeal.Hand Cert.Cohort Idealize.ShloMosaic Idealize.ShloMosaic.TcCoe Idealize.ShloMosaic.StableHlo Idealize.ShloMosaic.ValueIdx

/-- The weights' buffer ends, at (b, k, n), at the weight of anchor b against row (k, n) of the launched bank. -/
theorem v94_apply (V : Valuation τ sig (Elt Ideal)) (b : Fin 64) (k : Fin 4) (n : Fin 8192) :
    @Eq EReal (after ops V (main_v94 : DevRef τ sig) (ix3 b k n))
      (ex (after ops V (main_v79 : DevRef τ sig)) (V (main_arg5 : DevRef τ sig)) b k n) := by
  rw [v94_read, v90_read, exT_unitT]

/-- The marked total ends at the shared statement's. -/
theorem v105_apply (V : Valuation τ sig (Elt Ideal)) :
    @Eq EReal (after ops V (main_v105 : DevRef τ sig) ix0)
      (posTotal (after ops V (main_v79 : DevRef τ sig)) (V (main_arg5 : DevRef τ sig)) (after ops V (main_v101 : DevRef τ sig))) := by
  rw [v105_read, posT_apply]
  unfold posTotal
  refine Finset.sum_congr rfl fun b _ => Finset.sum_congr rfl fun k _ => Finset.sum_congr rfl fun n _ => ?_
  rw [v94_apply]

/-- The unmarked total ends at the shared statement's. -/
theorem v111_apply (V : Valuation τ sig (Elt Ideal)) :
    @Eq EReal (after ops V (main_v111 : DevRef τ sig) ix0)
      (negTotal (after ops V (main_v79 : DevRef τ sig)) (V (main_arg5 : DevRef τ sig)) (after ops V (main_v101 : DevRef τ sig))) := by
  rw [v111_read, negT_apply]
  unfold negTotal
  refine Finset.sum_congr rfl fun b _ => Finset.sum_congr rfl fun k _ => Finset.sum_congr rfl fun n _ => ?_
  rw [v94_apply]

/-- The result. -/
theorem out_eq (V : Valuation τ sig (Elt Ideal)) :
    @Eq (FVec Ideal S_ .f32) (after ops V (main_v120 : DevRef τ sig)) (fun _ =>
      lossDirect (after ops V (main_v33 : DevRef τ sig) ix0) (after ops V (main_v68 : DevRef τ sig) ix0)
        (posTotal (after ops V (main_v79 : DevRef τ sig)) (V (main_arg5 : DevRef τ sig)) (after ops V (main_v101 : DevRef τ sig)))
        (negTotal (after ops V (main_v79 : DevRef τ sig)) (V (main_arg5 : DevRef τ sig)) (after ops V (main_v101 : DevRef τ sig)))) := by
  rw [v120_read, tailT_eq, v105_apply, v111_apply]

end Cert.ReferenceIdeal.Read

end
-- ==== Proof.LibConcatPair.lean ====
/-
  A general fact about joining two arrays along an axis, for any shapes and any element type.

  * cat2: the join of two arrays along an axis, as a function of the two arrays (the library's join takes a
    list of shaped parts, and its side condition speaks of that list).
  * cat2_fold: the library's join of a two-element list is cat2 of the two parts.  Read from left to right it
    exposes the two parts as plain arguments: equal parts give equal joins, one part at a time.
-/
import Idealize.ShloMosaic.PureOps.ShapeOps

namespace Cert.Lib.ConcatPair

open Idealize.ShloMosaic

/-- The join of two arrays along axis `d` of the result shape, as a function of the two arrays. -/
def cat2 {α : Type} (t : Shape) (d : Fin t.rank) (s₁ s₂ : Shape) (a : s₁.Idx → α) (b : s₂.Idx → α)
    (h : Shape.Concatenates [s₁, s₂] t d) : t.Idx → α := concatenate t d [⟨s₁, a⟩, ⟨s₂, b⟩] h

/-- The join of a two-element list of shaped parts is the join of the two parts. -/
theorem cat2_fold {α : Type} (t : Shape) (d : Fin t.rank) (s₁ s₂ : Shape) (a : s₁.Idx → α) (b : s₂.Idx → α)
    (h : Shape.Concatenates [s₁, s₂] t d) : concatenate t d [⟨s₁, a⟩, ⟨s₂, b⟩] h = cat2 t d s₁ s₂ a b h := rfl

end Cert.Lib.ConcatPair
-- ==== Proof.LibTypedRefCasts.lean ====
/-
  Three general facts about the contents of a typed buffer reference, for any signature and element values.

  A module-local function's operations are stated at the tensor type T of each value and moved to the buffer's own
  type along the equation "the buffer's type is T" (toBuf) and back (ofBuf).  Such a transport changes nothing:

  * ofBuf_toBuf: moved to the buffer's type and back is the identity;
  * toBuf_eq / ofBuf_eq: a moved value equals any value it is heterogeneously equal to before the move —
    so an equation through a transport is the equation without it.
-/
import Idealize.ShloMosaic.Lib.StableHlo

namespace Cert.Lib.TypedRefCasts

open Idealize.ShloMosaic Idealize.ShloMosaic.StableHlo

variable {sig : RefSig} {Val : EltTy → Type} {T : BufTy}

/-- Contents moved to the buffer's own type and back are the contents. -/
theorem ofBuf_toBuf (x : TRef sig T) (v : T.Contents Val) : x.ofBuf (x.toBuf v) = v := by
  obtain ⟨r, h, hd, hs⟩ := x
  subst h
  rfl

/-- Contents moved to the buffer's own type equal what they equal before the move. -/
theorem toBuf_eq (x : TRef sig T) (v : T.Contents Val) (w : x.ref.ty.Contents Val) (h : HEq v w) : x.toBuf v = w :=
  eq_of_heq ((cast_heq _ _).trans h)

/-- Contents moved back to the value's type equal what they equal before the move. -/
theorem ofBuf_eq (x : TRef sig T) (v : x.ref.ty.Contents Val) (w : T.Contents Val) (h : HEq v w) : x.ofBuf v = w :=
  eq_of_heq ((cast_heq _ _).trans h)

end Cert.Lib.TypedRefCasts
-- ==== Proof.AgreeOps.lean ====
/-
  The host lines the two programs share. Before its kernel, the program that subtracts runs the same operations on the
  same inputs as the other program does for the survival loss, the intra-cohort loss, the unit anchors and the table of
  own classes; this module names the two operation lists that are compared.
-/
import proofs.«181343_j12429635355015_2_alg».proof.Proof.Gen.KernelIdeal.Frame
import proofs.«181343_j12429635355015_2_alg».proof.Proof.RefRun
import proofs.«181343_j12429635355015_2_alg».proof.Proof.LibConcatPair
import proofs.«181343_j12429635355015_2_alg».proof.Proof.LibTypedRefCasts
import Idealize.ShloMosaic.Lib.StableHlo.Run
import Idealize.ShloMosaic.PureOps.Ideal

noncomputable section
namespace Cert.Agree
open Idealize.ShloMosaic Idealize.ShloMosaic.TcCoe Idealize.ShloMosaic.StableHlo Idealize.SL.Sem

/-- The host operations before the kernel, in order. -/
abbrev kops : List (HloOp Cert.KernelIdeal.τ Cert.KernelIdeal.sig (Elt Ideal)) :=
  List.flatten [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5]
/-- All operations of the other program, in order. -/
abbrev rops : List (HloOp Cert.ReferenceIdeal.τ Cert.ReferenceIdeal.sig (Elt Ideal)) := Cert.ReferenceIdeal.Hand.ops

end Cert.Agree
end
-- ==== Proof.AgreeNll.lean ====
/-
  From inputs that agree, the two programs compute the same survival loss (a gather of the padded survival curve and of the hazards at the label, clamped logarithms, the censoring weights, the mean over the batch).
  Both sides are evaluated to the composed term of the operations over the inputs; the terms are the same.
-/
import proofs.«181343_j12429635355015_2_alg».proof.Proof.AgreeOps

noncomputable section
namespace Cert.Agree
open Idealize.ShloMosaic Idealize.ShloMosaic.TcCoe Idealize.ShloMosaic.StableHlo Idealize.SL.Sem

set_option maxHeartbeats 4000000 in
theorem nll_agree (Vk : Valuation Cert.KernelIdeal.τ Cert.KernelIdeal.sig (Elt Ideal))
    (Vr : Valuation Cert.ReferenceIdeal.τ Cert.ReferenceIdeal.sig (Elt Ideal))
    (h0 : Vr (Proc.devRef .tc Cert.ReferenceIdeal.main_arg0) = Vk (Proc.devRef .tc Cert.KernelIdeal.main_arg0))
    (h1 : Vr (Proc.devRef .tc Cert.ReferenceIdeal.main_arg1) = Vk (Proc.devRef .tc Cert.KernelIdeal.main_arg1))
    (h6 : Vr (Proc.devRef .tc Cert.ReferenceIdeal.main_arg6) = Vk (Proc.devRef .tc Cert.KernelIdeal.main_arg6))
    (h7 : Vr (Proc.devRef .tc Cert.ReferenceIdeal.main_arg7) = Vk (Proc.devRef .tc Cert.KernelIdeal.main_arg7)) :
    after rops Vr (Proc.devRef .tc Cert.ReferenceIdeal.main_v33) = after kops Vk (Proc.devRef .tc Cert.KernelIdeal.main_v33) := by
  simp only [rops, kops, Cert.ReferenceIdeal.Hand.ops, Cert.ReferenceIdeal.Hand.r0, Cert.ReferenceIdeal.Hand.r1, Cert.ReferenceIdeal.Hand.r2,
    Cert.ReferenceIdeal.Hand.r3, Cert.ReferenceIdeal.Hand.r4, Cert.ReferenceIdeal.Hand.r5, Cert.ReferenceIdeal.Hand.r6, Cert.ReferenceIdeal.Hand.r7,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5,
    List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.Lib.ConcatPair.cat2_fold, Cert.Lib.TypedRefCasts.ofBuf_toBuf]
  simp only [h0, h1, h6, h7]
  first | done | rfl

end Cert.Agree
end
-- ==== Proof.AgreeIntra.lean ====
/-
  From inputs that agree, the two programs compute the same intra-cohort loss (unit rows of the [64,4,256] input against the unit gene and pathway rows, masked, averaged).
  Both sides are evaluated to the composed term of the operations over the inputs; the terms are the same.
-/
import proofs.«181343_j12429635355015_2_alg».proof.Proof.AgreeOps

noncomputable section
namespace Cert.Agree
open Idealize.ShloMosaic Idealize.ShloMosaic.TcCoe Idealize.ShloMosaic.StableHlo Idealize.SL.Sem

set_option maxHeartbeats 4000000 in
theorem intra_agree (Vk : Valuation Cert.KernelIdeal.τ Cert.KernelIdeal.sig (Elt Ideal))
    (Vr : Valuation Cert.ReferenceIdeal.τ Cert.ReferenceIdeal.sig (Elt Ideal))
    (h2 : Vr (Proc.devRef .tc Cert.ReferenceIdeal.main_arg2) = Vk (Proc.devRef .tc Cert.KernelIdeal.main_arg2))
    (h3 : Vr (Proc.devRef .tc Cert.ReferenceIdeal.main_arg3) = Vk (Proc.devRef .tc Cert.KernelIdeal.main_arg3))
    (h4 : Vr (Proc.devRef .tc Cert.ReferenceIdeal.main_arg4) = Vk (Proc.devRef .tc Cert.KernelIdeal.main_arg4)) :
    after rops Vr (Proc.devRef .tc Cert.ReferenceIdeal.main_v68) = after kops Vk (Proc.devRef .tc Cert.KernelIdeal.main_v68) := by
  simp only [rops, kops, Cert.ReferenceIdeal.Hand.ops, Cert.ReferenceIdeal.Hand.r0, Cert.ReferenceIdeal.Hand.r1, Cert.ReferenceIdeal.Hand.r2,
    Cert.ReferenceIdeal.Hand.r3, Cert.ReferenceIdeal.Hand.r4, Cert.ReferenceIdeal.Hand.r5, Cert.ReferenceIdeal.Hand.r6, Cert.ReferenceIdeal.Hand.r7,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5,
    List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.Lib.ConcatPair.cat2_fold, Cert.Lib.TypedRefCasts.ofBuf_toBuf]
  simp only [h2, h3, h4]
  first | done | rfl

end Cert.Agree
end
-- ==== Proof.AgreeAnch.lean ====
/-
  From inputs that agree, the two programs compute the same unit anchors (the [64,4,256] input averaged over its middle axis, each row scaled to unit length).
  Both sides are evaluated to the composed term of the operations over the inputs; the terms are the same.
-/
import proofs.«181343_j12429635355015_2_alg».proof.Proof.AgreeOps

noncomputable section
namespace Cert.Agree
open Idealize.ShloMosaic Idealize.ShloMosaic.TcCoe Idealize.ShloMosaic.StableHlo Idealize.SL.Sem

set_option maxHeartbeats 4000000 in
theorem anch_agree (Vk : Valuation Cert.KernelIdeal.τ Cert.KernelIdeal.sig (Elt Ideal))
    (Vr : Valuation Cert.ReferenceIdeal.τ Cert.ReferenceIdeal.sig (Elt Ideal))
    (h2 : Vr (Proc.devRef .tc Cert.ReferenceIdeal.main_arg2) = Vk (Proc.devRef .tc Cert.KernelIdeal.main_arg2)) :
    after rops Vr (Proc.devRef .tc Cert.ReferenceIdeal.main_v79) = after kops Vk (Proc.devRef .tc Cert.KernelIdeal.main_v79) := by
  simp only [rops, kops, Cert.ReferenceIdeal.Hand.ops, Cert.ReferenceIdeal.Hand.r0, Cert.ReferenceIdeal.Hand.r1, Cert.ReferenceIdeal.Hand.r2,
    Cert.ReferenceIdeal.Hand.r3, Cert.ReferenceIdeal.Hand.r4, Cert.ReferenceIdeal.Hand.r5, Cert.ReferenceIdeal.Hand.r6, Cert.ReferenceIdeal.Hand.r7,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5,
    List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.Lib.ConcatPair.cat2_fold, Cert.Lib.TypedRefCasts.ofBuf_toBuf]
  simp only [h2]
  first | done | rfl

end Cert.Agree
end
-- ==== Proof.AgreeHot.lean ====
/-
  From labels that agree, the two programs compute the same 0/1 table of own classes (label against class number).
  Both sides are evaluated to the composed term of the operations over the inputs; the terms are the same.
-/
import proofs.«181343_j12429635355015_2_alg».proof.Proof.AgreeOps

noncomputable section
namespace Cert.Agree
open Idealize.ShloMosaic Idealize.ShloMosaic.TcCoe Idealize.ShloMosaic.StableHlo Idealize.SL.Sem

set_option maxHeartbeats 4000000 in
theorem hot_agree (Vk : Valuation Cert.KernelIdeal.τ Cert.KernelIdeal.sig (Elt Ideal))
    (Vr : Valuation Cert.ReferenceIdeal.τ Cert.ReferenceIdeal.sig (Elt Ideal))
    (h6 : Vr (Proc.devRef .tc Cert.ReferenceIdeal.main_arg6) = Vk (Proc.devRef .tc Cert.KernelIdeal.main_arg6)) :
    after rops Vr (Proc.devRef .tc Cert.ReferenceIdeal.main_v101) = after kops Vk (Proc.devRef .tc Cert.KernelIdeal.main_v86) := by
  simp only [rops, kops, Cert.ReferenceIdeal.Hand.ops, Cert.ReferenceIdeal.Hand.r0, Cert.ReferenceIdeal.Hand.r1, Cert.ReferenceIdeal.Hand.r2,
    Cert.ReferenceIdeal.Hand.r3, Cert.ReferenceIdeal.Hand.r4, Cert.ReferenceIdeal.Hand.r5, Cert.ReferenceIdeal.Hand.r6, Cert.ReferenceIdeal.Hand.r7,
    Cert.KernelIdeal.Gen.hostOps0, Cert.KernelIdeal.Gen.hostOps0_1, Cert.KernelIdeal.Gen.hostOps0_2, Cert.KernelIdeal.Gen.hostOps0_3,
    Cert.KernelIdeal.Gen.hostOps0_4, Cert.KernelIdeal.Gen.hostOps0_5,
    List.flatten_cons, List.flatten_nil, List.append_nil, List.cons_append, List.nil_append]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      Cert.Lib.ConcatPair.cat2_fold, Cert.Lib.TypedRefCasts.ofBuf_toBuf]
  simp only [h6]
  first | done | rfl

end Cert.Agree
end
-- ==== Proof.CohortLaws.lean ====
/-
  The laws that join the two programs' cohort totals, over the extended reals.

  With every weight a real number and the table 0/1:
  * the marked shares of the 32 tiles add up to the marked total (a tile's 256 rows are rows 256 t + n' of the bank, so
    the double sum over tiles and rows within a tile is the sum over all 8192 rows; multiplying a tile's row sum by a
    table entry 0 or 1 is multiplying each term);
  * the tiles' shares of all weights, minus the marked total, is the total weighted by one minus the table
    (termwise e = e h + e (1 - h), and subtraction of a FINITE number undoes its addition);
  and a weight is real whenever the bank and the anchors are: averaging, squaring, summing, the square root of a
  nonnegative real, the clamp by a positive real, division by a nonzero real and the exponential all stay among the reals.
-/
import proofs.«181343_j12429635355015_2_alg».proof.Proof.CohortSpec

noncomputable section

open scoped BigOperators

namespace Cert.Cohort

open Idealize.ShloMosaic Idealize.ShloMosaic.ValueIdx

/-! ## Real numbers among the extended reals -/

/-- An extended real that is a real number. -/
def IsR (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sum {ι : Type} (s : Finset ι) {f : ι → EReal} (hf : ∀ i, IsR (f i)) : IsR (∑ i ∈ s, f i) := by
  choose g hg using hf
  exact ⟨∑ i ∈ s, g i, by rw [coe_sum]; exact Finset.sum_congr rfl fun i _ => hg i⟩

/-- The literals as real numbers. -/
theorem four_eq : four = ((4 : ℝ) : EReal) := by
  unfold four; simp [Ideal.ofBits, Ideal.ieee, -EReal.coe_mul]; norm_num
theorem two_eq : two = ((2 : ℝ) : EReal) := by
  unfold two; simp [Ideal.ofBits, Ideal.ieee, -EReal.coe_mul]; norm_num
theorem one_eq : one = (1 : EReal) := by
  unfold one; simp [Ideal.ofBits, Ideal.ieee, -EReal.coe_mul]; norm_num
theorem tiny_pos : ∃ t : ℝ, 0 < t ∧ tiny = (t : EReal) := by
  refine ⟨9223372 * (2 : ℝ) ^ (-63 : ℤ), by positivity, ?_⟩
  unfold tiny; simp [Ideal.ofBits, Ideal.ieee, -EReal.coe_mul]

theorem IsR.div_real {x : EReal} (hx : IsR x) {y : ℝ} (hy : y ≠ 0) : IsR (Ideal.div x (y : EReal)) := by
  rw [Ideal.div_coe hy]; exact hx.mul ⟨_, rfl⟩

theorem IsR.exp {x : EReal} (hx : IsR x) : IsR (Ideal.exp x) := by
  obtain ⟨a, rfl⟩ := hx; exact ⟨Real.exp a, rfl⟩

/-- A vector of reals scaled to unit length is a vector of reals: the sum of squares is a nonnegative real, its square
    root a real, the clamp by a positive real a positive real. -/
theorem l2_real {n : Nat} {v : Fin n → EReal} (hv : ∀ c, IsR (v c)) (c : Fin n) : IsR (l2 v c) := by
  choose g hg using hv
  obtain ⟨t, ht, htiny⟩ := tiny_pos
  have hs : (∑ c' : Fin n, v c' * v c') = ((∑ c' : Fin n, g c' * g c' : ℝ) : EReal) := by
    rw [coe_sum]; exact Finset.sum_congr rfl fun i _ => by rw [hg i, EReal.coe_mul]
  have hnn : ¬ (∑ c' : Fin n, g c' * g c') < 0 := not_lt.mpr (Finset.sum_nonneg fun i _ => mul_self_nonneg _)
  unfold l2
  rw [hs, Ideal.sqrt_coe, if_neg hnn, htiny, ← (EReal.coe_strictMono.monotone.map_max)]
  exact (show IsR (v c) from ⟨g c, hg c⟩).div_real (ne_of_gt (lt_max_of_lt_right ht))

theorem cmean_real {N : Nat} {bank : (SBankN N).Idx → EReal} (hb : ∀ i, IsR (bank i)) (k : Fin 4) (n : Fin N) (c : Fin 256) :
    IsR (cmean bank k n c) := by
  unfold cmean; rw [four_eq]
  exact (IsR.sum _ fun j => hb _).div_real (by norm_num)

theorem ex_real {N : Nat} {anch : SAnch.Idx → EReal} {bank : (SBankN N).Idx → EReal} (ha : ∀ i, IsR (anch i)) (hb : ∀ i, IsR (bank i))
    (b : Fin 64) (k : Fin 4) (n : Fin N) : IsR (ex anch bank b k n) := by
  unfold ex sim unit; rw [two_eq]
  exact ((IsR.sum _ fun c => (ha _).mul (l2_real (fun c' => cmean_real hb k n c') c)).div_real (by norm_num)).exp

/-! ## Tiles and rows -/

/-- The 8192 rows are the 32 tiles' 256 rows each. -/
theorem sum_rows {M : Type} [AddCommMonoid M] (g : Fin 8192 → M) : ∑ n : Fin 8192, g n = ∑ t : Fin 32, ∑ n' : Fin 256, g (rowOf t n') := by
  have h := Equiv.sum_comp (finProdFinEquiv (m := 32) (n := 256)) g
  rw [← h, Fintype.sum_prod_type]
  refine Finset.sum_congr rfl fun t _ => Finset.sum_congr rfl fun n' _ => congrArg g (Fin.ext ?_)
  simp only [finProdFinEquiv_apply_val, rowOf]
  omega

/-- Multiplying a sum by 0 or by 1 is multiplying each term. -/
theorem sum_mul_bit {ι : Type} (s : Finset ι) (f : ι → EReal) {h : EReal} (hh : h = 0 ∨ h = 1) :
    (∑ i ∈ s, f i) * h = ∑ i ∈ s, f i * h := by
  rcases hh with rfl | rfl
  · simp
  · simp

/-- Three nested sums in the opposite order. -/
theorem sum_rot {M : Type} [AddCommMonoid M] {α β γ : Type} [Fintype α] [Fintype β] [Fintype γ] (g : α → β → γ → M) :
    ∑ a, ∑ b, ∑ c, g a b c = ∑ c, ∑ b, ∑ a, g a b c :=
  calc ∑ a, ∑ b, ∑ c, g a b c = ∑ a, ∑ c, ∑ b, g a b c := Finset.sum_congr rfl fun a _ => Finset.sum_comm
    _ = ∑ c, ∑ a, ∑ b, g a b c := Finset.sum_comm
    _ = ∑ c, ∑ b, ∑ a, g a b c := Finset.sum_congr rfl fun c _ => Finset.sum_comm

/-- Taking a real number away from its sum with anything gives the other back. -/
theorem real_add_sub_cancel (r : ℝ) (s : EReal) : ((r : EReal) + s) - (r : EReal) = s := by
  induction s using EReal.rec with
  | bot => simp
  | coe v => rw [← EReal.coe_add, ← EReal.coe_sub]; exact congrArg _ (by ring)
  | top => simp

variable (anch : SAnch.Idx → EReal) (bank : SBank.Idx → EReal) (hot : SHot.Idx → EReal)

/-- The total of all weights. -/
def allTotal : EReal := ∑ b : Fin 64, ∑ k : Fin 4, ∑ n : Fin 8192, ex anch bank b k n

/-- The tiles' marked shares add up to the marked total. -/
theorem sum_tilePos (hh : ∀ b k, hot (ix2 b k) = 0 ∨ hot (ix2 b k) = 1) :
    ∑ t : Fin 32, tilePos anch bank hot t = posTotal anch bank hot := by
  unfold tilePos tilePosOf posTotal
  simp only [ex_tileOf]
  have e1 : ∀ t : Fin 32, (∑ k : Fin 4, ∑ b : Fin 64, (∑ n' : Fin 256, ex anch bank b k (rowOf t n')) * hot (ix2 b k))
      = ∑ k : Fin 4, ∑ b : Fin 64, ∑ n' : Fin 256, ex anch bank b k (rowOf t n') * hot (ix2 b k) := fun t =>
    Finset.sum_congr rfl fun k _ => Finset.sum_congr rfl fun b _ => sum_mul_bit _ _ (hh b k)
  have e2 : ∀ (b : Fin 64) (k : Fin 4), (∑ n : Fin 8192, ex anch bank b k n * hot (ix2 b k))
      = ∑ t : Fin 32, ∑ n' : Fin 256, ex anch bank b k (rowOf t n') * hot (ix2 b k) := fun b k =>
    sum_rows fun n => ex anch bank b k n * hot (ix2 b k)
  simp only [e1, e2]
  exact sum_rot fun (t : Fin 32) (k : Fin 4) (b : Fin 64) => ∑ n' : Fin 256, ex anch bank b k (rowOf t n') * hot (ix2 b k)

/-- The tiles' shares of all weights add up to the total of all weights. -/
theorem sum_tileAll : ∑ t : Fin 32, tileAll anch bank t = allTotal anch bank := by
  unfold tileAll tileAllOf allTotal
  simp only [ex_tileOf]
  have e2 : ∀ (b : Fin 64) (k : Fin 4), (∑ n : Fin 8192, ex anch bank b k n)
      = ∑ t : Fin 32, ∑ n' : Fin 256, ex anch bank b k (rowOf t n') := fun b k => sum_rows fun n => ex anch bank b k n
  simp only [e2]
  exact sum_rot fun (t : Fin 32) (k : Fin 4) (b : Fin 64) => ∑ n' : Fin 256, ex anch bank b k (rowOf t n')

/-- Every weight is its marked part plus its unmarked part, so the totals add. -/
theorem allTotal_eq (hh : ∀ b k, hot (ix2 b k) = 0 ∨ hot (ix2 b k) = 1) :
    allTotal anch bank = posTotal anch bank hot + negTotal anch bank hot := by
  unfold allTotal posTotal negTotal
  simp only [← Finset.sum_add_distrib]
  refine Finset.sum_congr rfl fun b _ => Finset.sum_congr rfl fun k _ => Finset.sum_congr rfl fun n _ => ?_
  rw [one_eq]
  rcases hh b k with h | h <;> rw [h]
  · simp
  · have : (1 : EReal) - 1 = 0 := by rw [← EReal.coe_one, ← EReal.coe_sub, sub_self, EReal.coe_zero]
    rw [this]; simp

/-- With real weights: the tiles' total minus the tiles' marked total is the unmarked total. -/
theorem tiles_sub (hE : ∀ b k n, IsR (ex anch bank b k n)) (hh : ∀ b k, hot (ix2 b k) = 0 ∨ hot (ix2 b k) = 1) :
    (∑ t : Fin 32, tileAll anch bank t) - (∑ t : Fin 32, tilePos anch bank hot t) = negTotal anch bank hot := by
  rw [sum_tileAll, sum_tilePos anch bank hot hh, allTotal_eq anch bank hot hh]
  have hp : IsR (posTotal anch bank hot) := by
    unfold posTotal
    refine IsR.sum _ fun b => IsR.sum _ fun k => IsR.sum _ fun n => (hE b k n).mul ?_
    rcases hh b k with h | h <;> rw [h]
    · exact ⟨0, rfl⟩
    · exact ⟨1, rfl⟩
  obtain ⟨r, hr⟩ := hp
  rw [hr]
  exact real_add_sub_cancel r _

/-- THE LAW that joins the two programs: with real anchors and bank and a 0/1 table, the loss formed from the marked total
    and the directly taken unmarked total is the loss formed from the tiles' marked shares and the tiles' shares of all
    weights, the first subtracted from the second. -/
theorem loss_eq (n i : EReal) (hA : ∀ j, IsR (anch j)) (hB : ∀ j, IsR (bank j))
    (hH : ∀ b k, hot (ix2 b k) = 0 ∨ hot (ix2 b k) = 1) :
    lossDirect n i (posTotal anch bank hot) (negTotal anch bank hot)
      = lossSub n i (∑ t : Fin 32, tilePos anch bank hot t) (∑ t : Fin 32, tileAll anch bank t) := by
  rw [lossSub_eq_lossDirect n i _ _ _ (tiles_sub anch bank hot (fun b k n => ex_real hA hB b k n) hH),
    sum_tilePos anch bank hot hH]

end Cert.Cohort

end
-- ==== Proof.HostReal.lean ====
/-
  Two facts about what the host lines before the kernel leave: the unit anchors are real numbers when the [64,4,256]
  input is (sums, a quotient by 4, squares, the square root of a sum of squares, the clamp by a positive number and the
  quotient by it all stay among the reals), and the table of own classes holds only 0 and 1 (a one-bit word read as a number).
-/
import proofs.«181343_j12429635355015_2_alg».proof.Proof.Gen.KernelIdeal.Frame
import proofs.«181343_j12429635355015_2_alg».proof.Proof.CohortLaws
import Idealize.ShloMosaic.Lib.StableHlo.Run

noncomputable section
namespace Cert.HostReal
open Cert.Cohort Idealize.ShloMosaic Idealize.ShloMosaic.TcCoe Idealize.ShloMosaic.StableHlo Idealize.ShloMosaic.ValueIdx Idealize.SL.Sem

/-- A nonnegative real; a positive real. -/
def NN (x : EReal) : Prop := ∃ r : ℝ, 0 ≤ r ∧ x = (r : EReal)
def Pos (x : EReal) : Prop := ∃ r : ℝ, 0 < r ∧ x = (r : EReal)

variable {s t u : Shape}

theorem nn_sum {ι : Type} (S : Finset ι) {f : ι → EReal} (hf : ∀ i, NN (f i)) : NN (∑ i ∈ S, f i) := by
  choose g hg0 hg using hf
  exact ⟨∑ i ∈ S, g i, Finset.sum_nonneg fun i _ => hg0 i, by rw [coe_sum]; exact Finset.sum_congr rfl fun i _ => hg i⟩

theorem isR_reduceAdd {axes : List (Fin s.rank)} (x : FVec Ideal s .f32) (init : u.Idx → Ideal .f32) (h : s.ReducesTo axes t)
    (hu : 0 < u.numel) (j : t.Idx) (hx : ∀ i, IsR (x i)) (hi : ∀ i, IsR (init i)) : IsR (Host.reduceAdd x init h hu j) := by
  show IsR (init _ + ∑ i ∈ Finset.univ.filter _, x i)
  exact (hi _).add (IsR.sum _ hx)
theorem nn_reduceAdd {axes : List (Fin s.rank)} (x : FVec Ideal s .f32) (init : u.Idx → Ideal .f32) (h : s.ReducesTo axes t)
    (hu : 0 < u.numel) (j : t.Idx) (hx : ∀ i, NN (x i)) (hi : ∀ i, init i = 0) : NN (Host.reduceAdd x init h hu j) := by
  show NN (init _ + ∑ i ∈ Finset.univ.filter _, x i)
  rw [hi, zero_add]; exact nn_sum _ hx
theorem const_zero (i : s.Idx) : constant (F := Ideal) s .f32 0x00000000#32 i = 0 := Ideal.ofBits_zero_f32
theorem isR_const_zero (i : s.Idx) : IsR (constant (F := Ideal) s .f32 0x00000000#32 i) := ⟨0, const_zero i⟩
theorem pos_four (i : s.Idx) : Pos (constant (F := Ideal) s .f32 0x40800000#32 i) := ⟨4, by norm_num, four_eq⟩
theorem pos_tiny (i : s.Idx) : Pos (constant (F := Ideal) s .f32 0x2B8CBCCC#32 i) := tiny_pos
theorem pos_bcast (dims : Fin s.rank → Fin t.rank) (h : s.BroadcastsInDim t dims) (x : s.Idx → EReal) (j : t.Idx)
    (hx : ∀ i, Pos (x i)) : Pos (broadcastInDim t dims h x j) := hx _
theorem nn_bcast (dims : Fin s.rank → Fin t.rank) (h : s.BroadcastsInDim t dims) (x : s.Idx → EReal) (j : t.Idx)
    (hx : ∀ i, NN (x i)) : NN (broadcastInDim t dims h x j) := hx _
theorem isR_divf (x y : FVec Ideal s .f32) (i : s.Idx) (hx : IsR (x i)) (hy : Pos (y i)) : IsR (Host.divf x y i) := by
  obtain ⟨r, hr, e⟩ := hy
  show IsR (Ideal.div (x i) (y i))
  rw [e]; exact hx.div_real (ne_of_gt hr)
theorem nn_mul_self (x : FVec Ideal s .f32) (i : s.Idx) (hx : IsR (x i)) : NN (mulf x x i) := by
  obtain ⟨r, e⟩ := hx
  exact ⟨r * r, mul_self_nonneg r, by show x i * x i = _; rw [e, EReal.coe_mul]⟩
theorem nn_sqrt (x : FVec Ideal s .f32) (i : s.Idx) (hx : NN (x i)) : NN (Host.sqrt x i) := by
  obtain ⟨r, hr, e⟩ := hx
  refine ⟨Real.sqrt r, Real.sqrt_nonneg r, ?_⟩
  show Ideal.sqrt (x i) = _
  rw [e, Ideal.sqrt_coe, if_neg (not_lt.mpr hr)]
theorem pos_max (x y : FVec Ideal s .f32) (i : s.Idx) (hx : NN (x i)) (hy : Pos (y i)) : Pos (maximumf x y i) := by
  obtain ⟨a, _, ea⟩ := hx; obtain ⟨b, hb, eb⟩ := hy
  refine ⟨max a b, lt_max_of_lt_right hb, ?_⟩
  show max (x i) (y i) = _
  rw [ea, eb]; exact (EReal.coe_strictMono.monotone.map_max).symm
/-- A one-bit word read as a number is 0 or 1. -/
theorem uitofp_bit (w : IVec s 1) (i : s.Idx) : uitofp (F := Ideal) .f32 w i = 0 ∨ uitofp (F := Ideal) .f32 w i = 1 := by
  show (((w i).toNat : ℝ) : EReal) = 0 ∨ (((w i).toNat : ℝ) : EReal) = 1
  rcases BitVec.eq_zero_or_eq_one (w i) with h | h <;> rw [h]
  · left; simp
  · right; simp

open Cert.KernelIdeal Cert.KernelIdeal.Gen

variable (m : (ℓ : Loc nD τ sig) → Buf (Elt Ideal) ℓ)

set_option maxHeartbeats 2000000 in
/-- The unit anchors the kernel is given are real when the input they are made from is. -/
theorem anchors_real (c : Dev nD) (h2 : ∀ i, IsR (m ((c.tc : Thread nD τ).loc main_arg2) i)) : ∀ i, IsR (V m c main_v79 i) := by
  show ∀ i, IsR (StableHlo.after (List.flatten [hostOps0, hostOps0_1, hostOps0_2, hostOps0_3, hostOps0_4, hostOps0_5]) (fun b => m (c, b)) (Proc.devRef .tc main_v79) i)
  simp only [hostOps0, hostOps0_1, hostOps0_2, hostOps0_3, hostOps0_4, hostOps0_5, List.flatten_cons, List.flatten_nil, List.append_nil, List.cons_append, List.nil_append]
  after_results_simp
  intro i
  repeat' first
    | exact h2 _
    | exact isR_const_zero _
    | exact const_zero _
    | exact pos_four _
    | exact pos_tiny _
    | intro _
    | apply isR_divf
    | apply isR_reduceAdd
    | apply pos_bcast
    | apply pos_max
    | apply nn_sqrt
    | apply nn_bcast
    | apply nn_reduceAdd
    | apply nn_mul_self

end Cert.HostReal
end
-- ==== Proof.HostHot.lean ====
/-
  The table of own classes the kernel is given holds 0 and 1 only: it is a comparison's one-bit answer read as a number.
-/
import proofs.«181343_j12429635355015_2_alg».proof.Proof.HostReal

noncomputable section
namespace Cert.HostReal
open Cert.Cohort Idealize.ShloMosaic Idealize.ShloMosaic.TcCoe Idealize.ShloMosaic.StableHlo Idealize.ShloMosaic.ValueIdx Idealize.SL.Sem
open Cert.KernelIdeal Cert.KernelIdeal.Gen

variable (m : (ℓ : Loc nD τ sig) → Buf (Elt Ideal) ℓ)

set_option maxHeartbeats 2000000 in
theorem hot_bit (c : Dev nD) (b : Fin 64) (k : Fin 4) :
    V m c main_v86 (ix2 b k) = (0 : EReal) ∨ V m c main_v86 (ix2 b k) = (1 : EReal) := by
  show StableHlo.after (List.flatten [hostOps0, hostOps0_1, hostOps0_2, hostOps0_3, hostOps0_4, hostOps0_5]) (fun b => m (c, b)) (Proc.devRef .tc main_v86) (ix2 b k) = (0 : EReal) ∨ _
  simp only [hostOps0, hostOps0_1, hostOps0_2, hostOps0_3, hostOps0_4, hostOps0_5, List.flatten_cons, List.flatten_nil, List.append_nil, List.cons_append, List.nil_append]
  after_results_simp
  exact uitofp_bit _ _

end Cert.HostReal
end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.PreReal.lean ====
/-
  The precondition read back: when the test "every float input is finite" answers true, every entry of the
  [64,4,256] input and of the bank is a real number. The test is a conjunction of six totals by `and`; each total that is 1
  had a 1 at every index, and an entry whose absolute value compares below +inf is a real number.
-/
import proofs.«181343_j12429635355015_2_alg».proof.Pre_finite_inputs
import proofs.«181343_j12429635355015_2_alg».proof.Proof.Gen.Pre_finite_inputs
import proofs.«181343_j12429635355015_2_alg».proof.Proof.LibFiniteEReal
import proofs.«181343_j12429635355015_2_alg».proof.Proof.CohortLaws
import Idealize.ShloMosaic.Lib.ReduceAll
import Idealize.ShloMosaic.Lib.Affine

noncomputable section
namespace Cert.PreReal
open Cert.Pre_finite_inputs Cert.Pre_finite_inputs.Gen Cert.Cohort Idealize.ShloMosaic Idealize.ShloMosaic.ValueIdx

instance : Subsingleton S_.Idx := ⟨fun a b => funext fun d => d.elim0⟩

theorem finite_of_pre (a0 a1 : FVec Ideal S64x4 .f32) (a2 : FVec Ideal S64x4x256 .f32) (a3 a4 : FVec Ideal S64x1x256 .f32)
    (a5 : FVec Ideal S4x8192x4x256 .f32) (a6 a7 : IVec S64 32)
    (h : Cert.Pre_finite_inputs.fn (F := Ideal) a0 a1 a2 a3 a4 a5 a6 a7 = fun _ => 1#1) :
    (∀ i, IsR (a2 i)) ∧ (∀ i, IsR (a5 i)) := by
  have h0 := congrFun h ix0
  dsimp only [Cert.Pre_finite_inputs.fn, Cert.Pre_finite_inputs.fn_part1, andi] at h0
  obtain ⟨h01, h5⟩ := IntOp.andi_eq_one.mp h0
  obtain ⟨h02, _⟩ := IntOp.andi_eq_one.mp h01
  obtain ⟨h03, _⟩ := IntOp.andi_eq_one.mp h02
  obtain ⟨_, h2⟩ := IntOp.andi_eq_one.mp h03
  exact ⟨fun i => Cert.Lib.FiniteEReal.real_of_abs_lt (a2 i) (Host.reduce_andi_all _ _ _ _ _ h2 i),
    fun i => Cert.Lib.FiniteEReal.real_of_abs_lt (a5 i) (Host.reduce_andi_all _ _ _ _ _ h5 i)⟩
end Cert.PreReal
end
-- ==== Proof.lean ====
/-
  The certificate of the cohort loss: a multi-loss (a survival loss, an intra-cohort loss, a contrastive cohort-bank term)
  computed by a program whose bank term runs as a tiled kernel, against the plain program.

  Both programs compute the survival loss, the intra-cohort loss, the unit anchors and the 0/1 table of own classes by
  the same host operations on the same inputs, so those four agree. The bank term needs, over all (anchor, class, row)
  triples, the total of the weights exp (similarity / 2) marked by the table and the total of the unmarked ones. The plain
  program sums weight x table and weight x (1 - table) over the whole bank. The kernel walks the bank in 32 tiles of 256
  rows, accumulating per tile the marked weights and ALL weights; the host then subtracts the first total from the
  second. Over the extended reals the two agree because, the inputs being finite, every weight is a real number: a
  real subtracted from its sum with anything gives the other back, and a sum multiplied by a table entry 0 or 1 is the sum
  of the products. The frames of the two kernel programs are the generated ones; the plain program's frame is its run.
-/
import proofs.«181343_j12429635355015_2_alg».proof.Defs
import proofs.«181343_j12429635355015_2_alg».proof.Proof.Gen.Kernel.Frame
import proofs.«181343_j12429635355015_2_alg».proof.Proof.Gen.KernelIdeal.Frame
import proofs.«181343_j12429635355015_2_alg».proof.Proof.Gen.ReferenceIdeal
import proofs.«181343_j12429635355015_2_alg».proof.Proof.Gen.Pre_finite_inputs
import proofs.«181343_j12429635355015_2_alg».proof.Proof.KernelRun
import proofs.«181343_j12429635355015_2_alg».proof.Proof.KernelAcc
import proofs.«181343_j12429635355015_2_alg».proof.Proof.RefRun
import proofs.«181343_j12429635355015_2_alg».proof.Proof.RefRead
import proofs.«181343_j12429635355015_2_alg».proof.Proof.AgreeNll
import proofs.«181343_j12429635355015_2_alg».proof.Proof.AgreeIntra
import proofs.«181343_j12429635355015_2_alg».proof.Proof.AgreeAnch
import proofs.«181343_j12429635355015_2_alg».proof.Proof.AgreeHot
import proofs.«181343_j12429635355015_2_alg».proof.Proof.HostHot
import proofs.«181343_j12429635355015_2_alg».proof.Proof.PreReal
import Idealize.ShloMosaic.Adequacy
import Idealize.ShloMosaic.Init

noncomputable section

namespace Cert.Proof

open Idealize.ShloMosaic Idealize.SL.Sem Idealize.ShloMosaic.TcCoe Idealize.ShloMosaic.ValueIdx Idealize.ShloMosaic.StableHlo Cert.Cohort

theorem frame_k : Cert.frame_Kernel := fun m ρ _ => Cert.Kernel.Gen.frame m ρ
theorem frame_ki : Cert.frame_KernelIdeal := fun m ρ _ => Cert.KernelIdeal.Gen.frame m ρ

/-- The plain program's frame is its run with the values dropped: no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Read.arg0_kept _),
     (h c Cert.ReferenceIdeal.main_arg1).trans (Cert.ReferenceIdeal.Read.arg1_kept _),
     (h c Cert.ReferenceIdeal.main_arg2).trans (Cert.ReferenceIdeal.Read.arg2_kept _),
     (h c Cert.ReferenceIdeal.main_arg3).trans (Cert.ReferenceIdeal.Read.arg3_kept _),
     (h c Cert.ReferenceIdeal.main_arg4).trans (Cert.ReferenceIdeal.Read.arg4_kept _),
     (h c Cert.ReferenceIdeal.main_arg5).trans (Cert.ReferenceIdeal.Read.arg5_kept _),
     (h c Cert.ReferenceIdeal.main_arg6).trans (Cert.ReferenceIdeal.Read.arg6_kept _),
     (h c Cert.ReferenceIdeal.main_arg7).trans (Cert.ReferenceIdeal.Read.arg7_kept _)⟩)
    (Cert.ReferenceIdeal.Hand.run_main (F := Ideal) m ρ)

open Cert.KernelIdeal Cert.KernelIdeal.Gen in
/-- The two results, from memories that agree on the arguments and hold finite inputs. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    after (Cert.ReferenceIdeal.Hand.ops (F := Ideal)) (launchContents m' c) (Proc.devRef .tc Cert.ReferenceIdeal.main_v120)
      = fun _ => lossSub (V m c main_v33 ix0) (V m c main_v68 ix0)
          ((dats m 0 c).arrAt 3 cfg0.N (ix2 0 0)) ((dats m 0 c).arrAt 4 cfg0.N (ix2 0 0)) := by
  obtain ⟨hr2, hr5⟩ := Cert.PreReal.finite_of_pre _ _ _ _ _ _ _ _ (hpre c)
  have e33 := Cert.Agree.nll_agree (fun b => m (c, b)) (launchContents m' c) h0 h1 h6 h7
  have e68 := Cert.Agree.intra_agree (fun b => m (c, b)) (launchContents m' c) h2 h3 h4
  have e79 := Cert.Agree.anch_agree (fun b => m (c, b)) (launchContents m' c) h2
  have e101 := Cert.Agree.hot_agree (fun b => m (c, b)) (launchContents m' c) h6
  have e5 : launchContents m' c (Proc.devRef .tc Cert.ReferenceIdeal.main_arg5) = V m c main_arg5 := h5.trans (V_main_arg5 m c).symm
  have f3 := congrFun (Cert.KernelIdeal.Acc.final_pos m c) (ix2 0 0)
  have f4 := congrFun (Cert.KernelIdeal.Acc.final_all m c) (ix2 0 0)
  refine (Cert.ReferenceIdeal.Read.out_eq (launchContents m' c)).trans ?_
  funext _
  rw [e33, e68, e79, e101, e5]
  refine (loss_eq (V m c main_v79) (V m c main_arg5) (V m c main_v86) _ _
    (Cert.HostReal.anchors_real m c hr2) ?_ (Cert.HostReal.hot_bit m c)).trans ?_
  · intro j; rw [V_main_arg5 m c]; exact hr5 j
  · rw [f3, f4]

/-- From memories agreeing on the arguments both programs run, end with equal results and unchanged arguments. -/
theorem algebraic : Cert.algebraic_KernelIdeal_ReferenceIdeal := by
  intro m ρ m' ρ' hpre hagree
  refine ⟨fun c => (fun _ => lossSub (Cert.KernelIdeal.Gen.V m c Cert.KernelIdeal.main_v33 ix0) (Cert.KernelIdeal.Gen.V m c Cert.KernelIdeal.main_v68 ix0)
      ((Cert.KernelIdeal.Gen.dats m 0 c).arrAt 3 Cert.KernelIdeal.cfg0.N (ix2 0 0)) ((Cert.KernelIdeal.Gen.dats m 0 c).arrAt 4 Cert.KernelIdeal.cfg0.N (ix2 0 0))),
    Cert.KernelIdeal.Tail.run m ρ, ?_⟩
  refine (θ_run Cert.ReferenceIdeal.defs _ _).mono (fun _ h c =>
    ⟨(h c Cert.ReferenceIdeal.main_v120).trans (result_eq m m' c hpre (hagree c).1 (hagree c).2.1 (hagree c).2.2.1 (hagree c).2.2.2.1
        (hagree c).2.2.2.2.1 (hagree c).2.2.2.2.2.1 (hagree c).2.2.2.2.2.2.1 (hagree c).2.2.2.2.2.2.2),
     (h c Cert.ReferenceIdeal.main_arg0).trans (Cert.ReferenceIdeal.Read.arg0_kept _),
     (h c Cert.ReferenceIdeal.main_arg1).trans (Cert.ReferenceIdeal.Read.arg1_kept _),
     (h c Cert.ReferenceIdeal.main_arg2).trans (Cert.ReferenceIdeal.Read.arg2_kept _),
     (h c Cert.ReferenceIdeal.main_arg3).trans (Cert.ReferenceIdeal.Read.arg3_kept _),
     (h c Cert.ReferenceIdeal.main_arg4).trans (Cert.ReferenceIdeal.Read.arg4_kept _),
     (h c Cert.ReferenceIdeal.main_arg5).trans (Cert.ReferenceIdeal.Read.arg5_kept _),
     (h c Cert.ReferenceIdeal.main_arg6).trans (Cert.ReferenceIdeal.Read.arg6_kept _),
     (h c Cert.ReferenceIdeal.main_arg7).trans (Cert.ReferenceIdeal.Read.arg7_kept _)⟩)
    (Cert.ReferenceIdeal.Hand.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
